-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S64x128 : Shape := ⟨2, ![64, 128]⟩
abbrev S192x128 : Shape := ⟨2, ![192, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S64x128 : S_.BroadcastsInDim S64x128 (![] : Fin 0 → Fin S64x128.rank)
  reducesTo_S64x128_S_d0_1 : S64x128.ReducesTo [0, 1] S_
  bcast_S_S192x128 : S_.BroadcastsInDim S192x128 (![] : Fin 0 → Fin S192x128.rank)
  reducesTo_S192x128_S_d0_1 : S192x128.ReducesTo [0, 1] S_

variable [Facts]

def fn_part3 {F : FTy → Type} [FloatOps F] (main_arg11 : FVec F S128 .f32) (main_v48 : IVec S_ 1) (main_v49 : FVec F S192x128 .f32) (main_v50 : FVec F S192x128 .f32) : IVec S_ 1 :=
  let main_v51 : IVec S192x128 1 := cmpf .olt main_v49 main_v50
  let main_c_19 : IVec S_ 1 := constantI S_ 1 1#1
  let main_v52 : IVec S_ 1 := (fun x v => Host.reduce IntOp.andi x v reducesTo_S192x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S64 .f32) (main_arg8 : FVec F S64x128 .f32) (main_arg9 : FVec F S128 .f32) (main_arg10 : FVec F S192x128 .f32) (main_arg11 : FVec F S128 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S192x128 .f32 := Host.absf main_arg10
  let main_cst_18 : FVec F S_ .f32 := constant S_ .f32 0x7F800000#32
  let main_v50 : FVec F S192x128 .f32 := broadcastInDim S192x128 ![] bcast_S_S192x128 main_cst_18
  fn_part3 (F := F) main_arg11 main_v48 main_v49 main_v50

def fn_part1 {F : FTy → Type} [FloatOps F] (main_arg4 : FVec F S128x64 .f32) (main_arg5 : FVec F S64 .f32) (main_arg6 : FVec F S192x64 .f32) (main_arg7 : FVec F S64 .f32) (main_arg8 : FVec F S64x128 .f32) (main_arg9 : FVec F S128 .f32) (main_arg10 : FVec F S192x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S192x64 .f32) (main_arg7 : FVec F S64 .f32) (main_arg8 : FVec F S64x128 .f32) (main_arg9 : FVec F S128 .f32) (main_arg10 : FVec F S192x128 .f32) (main_arg11 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S64x128 : Shape := ⟨2, ![64, 128]⟩
abbrev S192x128 : Shape := ⟨2, ![192, 128]⟩
abbrev S1x128 : Shape := ⟨2, ![1, 128]⟩
abbrev S1x64 : Shape := ⟨2, ![1, 64]⟩
abbrev S_ : Shape := ⟨0, ![]⟩
abbrev S64x64 : Shape := ⟨2, ![64, 64]⟩
abbrev S128x256 : Shape := ⟨2, ![128, 256]⟩
abbrev S256x256 : Shape := ⟨2, ![256, 256]⟩
abbrev S200x10000 : Shape := ⟨2, ![200, 10000]⟩
abbrev S200x128 : Shape := ⟨2, ![200, 128]⟩
abbrev S1000x10000 : Shape := ⟨2, ![1000, 10000]⟩
abbrev S1000x128 : Shape := ⟨2, ![1000, 128]⟩
abbrev S1000x256 : Shape := ⟨2, ![1000, 256]⟩

abbrev nBuf : Space → Nat
  | .hbm => 55
  | .vmem => 42
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S192x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S192x128, .f32⟩
  | .hbm, ⟨11, _⟩ => ⟨S128, .f32⟩
  | .hbm, ⟨12, _⟩ => ⟨S1x128, .f32⟩
  | .hbm, ⟨13, _⟩ => ⟨S1x64, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S1x64, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S_, .i32⟩
  | .hbm, ⟨24, _⟩ => ⟨S_, .f32⟩
  | .hbm, ⟨25, _⟩ => ⟨S128x128, .f32⟩
  | .hbm, ⟨26, _⟩ => ⟨S128x128, .bf16⟩
  | .hbm, ⟨27, _⟩ => ⟨S128x128, .f32⟩
  | .hbm, ⟨28, _⟩ => ⟨S64x128, .f32⟩
  | .hbm, ⟨29, _⟩ => ⟨S_, .i32⟩
  | .hbm, ⟨30, _⟩ => ⟨S_, .f32⟩
  | .hbm, ⟨31, _⟩ => ⟨S128x128, .f32⟩
  | .hbm, ⟨32, _⟩ => ⟨S128x64, .f32⟩
  | .hbm, ⟨33, _⟩ => ⟨S_, .i32⟩
  | .hbm, ⟨34, _⟩ => ⟨S_, .f32⟩
  | .hbm, ⟨35, _⟩ => ⟨S128x128, .f32⟩
  | .hbm, ⟨36, _⟩ => ⟨S64x64, .f32⟩
  | .hbm, ⟨37, _⟩ => ⟨S_, .i32⟩
  | .hbm, ⟨38, _⟩ => ⟨S_, .f32⟩
  | .hbm, ⟨39, _⟩ => ⟨S128x128, .f32⟩
  | .hbm, ⟨40, _⟩ => ⟨S128x256, .f32⟩
  | .hbm, ⟨41, _⟩ => ⟨S128x256, .f32⟩
  | .hbm, ⟨42, _⟩ => ⟨S256x256, .f32⟩
  | .hbm, ⟨43, _⟩ => ⟨S256x256, .bf16⟩
  | .hbm, ⟨44, _⟩ => ⟨S_, .i32⟩
  | .hbm, ⟨45, _⟩ => ⟨S_, .f32⟩
  | .hbm, ⟨46, _⟩ => ⟨S128x128, .f32⟩
  | .hbm, ⟨47, _⟩ => ⟨S128x128, .bf16⟩
  | .hbm, ⟨48, _⟩ => ⟨S10000x10000, .bf16⟩
  | .hbm, ⟨49, _⟩ => ⟨S10000x128, .f32⟩
  | .hbm, ⟨50, _⟩ => ⟨S10000x128, .bf16⟩
  | .hbm, ⟨51, _⟩ => ⟨S10000x128, .f32⟩
  | .hbm, ⟨52, _⟩ => ⟨S10000x128, .bf16⟩
  | .hbm, ⟨53, _⟩ => ⟨S10000x128, .bf16⟩
  | .hbm, ⟨54, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .bf16⟩
  | .local _ .vmem, ⟨6, _⟩ => ⟨S200x10000, .bf16⟩
  | .local _ .vmem, ⟨7, _⟩ => ⟨S200x10000, .bf16⟩
  | .local _ .vmem, ⟨8, _⟩ => ⟨S200x128, .f32⟩
  | .local _ .vmem, ⟨9, _⟩ => ⟨S200x128, .f32⟩
  | .local _ .vmem, ⟨10, _⟩ => ⟨S200x128, .bf16⟩
  | .local _ .vmem, ⟨11, _⟩ => ⟨S200x128, .bf16⟩
  | .local _ .vmem, ⟨12, _⟩ => ⟨S10000x128, .bf16⟩
  | .local _ .vmem, ⟨13, _⟩ => ⟨S1000x10000, .bf16⟩
  | .local _ .vmem, ⟨14, _⟩ => ⟨S1000x10000, .bf16⟩
  | .local _ .vmem, ⟨15, _⟩ => ⟨S10000x128, .bf16⟩
  | .local _ .vmem, ⟨16, _⟩ => ⟨S1x128, .f32⟩
  | .local _ .vmem, ⟨17, _⟩ => ⟨S1000x128, .f32⟩
  | .local _ .vmem, ⟨18, _⟩ => ⟨S1000x128, .f32⟩
  | .local _ .vmem, ⟨19, _⟩ => ⟨S256x256, .bf16⟩
  | .local _ .vmem, ⟨20, _⟩ => ⟨S1x128, .f32⟩
  | .local _ .vmem, ⟨21, _⟩ => ⟨S1000x128, .f32⟩
  | .local _ .vmem, ⟨22, _⟩ => ⟨S1000x128, .f32⟩
  | .local _ .vmem, ⟨23, _⟩ => ⟨S1000x128, .bf16⟩
  | .local _ .vmem, ⟨24, _⟩ => ⟨S1000x128, .bf16⟩
  | .local _ .vmem, ⟨25, _⟩ => ⟨S1000x10000, .bf16⟩
  | .local _ .vmem, ⟨26, _⟩ => ⟨S1000x10000, .bf16⟩
  | .local _ .vmem, ⟨27, _⟩ => ⟨S10000x128, .bf16⟩
  | .local _ .vmem, ⟨28, _⟩ => ⟨S1x128, .f32⟩
  | .local _ .vmem, ⟨29, _⟩ => ⟨S128x128, .bf16⟩
  | .local _ .vmem, ⟨30, _⟩ => ⟨S1000x128, .bf16⟩
  | .local _ .vmem, ⟨31, _⟩ => ⟨S1000x128, .bf16⟩
  | .local _ .vmem, ⟨32, _⟩ => ⟨S1000x10000, .bf16⟩
  | .local _ .vmem, ⟨33, _⟩ => ⟨S1000x10000, .bf16⟩
  | .local _ .vmem, ⟨34, _⟩ => ⟨S10000x128, .bf16⟩
  | .local _ .vmem, ⟨35, _⟩ => ⟨S1x128, .f32⟩
  | .local _ .vmem, ⟨36, _⟩ => ⟨S1000x128, .f32⟩
  | .local _ .vmem, ⟨37, _⟩ => ⟨S1000x128, .f32⟩
  | .local _ .vmem, ⟨38, _⟩ => ⟨S1000x128, .f32⟩
  | .local _ .vmem, ⟨39, _⟩ => ⟨S1000x128, .f32⟩
  | .local _ .vmem, ⟨40, _⟩ => ⟨S1000x128, .f32⟩
  | .local _ .vmem, ⟨41, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_call3_v0 : Ref sig .tc := ⟨.hbm, 30, rfl⟩
abbrev main_v11 : Ref sig .tc := ⟨.hbm, 31, rfl⟩
abbrev main_v12 : Ref sig .tc := ⟨.hbm, 32, rfl⟩
abbrev main_c_3 : Ref sig .tc := ⟨.hbm, 33, rfl⟩
abbrev main_call4_v0 : Ref sig .tc := ⟨.hbm, 34, rfl⟩
abbrev main_v13 : Ref sig .tc := ⟨.hbm, 35, rfl⟩
abbrev main_v14 : Ref sig .tc := ⟨.hbm, 36, rfl⟩
abbrev main_c_4 : Ref sig .tc := ⟨.hbm, 37, rfl⟩
abbrev main_call5_v0 : Ref sig .tc := ⟨.hbm, 38, rfl⟩
abbrev main_v15 : Ref sig .tc := ⟨.hbm, 39, rfl⟩
abbrev main_call6_v0 : Ref sig .tc := ⟨.hbm, 40, rfl⟩
abbrev main_call6_v1 : Ref sig .tc := ⟨.hbm, 41, rfl⟩
abbrev main_v16 : Ref sig .tc := ⟨.hbm, 42, rfl⟩
abbrev main_v17 : Ref sig .tc := ⟨.hbm, 43, rfl⟩
abbrev main_c_5 : Ref sig .tc := ⟨.hbm, 44, rfl⟩
abbrev main_call7_v0 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v20_2 : Ref sig .tc := ⟨.hbm, 50, rfl⟩
abbrev main_v21_0 : Ref sig .tc := ⟨.hbm, 51, rfl⟩
abbrev main_v21_1 : Ref sig .tc := ⟨.hbm, 52, rfl⟩
abbrev main_v22 : Ref sig .tc := ⟨.hbm, 53, rfl⟩
abbrev main_v23 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem4_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem5_1 : DmaSem sig := 40

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  shapeCasts_S64_S1x64 : S64.ShapeCasts S1x64
  pads_S1x64_S1x128_000_0640 : S1x64.Pads (![0, 0] : Fin 2 → Nat) ![0, 64] ![0, 0] S1x128
  h_S_ : 0 < S_.numel
  pads_S128x64_S128x128_000_0640 : S128x64.Pads (![0, 0] : Fin 2 → Nat) ![0, 64] ![0, 0] S128x128
  bitsLt_bf16_f32 : FTy.bits .bf16 < FTy.bits .f32
  slices_S192x128_S128x128_0_0 : S192x128.Slices ![0, 0] S128x128
  slices_S192x128_S64x128_128_0 : S192x128.Slices ![128, 0] S64x128
  pads_S64x128_S128x128_0640_000 : S64x128.Pads (![0, 0] : Fin 2 → Nat) ![64, 0] ![0, 0] S128x128
  slices_S192x64_S128x64_0_0 : S192x64.Slices ![0, 0] S128x64
  slices_S192x64_S64x64_128_0 : S192x64.Slices ![128, 0] S64x64
  pads_S64x64_S128x128_0640_0640 : S64x64.Pads (![0, 0] : Fin 2 → Nat) ![64, 64] ![0, 0] S128x128
  concatenates_S128x128_S128x128_S128x256_d1 : Shape.Concatenates [S128x128, S128x128] S128x256 1
  concatenates_S128x256_S128x256_S256x256_d0 : Shape.Concatenates [S128x256, S128x256] S256x256 0
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  shapeCasts_S128x128_S128x128 : S128x128.ShapeCasts S128x128
  packedbf16_S200x128_S200x128_0_0 : (Rect.unit (s := S200x128) ![0, 0] S200x128.size inb_S200x128_S200x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  concatenates_S1000x128_S1000x128_S1000x256_d1 : Shape.Concatenates [S1000x128, S1000x128] S1000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S1000x256_o0_0_S1000x128 : S1000x256.Slices ![0, 0] S1000x128
  slices_S1000x256_o0_128_S1000x128 : S1000x256.Slices ![0, 128] S1000x128
  packedbf16_S1000x128_S1000x128_0_0 : (Rect.unit (s := S1000x128) ![0, 0] S1000x128.size inb_S1000x128_S1000x128_0_0).PackedRows (EltTy.packing .bf16)
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S1000x10000_S10000x128_S1000x128_1_0_0_1_n_n_wf : DotDims.WF S1000x10000 S10000x128 S1000x128 [1] [0] [0] [1] [] []
  dot_S1000x256_S256x256_S1000x256_1_0_0_1_n_n_wf : DotDims.WF S1000x256 S256x256 S1000x256 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x10000.size a ≤ S10000x10000.size a
  hwx0_5 : ∀ i : grid0.Coords, EltTy.bits .bf16 = 32 ∨ (Rect.block (s := S10000x10000) S200x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .f32 = 32 ∨ (Rect.block (s := S10000x128) S200x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x128.size a ≤ S10000x128.size a
  hwx0_7 : ∀ i : grid0.Coords, EltTy.bits .bf16 = 32 ∨ (Rect.block (s := S10000x128) S200x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .f32 = 32 ∨ (Rect.block (s := S10000x128) S1000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x128.size a ≤ S10000x128.size a
  hwx1_7 : ∀ i : grid1.Coords, EltTy.bits .bf16 = 32 ∨ (Rect.block (s := S10000x128) S1000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S10000x128.size a
  hwx2_4 : ∀ i : grid2.Coords, EltTy.bits .bf16 = 32 ∨ (Rect.block (s := S10000x128) S1000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S10000x128.size a
  hwx3_3 : ∀ i : grid3.Coords, EltTy.bits .f32 = 32 ∨ (Rect.block (s := S10000x128) S1000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x128.size a ≤ S10000x128.size a
  hwx3_4 : ∀ i : grid3.Coords, EltTy.bits .f32 = 32 ∨ (Rect.block (s := S10000x128) S1000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S10000x128.size a
  hwx3_5 : ∀ i : grid3.Coords, EltTy.bits .f32 = 32 ∨ (Rect.block (s := S10000x128) S1000x128.size (cc3_transform_5 i) (hinb3_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S200x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S200x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S200x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20_0) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20_1) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21_0) S1000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v21_1) S1000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v20_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v20_0) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20_1) S1000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v21_0) S1000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v23) S1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S64x128 : Shape := ⟨2, ![64, 128]⟩
abbrev S192x128 : Shape := ⟨2, ![192, 128]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000x192 : Shape := ⟨2, ![10000, 192]⟩

abbrev nBuf : Space → Nat
  | .hbm => 79
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S192x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S192x128, .f32⟩
  | .hbm, ⟨11, _⟩ => ⟨S128, .f32⟩
  | .hbm, ⟨12, _⟩ => ⟨S10000x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S10000x64, .f32⟩
  | .hbm, ⟨26, _⟩ => ⟨S10000x64, .f32⟩
  | .hbm, ⟨27, _⟩ => ⟨S1x64, .f32⟩
  | .hbm, ⟨28, _⟩ => ⟨S10000x64, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S_, .f32⟩
  | .hbm, ⟨33, _⟩ => ⟨S10000x64, .f32⟩
  | .hbm, ⟨34, _⟩ => ⟨S10000x64, .f32⟩
  | .hbm, ⟨35, _⟩ => ⟨S_, .f32⟩
  | .hbm, ⟨36, _⟩ => ⟨S10000x64, .f32⟩
  | .hbm, ⟨37, _⟩ => ⟨S10000x64, .f32⟩
  | .hbm, ⟨38, _⟩ => ⟨S10000x192, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S10000x64, .f32⟩
  | .hbm, ⟨44, _⟩ => ⟨S10000x64, .f32⟩
  | .hbm, ⟨45, _⟩ => ⟨S1x64, .f32⟩
  | .hbm, ⟨46, _⟩ => ⟨S10000x64, .f32⟩
  | .hbm, ⟨47, _⟩ => ⟨S10000x64, .f32⟩
  | .hbm, ⟨48, _⟩ => ⟨S10000x64, .f32⟩
  | .hbm, ⟨49, _⟩ => ⟨S10000x64, .f32⟩
  | .hbm, ⟨50, _⟩ => ⟨S_, .f32⟩
  | .hbm, ⟨51, _⟩ => ⟨S10000x64, .f32⟩
  | .hbm, ⟨52, _⟩ => ⟨S10000x64, .f32⟩
  | .hbm, ⟨53, _⟩ => ⟨S_, .f32⟩
  | .hbm, ⟨54, _⟩ => ⟨S10000x64, .f32⟩
  | .hbm, ⟨55, _⟩ => ⟨S10000x64, .f32⟩
  | .hbm, ⟨56, _⟩ => ⟨S10000x128, .f32⟩
  | .hbm, ⟨57, _⟩ => ⟨S10000x128, .f32⟩
  | .hbm, ⟨58, _⟩ => ⟨S1x128, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S_, .f32⟩
  | .hbm, ⟨74, _⟩ => ⟨S10000x128, .f32⟩
  | .hbm, ⟨75, _⟩ => ⟨S10000x128, .f32⟩
  | .hbm, ⟨76, _⟩ => ⟨S_, .f32⟩
  | .hbm, ⟨77, _⟩ => ⟨S10000x128, .f32⟩
  | .hbm, ⟨78, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  concatenates_S10000x128_S10000x64_S10000x192_d1 : Shape.Concatenates [S10000x128, S10000x64] S10000x192 1
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x192_S192x128_S10000x128_1_0_0_1_n_n_wf : DotDims.WF S10000x192 S192x128 S10000x128 [1] [0] [0] [1] [] []
  dot_S10000x192_S192x64_S10000x64_1_0_0_1_n_n_wf : DotDims.WF S10000x192 S192x64 S10000x64 [1] [0] [0] [1] [] []
  dot_S10000x64_S64x128_S10000x128_1_0_0_1_n_n_wf : DotDims.WF S10000x64 S64x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x192_S192x128_S10000x128_1_0_0_1_n_n : DotDims S10000x192 S192x128 S10000x128 where
  lhsContracting := [1]
  rhsContracting := [0]
  lhsNonContracting := [0]
  rhsNonContracting := [1]
  lhsBatch := []
  rhsBatch := []
  wf := dot_S10000x192_S192x128_S10000x128_1_0_0_1_n_n_wf
def dot_S10000x192_S192x64_S10000x64_1_0_0_1_n_n : DotDims S10000x192 S192x64 S10000x64 where
  lhsContracting := [1]
  rhsContracting := [0]
  lhsNonContracting := [0]
  rhsNonContracting := [1]
  lhsBatch := []
  rhsBatch := []
  wf := dot_S10000x192_S192x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

class Facts : Prop extends Facts₀ where

variable [Facts]
-- ==== Proof.BitsPassOneRuns.lean ====
/-
  The first aggregation pass (the first kernel launch of @main) as one segment of the program's run.

  At grid point t the body converts rows 200·t … 200·t + 199 of the adjacency to the narrower format (one output
  block), multiplies them by the 10000 × 128 support matrix x · W1, adds the bias row and applies the logistic function
  (the first layer's rows: a second output block), and multiplies that by the padded 128 × 128 weight (the next layer's
  support rows: a third output block). The support matrix x · W1 is computed once, at the first grid point, into a
  buffer no window stages, and every point reads it from there: so the pass has two cases. At the first point the body
  also writes that buffer; at every later point it finds the buffer as the first point left it and leaves it so.
-/
import proofs.«138753_g16518444220475_cont_week2b_302_25_alg».proof.Proof.Gen.Kernel.Launch
import proofs.«138753_g16518444220475_cont_week2b_302_25_alg».proof.Proof.Gen.Kernel.Skeleton
import proofs.«138753_g16518444220475_cont_week2b_302_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.PassOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two cases -/

/-- The body's one condition: the grid coordinate is zero. -/
abbrev atFirst (i : grid0.Coords) : Prop :=
  (Scalar.cmpi .ne (Scalar.extui (Scalar.cmpi .eq (BitVec.ofNat 32 (i 0).val) 0#32)) 0#32) = 1#1

/-- It holds at the first of the fifty grid points and at no other. -/
theorem atFirst_iff : ∀ t : Fin cfg0.N, atFirst (grid0.coords t) ↔ t.val = 0 :=
  (by decide +kernel : ∀ t : Fin grid0.N, atFirst (grid0.coords t) ↔ t.val = 0)

/-- The buffer that holds the support matrix between grid points, and views through which stored pieces are read back. -/
abbrev keep : Memref sig .tc .vmem S10000x128 .bf16 := Memref.whole cc0_scratch0
abbrev VK : View sig .tc .vmem S10000x128 .bf16 := (keep).view
abbrev VO5 : View sig .tc .vmem S200x10000 .bf16 := (Memref.whole cc0_stg5_0 : Memref sig .tc .vmem S200x10000 .bf16).view
abbrev VO6 : View sig .tc .vmem S200x128 .f32 := (Memref.whole cc0_stg6_0 : Memref sig .tc .vmem S200x128 .f32).view
abbrev VO7 : View sig .tc .vmem S200x128 .bf16 := (Memref.whole cc0_stg7_0 : Memref sig .tc .vmem S200x128 .bf16).view

set_option maxHeartbeats 4000000 in
/-- THE FIRST POINT. On whole buffers — the five inputs at their blocks, the three outputs and the kept buffer at
    anything — the body returns with the inputs as they were and, in each output and in the kept buffer, the pieces
    its stores wrote (found by running it). -/
noncomputable def runFirst (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) :
    Σ' (L5 : List (View.Piece (Elt F) S200x10000 .bf16)) (L6 : List (View.Piece (Elt F) S200x128 .f32)) (L7 : List (View.Piece (Elt F) S200x128 .bf16)), { LK : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LK)) -∗ K ⟨⟩))
          ⊢ wp frame (wpE (defs₀ (F := F)) Variants.none c none) E (cc0__p1_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__p1_body_eq_skeleton]; unfold cc0__p1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%dk, %fk, -, HK⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HK

set_option maxHeartbeats 4000000 in
/-- EVERY LATER POINT. The same, with the kept buffer found at contents `xk` and handed back untouched. -/
noncomputable def runLater (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : ¬atFirst i)
    (x0 : Vec F S200x10000 .f32) (x1 : Vec F S10000x128 .f32) (x2 : Vec F S128x128 .f32) (x3 : Vec F S1x128 .f32) (x4 : Vec F S128x128 .bf16) (xk : Vec F S10000x128 .bf16) :
    Σ' (L5 : List (View.Piece (Elt F) S200x10000 .bf16)) (L6 : List (View.Piece (Elt F) S200x128 .f32)), { L7 : List (View.Piece (Elt F) S200x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xk
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xk) -∗ K ⟨⟩))
          ⊢ wp frame (wpE (defs₀ (F := F)) Variants.none c none) E (cc0__p1_body i arg1 harg1 arg2 harg2 arg3 harg3 arg4 harg4 arg5 harg5 arg6 harg6 arg7 harg7 arg8 harg8 arg9 harg9) K } := by
  refine ⟨?_, ?_, ?_, fun E K => ?run⟩
  case run =>
    simp only [cc0__p1_body_eq_skeleton]; unfold cc0__p1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fk, %hfk, HK⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfk
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; isplitr; · ipureintro; exact harg9.read_unread _
    iexact HK

end Cert.Kernel.PassOne

end
-- ==== Proof.BitsPassOne.lean ====
/-
  The first aggregation pass, continued: what its buffers hold point by point, and the body's obligation.

  The kept buffer holds the support matrix x · W1 from the first grid point on: at point 0 the body writes it, at every
  later point the body finds it and leaves it. So between points the pass's invariant is: before point 0 nothing is
  known of the kept buffer; from then on it holds exactly what point 0 wrote. Each output block at a point is what that
  point's stores wrote, read back.
-/
import proofs.«138753_g16518444220475_cont_week2b_302_25_alg».proof.Proof.BitsPassOneRuns

set_option maxRecDepth 16384

noncomputable section

namespace Cert.Kernel.PassOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces each case's stores wrote fill their buffers -/

theorem cover5_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) (y : S200x10000.Idx) :
    ∃ pc ∈ (runFirst c i arg1 harg1 arg2 harg2 arg3 harg3 arg4 harg4 arg5 harg5 arg6 harg6 arg7 harg7 arg8 harg8 arg9 harg9 hc x0 x1 x2 x3 x4).1, y ∈ pc.1.set :=
  View.cover_of_tiledL (runFirst c i arg1 harg1 arg2 harg2 arg3 harg3 arg4 harg4 arg5 harg5 arg6 harg6 arg7 harg7 arg8 harg8 arg9 harg9 hc x0 x1 x2 x3 x4).1 S200x10000.size (by sl_kernel_rfl) y
theorem cover6_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) (y : S200x128.Idx) :
    ∃ pc ∈ (runFirst c i arg1 harg1 arg2 harg2 arg3 harg3 arg4 harg4 arg5 harg5 arg6 harg6 arg7 harg7 arg8 harg8 arg9 harg9 hc x0 x1 x2 x3 x4).2.1, y ∈ pc.1.set :=
  View.cover_of_tiledL (runFirst c i arg1 harg1 arg2 harg2 arg3 harg3 arg4 harg4 arg5 harg5 arg6 harg6 arg7 harg7 arg8 harg8 arg9 harg9 hc x0 x1 x2 x3 x4).2.1 S200x128.size (by sl_kernel_rfl) y
theorem cover7_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) (y : S200x128.Idx) :
    ∃ pc ∈ (runFirst c i arg1 harg1 arg2 harg2 arg3 harg3 arg4 harg4 arg5 harg5 arg6 harg6 arg7 harg7 arg8 harg8 arg9 harg9 hc x0 x1 x2 x3 x4).2.2.1, y ∈ pc.1.set :=
  View.cover_of_tiledL (runFirst c i arg1 harg1 arg2 harg2 arg3 harg3 arg4 harg4 arg5 harg5 arg6 harg6 arg7 harg7 arg8 harg8 arg9 harg9 hc x0 x1 x2 x3 x4).2.2.1 S200x128.size (by sl_kernel_rfl) y
theorem coverK_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) (y : S10000x128.Idx) :
    ∃ pc ∈ (runFirst c i arg1 harg1 arg2 harg2 arg3 harg3 arg4 harg4 arg5 harg5 arg6 harg6 arg7 harg7 arg8 harg8 arg9 harg9 hc x0 x1 x2 x3 x4).2.2.2.1, y ∈ pc.1.set :=
  View.cover_of_tiledL (runFirst c i arg1 harg1 arg2 harg2 arg3 harg3 arg4 harg4 arg5 harg5 arg6 harg6 arg7 harg7 arg8 harg8 arg9 harg9 hc x0 x1 x2 x3 x4).2.2.2.1 S10000x128.size (by sl_kernel_rfl) y
theorem cover5_later (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : ¬atFirst i)
    (x0 : Vec F S200x10000 .f32) (x1 : Vec F S10000x128 .f32) (x2 : Vec F S128x128 .f32) (x3 : Vec F S1x128 .f32) (x4 : Vec F S128x128 .bf16) (xk : Vec F S10000x128 .bf16) (y : S200x10000.Idx) :
    ∃ pc ∈ (runLater c i arg1 harg1 arg2 harg2 arg3 harg3 arg4 harg4 arg5 harg5 arg6 harg6 arg7 harg7 arg8 harg8 arg9 harg9 hc x0 x1 x2 x3 x4 xk).1, y ∈ pc.1.set :=
  View.cover_of_tiledL (runLater c i arg1 harg1 arg2 harg2 arg3 harg3 arg4 harg4 arg5 harg5 arg6 harg6 arg7 harg7 arg8 harg8 arg9 harg9 hc x0 x1 x2 x3 x4 xk).1 S200x10000.size (by sl_kernel_rfl) y
theorem cover6_later (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : ¬atFirst i)
    (x0 : Vec F S200x10000 .f32) (x1 : Vec F S10000x128 .f32) (x2 : Vec F S128x128 .f32) (x3 : Vec F S1x128 .f32) (x4 : Vec F S128x128 .bf16) (xk : Vec F S10000x128 .bf16) (y : S200x128.Idx) :
    ∃ pc ∈ (runLater c i arg1 harg1 arg2 harg2 arg3 harg3 arg4 harg4 arg5 harg5 arg6 harg6 arg7 harg7 arg8 harg8 arg9 harg9 hc x0 x1 x2 x3 x4 xk).2.1, y ∈ pc.1.set :=
  View.cover_of_tiledL (runLater c i arg1 harg1 arg2 harg2 arg3 harg3 arg4 harg4 arg5 harg5 arg6 harg6 arg7 harg7 arg8 harg8 arg9 harg9 hc x0 x1 x2 x3 x4 xk).2.1 S200x128.size (by sl_kernel_rfl) y
theorem cover7_later (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : ¬atFirst i)
    (x0 : Vec F S200x10000 .f32) (x1 : Vec F S10000x128 .f32) (x2 : Vec F S128x128 .f32) (x3 : Vec F S1x128 .f32) (x4 : Vec F S128x128 .bf16) (xk : Vec F S10000x128 .bf16) (y : S200x128.Idx) :
    ∃ pc ∈ (runLater c i arg1 harg1 arg2 harg2 arg3 harg3 arg4 harg4 arg5 harg5 arg6 harg6 arg7 harg7 arg8 harg8 arg9 harg9 hc x0 x1 x2 x3 x4 xk).2.2.1, y ∈ pc.1.set :=
  View.cover_of_tiledL (runLater c i arg1 harg1 arg2 harg2 arg3 harg3 arg4 harg4 arg5 harg5 arg6 harg6 arg7 harg7 arg8 harg8 arg9 harg9 hc x0 x1 x2 x3 x4 xk).2.2.1 S200x128.size (by sl_kernel_rfl) y

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem held0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- The staging buffer each window is on at point `t`. -/
abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S200x10000 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S200x128 .bf16 := win0_7.stage (cfg0.slots t 7)
abbrev hs7 (t : Fin cfg0.N) : (ms7 t).IsWhole := hstage0_7 ((cfg0.slots t 7).cast nbuf0_7)

/-- The first grid point. -/
def t0 : Fin cfg0.N := ⟨0, by have h : cfg0.N = 50 := N_0; omega⟩

/-- The first case's run at a first point, the later case's at a later one (given what the kept buffer holds). -/
abbrev firstAt (c : Dev nD) (t : Fin cfg0.N) (hz : t.val = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) keep (Memref.isWhole_whole _) ((atFirst_iff t).mpr hz) (blockAt V c 0 t) (blockAt V c 1 t) (blockAt V c 2 t) (blockAt V c 3 t) (blockAt V c 4 t)
abbrev laterAt (c : Dev nD) (t : Fin cfg0.N) (hz : ¬t.val = 0) (xk : Vec F S10000x128 .bf16) :=
  runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) keep (Memref.isWhole_whole _) (fun h => hz ((atFirst_iff t).mp h)) (blockAt V c 0 t) (blockAt V c 1 t) (blockAt V c 2 t) (blockAt V c 3 t) (blockAt V c 4 t) xk

/-- What the kept buffer holds from the first point on: what that point's store wrote. -/
def carried (c : Dev nD) : Vec F S10000x128 .bf16 :=
  VK.read (Elt F) (VK.writes (Elt F) VK.junk (firstAt V c t0 rfl).2.2.2.1)

/-- What the three output blocks hold after the body at point `t`. -/
def leaves (c : Dev nD) (t : Fin cfg0.N) : Vec F S200x10000 .bf16 × Vec F S200x128 .f32 × Vec F S200x128 .bf16 :=
  if hz : t.val = 0 then
    (VO5.read (Elt F) (VO5.writes (Elt F) VO5.junk (firstAt V c t hz).1),
     VO6.read (Elt F) (VO6.writes (Elt F) VO6.junk (firstAt V c t hz).2.1),
     VO7.read (Elt F) (VO7.writes (Elt F) VO7.junk (firstAt V c t hz).2.2.1))
  else
    (VO5.read (Elt F) (VO5.writes (Elt F) VO5.junk (laterAt V c t hz (carried V c)).1),
     VO6.read (Elt F) (VO6.writes (Elt F) VO6.junk (laterAt V c t hz (carried V c)).2.1),
     VO7.read (Elt F) (VO7.writes (Elt F) VO7.junk (laterAt V c t hz (carried V c)).2.2.1))

theorem leaves_first (c : Dev nD) (t : Fin cfg0.N) (hz : t.val = 0) : leaves V c t =
    (VO5.read (Elt F) (VO5.writes (Elt F) VO5.junk (firstAt V c t hz).1),
     VO6.read (Elt F) (VO6.writes (Elt F) VO6.junk (firstAt V c t hz).2.1),
     VO7.read (Elt F) (VO7.writes (Elt F) VO7.junk (firstAt V c t hz).2.2.1)) := dif_pos hz
theorem leaves_later (c : Dev nD) (t : Fin cfg0.N) (hz : ¬t.val = 0) : leaves V c t =
    (VO5.read (Elt F) (VO5.writes (Elt F) VO5.junk (laterAt V c t hz (carried V c)).1),
     VO6.read (Elt F) (VO6.writes (Elt F) VO6.junk (laterAt V c t hz (carried V c)).2.1),
     VO7.read (Elt F) (VO7.writes (Elt F) VO7.junk (laterAt V c t hz (carried V c)).2.2.1)) := dif_neg hz

/-! ## Between points -/

/-- The scoped buffers other than the kept one and the staging buffers: never opened. -/
abbrev others (c : Dev nD) : sProp 𝕄 :=
  Pipeline.scopedRestBut (Ix := Unit) (Name := ℕ) (U := UR sig nD τ) (Lvl := ℕ) (Val := Elt F) spec0 c [cc0_scratch0]

/-- Before point `n`: nothing known of the kept buffer before the first point; afterwards it holds `carried`. -/
def keepInv (c : Dev nD) : ℕ → sProp 𝕄
  | 0 => Pipeline.ΦA spec0 c
  | _ + 1 => iprop(owns (c : Thread nD τ) keep fullShare (carried V c) ∗ others c ∗ (∃ r, prngReg c r))

theorem keepInv_pos (c : Dev nD) (n : ℕ) (h : n ≠ 0) :
    keepInv V c n = iprop(owns (c : Thread nD τ) keep fullShare (carried V c) ∗ others c ∗ (∃ r, prngReg c r)) := by
  cases n with
  | zero => exact absurd rfl h
  | succ n => rfl

/-- The invariant before the first point, with the kept buffer taken out of the untouched rest. -/
theorem inv_open (c : Dev nD) :
    (Pipeline.ΦA spec0 c : sProp 𝕄)
      = iprop(iprop(iprop((∃ d, owns (c : Thread nD τ) keep fullShare d)) ∗ others c) ∗ (∃ r, prngReg c r)) := by
  unfold Pipeline.ΦA; rw [scopedRest0_split]; simp only [keep, owns_whole]; try rfl

/-! ## The pass's data -/

def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => (leaves V c t).1
    | ⟨6, _⟩ => (leaves V c t).2.1
    | ⟨7, _⟩ => (leaves V c t).2.2
  Φ t := keepInv V c t.val
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blockAt V c 0 t := by dsimp only [dat]
theorem after1 (c : Dev nD) (t : Fin cfg0.N) : (dat V c).after 1 t = blockAt V c 1 t := by dsimp only [dat]
theorem after2 (c : Dev nD) (t : Fin cfg0.N) : (dat V c).after 2 t = blockAt V c 2 t := by dsimp only [dat]
theorem after3 (c : Dev nD) (t : Fin cfg0.N) : (dat V c).after 3 t = blockAt V c 3 t := by dsimp only [dat]
theorem after4 (c : Dev nD) (t : Fin cfg0.N) : (dat V c).after 4 t = blockAt V c 4 t := by dsimp only [dat]
theorem after5 (c : Dev nD) (t : Fin cfg0.N) : (dat V c).after 5 t = (leaves V c t).1 := by dsimp only [dat]
theorem after6 (c : Dev nD) (t : Fin cfg0.N) : (dat V c).after 6 t = (leaves V c t).2.1 := by dsimp only [dat]
theorem after7 (c : Dev nD) (t : Fin cfg0.N) : (dat V c).after 7 t = (leaves V c t).2.2 := by dsimp only [dat]
theorem held0 (c : Dev nD) (t : Fin cfg0.N) (d) : (dat V c).before 0 t d = blockAt V c 0 t :=
  held0_of V (dat V c) (dat_A V c 0) (after0 V c) t d
theorem held1 (c : Dev nD) (t : Fin cfg0.N) (d) : (dat V c).before 1 t d = blockAt V c 1 t :=
  held1_of V (dat V c) (dat_A V c 1) (after1 V c) t d
theorem held2 (c : Dev nD) (t : Fin cfg0.N) (d) : (dat V c).before 2 t d = blockAt V c 2 t :=
  held2_of V (dat V c) (dat_A V c 2) (after2 V c) t d
theorem held3 (c : Dev nD) (t : Fin cfg0.N) (d) : (dat V c).before 3 t d = blockAt V c 3 t :=
  held3_of V (dat V c) (dat_A V c 3) (after3 V c) t d
theorem held4 (c : Dev nD) (t : Fin cfg0.N) (d) : (dat V c).before 4 t d = blockAt V c 4 t :=
  held4_of V (dat V c) (dat_A V c 4) (after4 V c) t d
theorem inv_start (c : Dev nD) (t : Fin cfg0.N) : (dat V c).Φ t.castSucc = keepInv V c t.val := by
  dsimp only [dat]; simp only [Fin.coe_castSucc]
theorem inv_end (c : Dev nD) (t : Fin cfg0.N) : (dat V c).Φ t.succ = keepInv V c (t.val + 1) := rfl

/-! ## The body at a generic grid point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t))

set_option maxHeartbeats 4000000 in
/-- At the first point the body is handed the kept buffer at anything and returns it at `carried`; at a later point it is
    handed it at `carried` and returns it so. Either way each output block ends at what the point's stores wrote. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4]
  rw [show (dat V c).owesAt () t.succ = (dat V c).owesAt () t.castSucc from rfl, inv_start, inv_end, keepInv_pos V c (t.val + 1) (Nat.succ_ne_zero _),
    after0, after1, after2, after3, after4, after5, after6, after7]
  by_cases hz : t.val = 0
  · obtain rfl : t = t0 := Fin.ext hz
    rw [leaves_first V c t0 hz, show keepInv V c (t0 : Fin cfg0.N).val = Pipeline.ΦA spec0 c from rfl, inv_open]
    dsimp only
    iintro ⟨⟨⟨HK, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt V c t0 hz).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HK]; · iexact HK
    iintro ⟨H0, H1, H2, H3, H4, ⟨%e5, H5⟩, ⟨%e6, H6⟩, ⟨%e7, H7⟩, ⟨%ek, HK⟩⟩
    isplitl [HK Hrest Hg]
    · isplitl [HK]
      · unfold owns; iexists _; isplitr
        swap; · iexact HK
        ipureintro; exact View.read_writes_of_cover _ _ _ _ _ (coverK_first c _ _ _ _ _ _ _ _ _ _ _ _ _ _ _ _ _ _ _ _ _ _ _ _ _)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_first c _ _ _ _ _ _ _ _ _ _ _ _ _ _ _ _ _ _ _ _ _ _ _ _ _)
    isplitl [H6]
    · unfold owns; iexists _; isplitr
      swap; · iexact H6
      ipureintro; exact View.read_writes_of_cover _ _ _ _ _ (cover6_first c _ _ _ _ _ _ _ _ _ _ _ _ _ _ _ _ _ _ _ _ _ _ _ _ _)
    unfold owns; iexists _; isplitr
    swap; · iexact H7
    ipureintro; exact View.read_writes_of_cover _ _ _ _ _ (cover7_first c _ _ _ _ _ _ _ _ _ _ _ _ _ _ _ _ _ _ _ _ _ _ _ _ _)
  · rw [leaves_later V c t hz, keepInv_pos V c t.val hz]
    dsimp only
    iintro ⟨⟨HK, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((laterAt V c t hz (carried V c)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HK]; · iexact HK
    iintro ⟨H0, H1, H2, H3, H4, ⟨%e5, H5⟩, ⟨%e6, H6⟩, ⟨%e7, H7⟩, HK⟩
    isplitl [HK Hrest Hg]
    · isplitl [HK]; · iexact HK
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_later c _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover6_later c _ _ _ _ _ _ _ _ _ _ _ _ _ _ _ _ _ _ _ _ _ _ _ _ _ _)
    unfold owns; iexists _; isplitr
    swap; · iexact H7
    ipureintro; exact View.read_writes_of_cover _ _ _ _ _ (cover7_later c _ _ _ _ _ _ _ _ _ _ _ _ _ _ _ _ _ _ _ _ _ _ _ _ _ _)

/-- The body's obligation at every grid point. -/
theorem body_obligation (c : Dev nD) : BodyObligation (dat (F := F) V c) (defs₀ (F := F)) Variants.none () Set.univ := fun t => by
  rw [bigSep_W0, bigSep_W0]
  exact body_at V c t

/-- What the launch hands the pass is the invariant before the first point. -/
theorem inv_in (c : Dev nD) : Pipeline.ΦA spec0 c ⊢ (dat V c).Φ 0 := by
  show Pipeline.ΦA spec0 c ⊢ Pipeline.ΦA spec0 c
  exact Idealize.SL.BI.Entails.refl _

/-- After the last point the invariant gives back what the launch handed over: the kept buffer's contents forgotten. -/
theorem inv_out (c : Dev nD) : (dat V c).Φ (Fin.last cfg0.N) ⊢ Pipeline.ΦA spec0 c := by
  rw [show (dat V c).Φ (Fin.last cfg0.N) = keepInv V c cfg0.N from rfl,
    keepInv_pos V c cfg0.N (by have h : cfg0.N = 50 := N_0; omega), inv_open]
  iintro ⟨HK, Hrest, Hg⟩
  isplitl [HK Hrest]
  · isplitl [HK]; · iexists _; iexact HK
    iexact Hrest
  iexact Hg

end Cert.Kernel.PassOne

end
-- ==== Proof.BitsPassTwo.lean ====
/-
  The second aggregation pass (the second kernel launch of @main) as one segment of the program's run.

  At grid point t the body multiplies rows 1000·t … 1000·t + 999 of the adjacency by the 10000 × 128 support matrix,
  adds a bias row and applies the logistic function; puts the result beside the same rows of the first layer's output
  (a 1000 × 256 block) and multiplies by the 256 × 256 weight. The left 128 columns of that product plus a second bias
  row are one output block (the linear gate); the right 128 columns are the other (the next layer's support). It reads
  six windows and writes two; nothing is carried from one grid point to the next.
-/
import proofs.«138753_g16518444220475_cont_week2b_302_25_alg».proof.Proof.Gen.Kernel.Launch
import proofs.«138753_g16518444220475_cont_week2b_302_25_alg».proof.Proof.Gen.Kernel.Skeleton
import proofs.«138753_g16518444220475_cont_week2b_302_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.PassTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every grid point, whether it was fetched there or (its block
    index not having moved) left from the point before. -/
theorem held0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held5_of {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each buffer read or written whole -/

abbrev r0 : Rect S1000x10000 := Rect.unit (s := S1000x10000) ![0, 0] S1000x10000.size inb_S1000x10000_S1000x10000_0_0
abbrev r1 : Rect S10000x128 := Rect.unit (s := S10000x128) ![0, 0] S10000x128.size inb_S10000x128_S10000x128_0_0
abbrev r2 : Rect S1x128 := Rect.unit (s := S1x128) ![0, 0] S1x128.size inb_S1x128_S1x128_0_0
abbrev r3 : Rect S1000x128 := Rect.unit (s := S1000x128) ![0, 0] S1000x128.size inb_S1000x128_S1000x128_0_0
abbrev r4 : Rect S256x256 := Rect.unit (s := S256x256) ![0, 0] S256x256.size inb_S256x256_S256x256_0_0
abbrev r5 : Rect S1x128 := Rect.unit (s := S1x128) ![0, 0] S1x128.size inb_S1x128_S1x128_0_0
abbrev r6 : Rect S1000x128 := Rect.unit (s := S1000x128) ![0, 0] S1000x128.size inb_S1000x128_S1000x128_0_0
abbrev r7 : Rect S1000x128 := Rect.unit (s := S1000x128) ![0, 0] S1000x128.size inb_S1000x128_S1000x128_0_0

/-- What the body leaves in the gate's block: the left half of the 256-wide product, plus the gate's bias row. -/
def leaves6 (x0 : Vec F S1000x10000 .bf16) (x1 : Vec F S10000x128 .bf16) (x2 : Vec F S1x128 .f32) (x3 : Vec F S1000x128 .f32) (x4 : Vec F S256x256 .bf16) (x5 : Vec F S1x128 .f32) : Vec F S1000x128 .f32 :=
  View.canon [⟨r6, k1_pay2 (View.ld x0 r0) (View.ld x1 r1) (View.ld x2 r2) (View.ld x3 r3) (View.ld x4 r4) (View.ld x5 r5)⟩]

/-- That one store fills the whole block. -/
theorem cover6 (p0 : Vec F S1000x128 .f32) (y : S1000x128.Idx) :
    ∃ pc ∈ ([⟨r6, p0⟩] : List (View.Piece (Elt F) S1000x128 .f32)), y ∈ pc.1.set :=
  View.cover_of_tiled [⟨r6, p0⟩] S1000x128.size (by rfl) y

/-- What the body leaves in the next support's block: the right half of the 256-wide product. -/
def leaves7 (x0 : Vec F S1000x10000 .bf16) (x1 : Vec F S10000x128 .bf16) (x2 : Vec F S1x128 .f32) (x3 : Vec F S1000x128 .f32) (x4 : Vec F S256x256 .bf16) (x5 : Vec F S1x128 .f32) : Vec F S1000x128 .bf16 :=
  View.canon [⟨r7, k1_pay3 (View.ld x0 r0) (View.ld x1 r1) (View.ld x2 r2) (View.ld x3 r3) (View.ld x4 r4)⟩]

/-- That one store fills the whole block. -/
theorem cover7 (p0 : Vec F S1000x128 .bf16) (y : S1000x128.Idx) :
    ∃ pc ∈ ([⟨r7, p0⟩] : List (View.Piece (Elt F) S1000x128 .bf16)), y ∈ pc.1.set :=
  View.cover_of_tiled [⟨r7, p0⟩] S1000x128.size (by rfl) y

set_option maxHeartbeats 1000000 in
/-- The body, run on staging buffers holding the input blocks and anything in the outputs', returns with the inputs as
    they were and each output block at what its store leaves. -/
theorem body_triple (c : Dev nD) (E : Set ℕ) (i : grid1.Coords) (arg1 : Memref sig .tc .vmem S1000x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S1000x128 .f32) (harg4 : arg4.IsWhole) (arg5 : Memref sig .tc .vmem S256x256 .bf16) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .bf16) (harg8 : arg8.IsWhole)
    (x0 : Vec F S1000x10000 .bf16) (x1 : Vec F S10000x128 .bf16) (x2 : Vec F S1x128 .f32) (x3 : Vec F S1000x128 .f32) (x4 : Vec F S256x256 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (leaves6 x0 x1 x2 x3 x4 x5) ∗ owns (c : Thread nD τ) arg8 fullShare (leaves7 x0 x1 x2 x3 x4 x5)) -∗ K ⟨⟩))
      ⊢ wp frame (wpE (defs₀ (F := F)) Variants.none c none) E (cc1__p2_body i arg1 harg1 arg2 harg2 arg3 harg3 arg4 harg4 arg5 harg5 arg6 harg6 arg7 harg7 arg8 harg8) K := by
  simp only [cc1__p2_body_eq_skeleton]; unfold cc1__p2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _)
  iexists _; isplitr
  swap; · iexact H7
  ipureintro
  exact View.read_writes_eq_canon _ _ _ (cover7 _)

/-! ## The pass's data: what each staging buffer holds after the body, point by point -/

/-- The arrays as the pass finds them; after the body at point `t` each input's buffer at its block and each output's at
    what the store leaves of the input blocks; between points only the untouched rest; nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => leaves6 (blockAt V c 0 t) (blockAt V c 1 t) (blockAt V c 2 t) (blockAt V c 3 t) (blockAt V c 4 t) (blockAt V c 5 t)
    | ⟨7, _⟩ => leaves7 (blockAt V c 0 t) (blockAt V c 1 t) (blockAt V c 2 t) (blockAt V c 3 t) (blockAt V c 4 t) (blockAt V c 5 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = blockAt V c 4 t := by dsimp only [dat]
theorem after5 (c : Dev nD) (t : Fin cfg1.N) : (dat V c).after 5 t = blockAt V c 5 t := by dsimp only [dat]
theorem after6 (c : Dev nD) (t : Fin cfg1.N) : (dat V c).after 6 t = leaves6 (blockAt V c 0 t) (blockAt V c 1 t) (blockAt V c 2 t) (blockAt V c 3 t) (blockAt V c 4 t) (blockAt V c 5 t) := by dsimp only [dat]
theorem after7 (c : Dev nD) (t : Fin cfg1.N) : (dat V c).after 7 t = leaves7 (blockAt V c 0 t) (blockAt V c 1 t) (blockAt V c 2 t) (blockAt V c 3 t) (blockAt V c 4 t) (blockAt V c 5 t) := by dsimp only [dat]
theorem held0 (c : Dev nD) (t : Fin cfg1.N) (d) : (dat V c).before 0 t d = blockAt V c 0 t :=
  held0_of V (dat V c) (dat_A V c 0) (after0 V c) t d
theorem held1 (c : Dev nD) (t : Fin cfg1.N) (d) : (dat V c).before 1 t d = blockAt V c 1 t :=
  held1_of V (dat V c) (dat_A V c 1) (after1 V c) t d
theorem held2 (c : Dev nD) (t : Fin cfg1.N) (d) : (dat V c).before 2 t d = blockAt V c 2 t :=
  held2_of V (dat V c) (dat_A V c 2) (after2 V c) t d
theorem held3 (c : Dev nD) (t : Fin cfg1.N) (d) : (dat V c).before 3 t d = blockAt V c 3 t :=
  held3_of V (dat V c) (dat_A V c 3) (after3 V c) t d
theorem held4 (c : Dev nD) (t : Fin cfg1.N) (d) : (dat V c).before 4 t d = blockAt V c 4 t :=
  held4_of V (dat V c) (dat_A V c 4) (after4 V c) t d
theorem held5 (c : Dev nD) (t : Fin cfg1.N) (d) : (dat V c).before 5 t d = blockAt V c 5 t :=
  held5_of V (dat V c) (dat_A V c 5) (after5 V c) t d

/-! ## The body at a generic grid point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- At any grid point the input buffers hold their blocks, so the body's triple applies; the rest passes through. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2, held3, held4, held5]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt V c 0 t) (blockAt V c 1 t) (blockAt V c 2 t) (blockAt V c 3 t) (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation at every grid point. -/
theorem body_obligation (c : Dev nD) : BodyObligation (dat (F := F) V c) (defs₀ (F := F)) Variants.none () Set.univ := fun t => by
  rw [bigSep_W1, bigSep_W1]
  exact body_at V c t

end Cert.Kernel.PassTwo

end
-- ==== Proof.BitsPassThree.lean ====
/-
  The third aggregation pass (the third kernel launch of @main) as one segment of the program's run.

  At grid point t the body multiplies rows 1000·t … 1000·t + 999 of the adjacency by the whole 10000 × 128 support
  matrix, adds the bias row, applies the logistic function, multiplies the result by the padded 128 × 128 weight, and
  stores that 1000 × 128 block. It reads four windows (the adjacency block, the support, the bias, the weight) and
  writes one; nothing is carried from one grid point to the next.
-/
import proofs.«138753_g16518444220475_cont_week2b_302_25_alg».proof.Proof.Gen.Kernel.Launch
import proofs.«138753_g16518444220475_cont_week2b_302_25_alg».proof.Proof.Gen.Kernel.Skeleton
import proofs.«138753_g16518444220475_cont_week2b_302_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.PassThree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every grid point, whether it was fetched there or (its block
    index not having moved) left from the point before. -/
theorem held0_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each buffer read or written whole -/

abbrev rAdj : Rect S1000x10000 := Rect.unit (s := S1000x10000) ![0, 0] S1000x10000.size inb_S1000x10000_S1000x10000_0_0
abbrev rSup : Rect S10000x128 := Rect.unit (s := S10000x128) ![0, 0] S10000x128.size inb_S10000x128_S10000x128_0_0
abbrev rBias : Rect S1x128 := Rect.unit (s := S1x128) ![0, 0] S1x128.size inb_S1x128_S1x128_0_0
abbrev rWt : Rect S128x128 := Rect.unit (s := S128x128) ![0, 0] S128x128.size inb_S128x128_S128x128_0_0
abbrev rOut : Rect S1000x128 := Rect.unit (s := S1000x128) ![0, 0] S1000x128.size inb_S1000x128_S1000x128_0_0

/-- What the body leaves in the output block: logistic(adjacency block · support + bias) · weight, as its one store. -/
def leaves (a : Vec F S1000x10000 .bf16) (s : Vec F S10000x128 .bf16) (b : Vec F S1x128 .f32) (w : Vec F S128x128 .bf16) : Vec F S1000x128 .bf16 :=
  View.canon [⟨rOut, k2_pay1 (View.ld a rAdj) (View.ld s rSup) (View.ld b rBias) (View.ld w rWt)⟩]

/-- The one store fills the whole output block. -/
theorem leaves_cover (p0 : Vec F S1000x128 .bf16) (y : S1000x128.Idx) :
    ∃ pc ∈ ([⟨rOut, p0⟩] : List (View.Piece (Elt F) S1000x128 .bf16)), y ∈ pc.1.set :=
  View.cover_of_tiled [⟨rOut, p0⟩] S1000x128.size (by rfl) y

set_option maxHeartbeats 1000000 in
/-- The body, run on staging buffers holding the four input blocks and anything in the output's, returns with the
    inputs as they were and the output block at `leaves` of them. -/
theorem body_triple (c : Dev nD) (E : Set ℕ) (i : grid2.Coords)
    (arg1 : Memref sig .tc .vmem S1000x10000 .bf16) (harg1 : arg1.IsWhole) (arg2 : Memref sig .tc .vmem S10000x128 .bf16) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S1000x128 .bf16) (harg5 : arg5.IsWhole)
    (x0 : Vec F S1000x10000 .bf16) (x1 : Vec F S10000x128 .bf16) (x2 : Vec F S1x128 .f32) (x3 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (leaves x0 x1 x2 x3)) -∗ K ⟨⟩))
      ⊢ wp frame (wpE (defs₀ (F := F)) Variants.none c none) E (cc2__p3_body i arg1 harg1 arg2 harg2 arg3 harg3 arg4 harg4 arg5 harg5) K := by
  simp only [cc2__p3_body_eq_skeleton]; unfold cc2__p3_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (leaves_cover _)

/-! ## The pass's data: what each staging buffer holds after the body, point by point -/

/-- The arrays as the pass finds them; after the body at point `t` each input's buffer at its block and the output's at
    `leaves` of the input blocks; between points only the untouched rest; nothing owed. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => leaves (blockAt V c 0 t) (blockAt V c 1 t) (blockAt V c 2 t) (blockAt V c 3 t)
  Φ _ := Pipeline.ΦA spec2 c
  q _ := fullShare
  owed _ := 0

theorem dat_A (c : Dev nD) (w : Fin cfg2.W) : (dat V c).A w = V c (Pipeline.arrRef spec2 w) := by
  dsimp only [dat]

theorem after0 (c : Dev nD) (t : Fin cfg2.N) : (dat V c).after 0 t = blockAt V c 0 t := by dsimp only [dat]
theorem after1 (c : Dev nD) (t : Fin cfg2.N) : (dat V c).after 1 t = blockAt V c 1 t := by dsimp only [dat]
theorem after2 (c : Dev nD) (t : Fin cfg2.N) : (dat V c).after 2 t = blockAt V c 2 t := by dsimp only [dat]
theorem after3 (c : Dev nD) (t : Fin cfg2.N) : (dat V c).after 3 t = blockAt V c 3 t := by dsimp only [dat]
theorem after4 (c : Dev nD) (t : Fin cfg2.N) :
    (dat V c).after 4 t = leaves (blockAt V c 0 t) (blockAt V c 1 t) (blockAt V c 2 t) (blockAt V c 3 t) := by dsimp only [dat]

theorem held0 (c : Dev nD) (t : Fin cfg2.N) (d) : (dat V c).before 0 t d = blockAt V c 0 t :=
  held0_of V (dat V c) (dat_A V c 0) (after0 V c) t d
theorem held1 (c : Dev nD) (t : Fin cfg2.N) (d) : (dat V c).before 1 t d = blockAt V c 1 t :=
  held1_of V (dat V c) (dat_A V c 1) (after1 V c) t d
theorem held2 (c : Dev nD) (t : Fin cfg2.N) (d) : (dat V c).before 2 t d = blockAt V c 2 t :=
  held2_of V (dat V c) (dat_A V c 2) (after2 V c) t d
theorem held3 (c : Dev nD) (t : Fin cfg2.N) (d) : (dat V c).before 3 t d = blockAt V c 3 t :=
  held3_of V (dat V c) (dat_A V c 3) (after3 V c) t d

/-! ## The body at a generic grid point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

/-- At any grid point the input buffers hold their blocks, so the body's triple applies; the rest passes through. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [held0, held1, held2, held3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every grid point. -/
theorem body_obligation (c : Dev nD) : BodyObligation (dat (F := F) V c) (defs₀ (F := F)) Variants.none () Set.univ := fun t => by
  rw [bigSep_W2, bigSep_W2]
  exact body_at V c t

end Cert.Kernel.PassThree

end
-- ==== Proof.BitsPassFour.lean ====
/-
  The fourth aggregation pass (the last kernel launch of @main) as one segment of the program's run.

  At grid point t the body multiplies rows 1000·t … 1000·t + 999 of the adjacency by the 10000 × 128 support matrix,
  adds the bias row and applies the logistic function (the fourth layer's rows), multiplies entry by entry by the same
  rows of the gate, adds the same rows of the first layer's output, and applies the logistic function again: the
  result's rows. It reads five windows and writes one; nothing is carried from one grid point to the next.
-/
import proofs.«138753_g16518444220475_cont_week2b_302_25_alg».proof.Proof.Gen.Kernel.Launch
import proofs.«138753_g16518444220475_cont_week2b_302_25_alg».proof.Proof.Gen.Kernel.Skeleton
import proofs.«138753_g16518444220475_cont_week2b_302_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.PassFour

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every grid point, whether it was fetched there or (its block
    index not having moved) left from the point before. -/
theorem held0_of {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg3 c) (hA : dat.A 2 = V c (Pipeline.arrRef spec3 2))
    (hafter : ∀ t, dat.after 2 t = blockAt V c 2 t) (t : Fin cfg3.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg3 c) (hA : dat.A 3 = V c (Pipeline.arrRef spec3 3))
    (hafter : ∀ t, dat.after 3 t = blockAt V c 3 t) (t : Fin cfg3.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg3 c) (hA : dat.A 4 = V c (Pipeline.arrRef spec3 4))
    (hafter : ∀ t, dat.after 4 t = blockAt V c 4 t) (t : Fin cfg3.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each buffer read or written whole -/

abbrev r0 : Rect S1000x10000 := Rect.unit (s := S1000x10000) ![0, 0] S1000x10000.size inb_S1000x10000_S1000x10000_0_0
abbrev r1 : Rect S10000x128 := Rect.unit (s := S10000x128) ![0, 0] S10000x128.size inb_S10000x128_S10000x128_0_0
abbrev r2 : Rect S1x128 := Rect.unit (s := S1x128) ![0, 0] S1x128.size inb_S1x128_S1x128_0_0
abbrev r3 : Rect S1000x128 := Rect.unit (s := S1000x128) ![0, 0] S1000x128.size inb_S1000x128_S1000x128_0_0
abbrev r4 : Rect S1000x128 := Rect.unit (s := S1000x128) ![0, 0] S1000x128.size inb_S1000x128_S1000x128_0_0
abbrev r5 : Rect S1000x128 := Rect.unit (s := S1000x128) ![0, 0] S1000x128.size inb_S1000x128_S1000x128_0_0

/-- What the body leaves in the result's block: logistic(first layer + fourth layer ⊙ gate). -/
def leaves5 (x0 : Vec F S1000x10000 .bf16) (x1 : Vec F S10000x128 .bf16) (x2 : Vec F S1x128 .f32) (x3 : Vec F S1000x128 .f32) (x4 : Vec F S1000x128 .f32) : Vec F S1000x128 .f32 :=
  View.canon [⟨r5, k3_pay1 (View.ld x0 r0) (View.ld x1 r1) (View.ld x2 r2) (View.ld x3 r3) (View.ld x4 r4)⟩]

/-- That one store fills the whole block. -/
theorem cover5 (p0 : Vec F S1000x128 .f32) (y : S1000x128.Idx) :
    ∃ pc ∈ ([⟨r5, p0⟩] : List (View.Piece (Elt F) S1000x128 .f32)), y ∈ pc.1.set :=
  View.cover_of_tiled [⟨r5, p0⟩] S1000x128.size (by rfl) y

set_option maxHeartbeats 1000000 in
/-- The body, run on staging buffers holding the input blocks and anything in the outputs', returns with the inputs as
    they were and each output block at what its store leaves. -/
theorem body_triple (c : Dev nD) (E : Set ℕ) (i : grid3.Coords) (arg1 : Memref sig .tc .vmem S1000x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1000x128 .f32) (harg6 : arg6.IsWhole)
    (x0 : Vec F S1000x10000 .bf16) (x1 : Vec F S10000x128 .bf16) (x2 : Vec F S1x128 .f32) (x3 : Vec F S1000x128 .f32) (x4 : Vec F S1000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (leaves5 x0 x1 x2 x3 x4)) -∗ K ⟨⟩))
      ⊢ wp frame (wpE (defs₀ (F := F)) Variants.none c none) E (cc3__p4_body i arg1 harg1 arg2 harg2 arg3 harg3 arg4 harg4 arg5 harg5 arg6 harg6) K := by
  simp only [cc3__p4_body_eq_skeleton]; unfold cc3__p4_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pass's data: what each staging buffer holds after the body, point by point -/

/-- The arrays as the pass finds them; after the body at point `t` each input's buffer at its block and each output's at
    what the store leaves of the input blocks; between points only the untouched rest; nothing owed. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => leaves5 (blockAt V c 0 t) (blockAt V c 1 t) (blockAt V c 2 t) (blockAt V c 3 t) (blockAt V c 4 t)
  Φ _ := Pipeline.ΦA spec3 c
  q _ := fullShare
  owed _ := 0

theorem dat_A (c : Dev nD) (w : Fin cfg3.W) : (dat V c).A w = V c (Pipeline.arrRef spec3 w) := by
  dsimp only [dat]

theorem after0 (c : Dev nD) (t : Fin cfg3.N) : (dat V c).after 0 t = blockAt V c 0 t := by dsimp only [dat]
theorem after1 (c : Dev nD) (t : Fin cfg3.N) : (dat V c).after 1 t = blockAt V c 1 t := by dsimp only [dat]
theorem after2 (c : Dev nD) (t : Fin cfg3.N) : (dat V c).after 2 t = blockAt V c 2 t := by dsimp only [dat]
theorem after3 (c : Dev nD) (t : Fin cfg3.N) : (dat V c).after 3 t = blockAt V c 3 t := by dsimp only [dat]
theorem after4 (c : Dev nD) (t : Fin cfg3.N) : (dat V c).after 4 t = blockAt V c 4 t := by dsimp only [dat]
theorem after5 (c : Dev nD) (t : Fin cfg3.N) : (dat V c).after 5 t = leaves5 (blockAt V c 0 t) (blockAt V c 1 t) (blockAt V c 2 t) (blockAt V c 3 t) (blockAt V c 4 t) := by dsimp only [dat]
theorem held0 (c : Dev nD) (t : Fin cfg3.N) (d) : (dat V c).before 0 t d = blockAt V c 0 t :=
  held0_of V (dat V c) (dat_A V c 0) (after0 V c) t d
theorem held1 (c : Dev nD) (t : Fin cfg3.N) (d) : (dat V c).before 1 t d = blockAt V c 1 t :=
  held1_of V (dat V c) (dat_A V c 1) (after1 V c) t d
theorem held2 (c : Dev nD) (t : Fin cfg3.N) (d) : (dat V c).before 2 t d = blockAt V c 2 t :=
  held2_of V (dat V c) (dat_A V c 2) (after2 V c) t d
theorem held3 (c : Dev nD) (t : Fin cfg3.N) (d) : (dat V c).before 3 t d = blockAt V c 3 t :=
  held3_of V (dat V c) (dat_A V c 3) (after3 V c) t d
theorem held4 (c : Dev nD) (t : Fin cfg3.N) (d) : (dat V c).before 4 t d = blockAt V c 4 t :=
  held4_of V (dat V c) (dat_A V c 4) (after4 V c) t d

/-! ## The body at a generic grid point -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

/-- At any grid point the input buffers hold their blocks, so the body's triple applies; the rest passes through. -/
theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [held0, held1, held2, held3, held4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every grid point. -/
theorem body_obligation (c : Dev nD) : BodyObligation (dat (F := F) V c) (defs₀ (F := F)) Variants.none () Set.univ := fun t => by
  rw [bigSep_W3, bigSep_W3]
  exact body_at V c t

end Cert.Kernel.PassFour

end
-- ==== Proof.BitsWhole.lean ====
/-
  The whole program's run: sixteen stretches of host operations that reshape, pad, slice and join the weights and
  biases, then the four aggregation passes in order, each entered from what the one before left.

  Between two items every buffer that outlives a kernel launch holds a known value: after a host stretch what its
  operations compute; after a pass, that pass's arrays at what its write-backs leave (an input array as entered, an
  output array block by block) and every other buffer as entered. The run ends with the result array at what the fourth
  pass leaves in it and the twelve argument arrays as launched: no host operation writes an argument, and a pass only
  reads one.
-/
import proofs.«138753_g16518444220475_cont_week2b_302_25_alg».proof.Proof.BitsPassOne
import proofs.«138753_g16518444220475_cont_week2b_302_25_alg».proof.Proof.BitsPassTwo
import proofs.«138753_g16518444220475_cont_week2b_302_25_alg».proof.Proof.BitsPassThree
import proofs.«138753_g16518444220475_cont_week2b_302_25_alg».proof.Proof.BitsPassFour
import proofs.«138753_g16518444220475_cont_week2b_302_25_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the passes -/

/-- The buffers as pass 1 finds them, read at the TensorCore's references. -/
abbrev E0 : (c : Dev nD) → (b : Ref sig .tc) → Buf (Elt F) ((c : Thread nD τ).loc b) := fun c b => V16 m c b
/-- After pass 1: its arrays at what its write-backs leave, every other buffer as entered. -/
def X1 (c : Dev nD) : Valuation τ sig (Elt F) :=
  Pipeline.withArrays spec0 c (V16 m c) fun w => (PassOne.dat (E0 m) c).arrAt w cfg0.N
theorem X1_arr (c : Dev nD) (w : Fin cfg0.W) :
    X1 m c (Proc.devRef .tc (Pipeline.arrRef spec0 w)) = (PassOne.dat (E0 m) c).arrAt w cfg0.N := by
  unfold X1; exact Pipeline.withArrays_arr spec0 launch0.win.arr_inj c _ _ w
theorem X1_of_ne (c : Dev nD) (b : Ref sig .tc) (hb : ∀ w, Pipeline.arrRef spec0 w ≠ b) :
    X1 m c (Proc.devRef .tc b) = V16 m c (Proc.devRef .tc b) := by
  unfold X1; exact Pipeline.withArrays_of_ne spec0 c _ _ b hb
abbrev E0' : (c : Dev nD) → (b : Ref sig .tc) → Buf (Elt F) ((c : Thread nD τ).loc b) := fun c b => X1 m c b
theorem left0 (c : Dev nD) (w : Fin cfg0.W) : (PassOne.dat (E0 m) c).arrAt w cfg0.N = E0' m c (Pipeline.arrRef spec0 w) :=
  (X1_arr m c w).symm
theorem kept0 (c : Dev nD) : ∀ b, b ∉ Finset.univ.image (Pipeline.arrRef spec0) → E0' m c b = E0 m c b :=
  fun b hb => X1_of_ne m c b fun w e => hb (Finset.mem_image.mpr ⟨w, Finset.mem_univ _, e⟩)

/-- The buffers as pass 2 finds them, read at the TensorCore's references. -/
abbrev E1 : (c : Dev nD) → (b : Ref sig .tc) → Buf (Elt F) ((c : Thread nD τ).loc b) := fun c b => X1 m c b
/-- After pass 2: its arrays at what its write-backs leave, every other buffer as entered. -/
def X2 (c : Dev nD) : Valuation τ sig (Elt F) :=
  Pipeline.withArrays spec1 c (X1 m c) fun w => (PassTwo.dat (E1 m) c).arrAt w cfg1.N
theorem X2_arr (c : Dev nD) (w : Fin cfg1.W) :
    X2 m c (Proc.devRef .tc (Pipeline.arrRef spec1 w)) = (PassTwo.dat (E1 m) c).arrAt w cfg1.N := by
  unfold X2; exact Pipeline.withArrays_arr spec1 launch1.win.arr_inj c _ _ w
theorem X2_of_ne (c : Dev nD) (b : Ref sig .tc) (hb : ∀ w, Pipeline.arrRef spec1 w ≠ b) :
    X2 m c (Proc.devRef .tc b) = X1 m c (Proc.devRef .tc b) := by
  unfold X2; exact Pipeline.withArrays_of_ne spec1 c _ _ b hb
abbrev E1' : (c : Dev nD) → (b : Ref sig .tc) → Buf (Elt F) ((c : Thread nD τ).loc b) := fun c b => X2 m c b
theorem left1 (c : Dev nD) (w : Fin cfg1.W) : (PassTwo.dat (E1 m) c).arrAt w cfg1.N = E1' m c (Pipeline.arrRef spec1 w) :=
  (X2_arr m c w).symm
theorem kept1 (c : Dev nD) : ∀ b, b ∉ Finset.univ.image (Pipeline.arrRef spec1) → E1' m c b = E1 m c b :=
  fun b hb => X2_of_ne m c b fun w e => hb (Finset.mem_image.mpr ⟨w, Finset.mem_univ _, e⟩)

/-- The buffers as pass 3 finds them, read at the TensorCore's references. -/
abbrev E2 : (c : Dev nD) → (b : Ref sig .tc) → Buf (Elt F) ((c : Thread nD τ).loc b) := fun c b => X2 m c b
/-- After pass 3: its arrays at what its write-backs leave, every other buffer as entered. -/
def X3 (c : Dev nD) : Valuation τ sig (Elt F) :=
  Pipeline.withArrays spec2 c (X2 m c) fun w => (PassThree.dat (E2 m) c).arrAt w cfg2.N
theorem X3_arr (c : Dev nD) (w : Fin cfg2.W) :
    X3 m c (Proc.devRef .tc (Pipeline.arrRef spec2 w)) = (PassThree.dat (E2 m) c).arrAt w cfg2.N := by
  unfold X3; exact Pipeline.withArrays_arr spec2 launch2.win.arr_inj c _ _ w
theorem X3_of_ne (c : Dev nD) (b : Ref sig .tc) (hb : ∀ w, Pipeline.arrRef spec2 w ≠ b) :
    X3 m c (Proc.devRef .tc b) = X2 m c (Proc.devRef .tc b) := by
  unfold X3; exact Pipeline.withArrays_of_ne spec2 c _ _ b hb
abbrev E2' : (c : Dev nD) → (b : Ref sig .tc) → Buf (Elt F) ((c : Thread nD τ).loc b) := fun c b => X3 m c b
theorem left2 (c : Dev nD) (w : Fin cfg2.W) : (PassThree.dat (E2 m) c).arrAt w cfg2.N = E2' m c (Pipeline.arrRef spec2 w) :=
  (X3_arr m c w).symm
theorem kept2 (c : Dev nD) : ∀ b, b ∉ Finset.univ.image (Pipeline.arrRef spec2) → E2' m c b = E2 m c b :=
  fun b hb => X3_of_ne m c b fun w e => hb (Finset.mem_image.mpr ⟨w, Finset.mem_univ _, e⟩)

/-- The buffers as pass 4 finds them, read at the TensorCore's references. -/
abbrev E3 : (c : Dev nD) → (b : Ref sig .tc) → Buf (Elt F) ((c : Thread nD τ).loc b) := fun c b => X3 m c b
/-- After pass 4: its arrays at what its write-backs leave, every other buffer as entered. -/
def X4 (c : Dev nD) : Valuation τ sig (Elt F) :=
  Pipeline.withArrays spec3 c (X3 m c) fun w => (PassFour.dat (E3 m) c).arrAt w cfg3.N
theorem X4_arr (c : Dev nD) (w : Fin cfg3.W) :
    X4 m c (Proc.devRef .tc (Pipeline.arrRef spec3 w)) = (PassFour.dat (E3 m) c).arrAt w cfg3.N := by
  unfold X4; exact Pipeline.withArrays_arr spec3 launch3.win.arr_inj c _ _ w
theorem X4_of_ne (c : Dev nD) (b : Ref sig .tc) (hb : ∀ w, Pipeline.arrRef spec3 w ≠ b) :
    X4 m c (Proc.devRef .tc b) = X3 m c (Proc.devRef .tc b) := by
  unfold X4; exact Pipeline.withArrays_of_ne spec3 c _ _ b hb
abbrev E3' : (c : Dev nD) → (b : Ref sig .tc) → Buf (Elt F) ((c : Thread nD τ).loc b) := fun c b => X4 m c b
theorem left3 (c : Dev nD) (w : Fin cfg3.W) : (PassFour.dat (E3 m) c).arrAt w cfg3.N = E3' m c (Pipeline.arrRef spec3 w) :=
  (X4_arr m c w).symm
theorem kept3 (c : Dev nD) : ∀ b, b ∉ Finset.univ.image (Pipeline.arrRef spec3) → E3' m c b = E3 m c b :=
  fun b hb => X4_of_ne m c b fun w e => hb (Finset.mem_image.mpr ⟨w, Finset.mem_univ _, e⟩)

/-! ## The arguments end as launched -/

theorem X4_main_arg0 (c : Dev nD) : X4 m c (Proc.devRef .tc main_arg0) = m ((c : Thread nD τ).loc main_arg0) :=
  (X4_of_ne m c main_arg0 (by decide)).trans <| (X3_of_ne m c main_arg0 (by decide)).trans <| (X2_of_ne m c main_arg0 (by decide)).trans <| ((X1_arr m c 1).trans (((PassOne.dat (E0 m) c).arrAt_in 1 rfl _).trans (PassOne.dat_A (E0 m) c 1))).trans <|
    (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem X4_main_arg1 (c : Dev nD) : X4 m c (Proc.devRef .tc main_arg1) = m ((c : Thread nD τ).loc main_arg1) :=
  (X4_of_ne m c main_arg1 (by decide)).trans <| (X3_of_ne m c main_arg1 (by decide)).trans <| (X2_of_ne m c main_arg1 (by decide)).trans <| ((X1_arr m c 0).trans (((PassOne.dat (E0 m) c).arrAt_in 0 rfl _).trans (PassOne.dat_A (E0 m) c 0))).trans <|
    (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
theorem X4_main_arg2 (c : Dev nD) : X4 m c (Proc.devRef .tc main_arg2) = m ((c : Thread nD τ).loc main_arg2) :=
  (X4_of_ne m c main_arg2 (by decide)).trans <| (X3_of_ne m c main_arg2 (by decide)).trans <| (X2_of_ne m c main_arg2 (by decide)).trans <| ((X1_arr m c 2).trans (((PassOne.dat (E0 m) c).arrAt_in 2 rfl _).trans (PassOne.dat_A (E0 m) c 2))).trans <|
    (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
theorem X4_main_arg3 (c : Dev nD) : X4 m c (Proc.devRef .tc main_arg3) = m ((c : Thread nD τ).loc main_arg3) :=
  (X4_of_ne m c main_arg3 (by decide)).trans <| (X3_of_ne m c main_arg3 (by decide)).trans <| (X2_of_ne m c main_arg3 (by decide)).trans <| (X1_of_ne m c main_arg3 (by decide)).trans <|
    (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
theorem X4_main_arg4 (c : Dev nD) : X4 m c (Proc.devRef .tc main_arg4) = m ((c : Thread nD τ).loc main_arg4) :=
  (X4_of_ne m c main_arg4 (by decide)).trans <| (X3_of_ne m c main_arg4 (by decide)).trans <| (X2_of_ne m c main_arg4 (by decide)).trans <| (X1_of_ne m c main_arg4 (by decide)).trans <|
    (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))
theorem X4_main_arg5 (c : Dev nD) : X4 m c (Proc.devRef .tc main_arg5) = m ((c : Thread nD τ).loc main_arg5) :=
  (X4_of_ne m c main_arg5 (by decide)).trans <| (X3_of_ne m c main_arg5 (by decide)).trans <| (X2_of_ne m c main_arg5 (by decide)).trans <| (X1_of_ne m c main_arg5 (by decide)).trans <|
    (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem X4_main_arg6 (c : Dev nD) : X4 m c (Proc.devRef .tc main_arg6) = m ((c : Thread nD τ).loc main_arg6) :=
  (X4_of_ne m c main_arg6 (by decide)).trans <| (X3_of_ne m c main_arg6 (by decide)).trans <| (X2_of_ne m c main_arg6 (by decide)).trans <| (X1_of_ne m c main_arg6 (by decide)).trans <|
    (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
theorem X4_main_arg7 (c : Dev nD) : X4 m c (Proc.devRef .tc main_arg7) = m ((c : Thread nD τ).loc main_arg7) :=
  (X4_of_ne m c main_arg7 (by decide)).trans <| (X3_of_ne m c main_arg7 (by decide)).trans <| (X2_of_ne m c main_arg7 (by decide)).trans <| (X1_of_ne m c main_arg7 (by decide)).trans <|
    (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
theorem X4_main_arg8 (c : Dev nD) : X4 m c (Proc.devRef .tc main_arg8) = m ((c : Thread nD τ).loc main_arg8) :=
  (X4_of_ne m c main_arg8 (by decide)).trans <| (X3_of_ne m c main_arg8 (by decide)).trans <| (X2_of_ne m c main_arg8 (by decide)).trans <| (X1_of_ne m c main_arg8 (by decide)).trans <|
    (V16_of m c main_arg8 (by decide)).trans <| (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))
theorem X4_main_arg9 (c : Dev nD) : X4 m c (Proc.devRef .tc main_arg9) = m ((c : Thread nD τ).loc main_arg9) :=
  (X4_of_ne m c main_arg9 (by decide)).trans <| (X3_of_ne m c main_arg9 (by decide)).trans <| (X2_of_ne m c main_arg9 (by decide)).trans <| (X1_of_ne m c main_arg9 (by decide)).trans <|
    (V16_of m c main_arg9 (by decide)).trans <| (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))
theorem X4_main_arg10 (c : Dev nD) : X4 m c (Proc.devRef .tc main_arg10) = m ((c : Thread nD τ).loc main_arg10) :=
  (X4_of_ne m c main_arg10 (by decide)).trans <| (X3_of_ne m c main_arg10 (by decide)).trans <| (X2_of_ne m c main_arg10 (by decide)).trans <| (X1_of_ne m c main_arg10 (by decide)).trans <|
    (V16_of m c main_arg10 (by decide)).trans <| (V15_of m c main_arg10 (by decide)).trans <| (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide))
theorem X4_main_arg11 (c : Dev nD) : X4 m c (Proc.devRef .tc main_arg11) = m ((c : Thread nD τ).loc main_arg11) :=
  (X4_of_ne m c main_arg11 (by decide)).trans <| (X3_of_ne m c main_arg11 (by decide)).trans <| (X2_of_ne m c main_arg11 (by decide)).trans <| (X1_of_ne m c main_arg11 (by decide)).trans <|
    (V16_of m c main_arg11 (by decide)).trans <| (V15_of m c main_arg11 (by decide)).trans <| (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))

/-- The result array at the end: what the fourth pass's write-backs leave in it. -/
def result (c : Dev nD) : Buf (Elt F) ((c.tc : Thread nD τ).loc main_v23) := (PassFour.dat (E3 m) c).arrAt 5 cfg3.N
theorem X4_result (c : Dev nD) : X4 m c (Proc.devRef .tc main_v23) = result m c := X4_arr m c 5

/-! ## The proof data family and the thread state -/

/-- Every pass's data, each at the contents it is entered from. -/
def pdats : (p : Fin 4) → (c : Dev nD) → Dat τ (Elt F) Unit ℕ (UR sig nD τ) ℕ (Pipeline.pin (pcfgs (F := F)) adm p) c
  | ⟨0, _⟩ => fun c => PassOne.dat (E0 m) c
  | ⟨1, _⟩ => fun c => PassTwo.dat (E1 m) c
  | ⟨2, _⟩ => fun c => PassThree.dat (E2 m) c
  | ⟨3, _⟩ => fun c => PassFour.dat (E3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The passes as segments -/

set_option backward.isDefEq.respectTransparency.types false in
/-- Pass 1 over the thread state: its arrays taken out of the buffers that outlive a launch and put back at what the
    pass leaves; the generator register lent to the pass's invariant and returned; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (PassOne.body_obligation (E0 m) c).loose
  hwaits := Pipeline.hwaits_of_owed_zero _ _ _ _ L lv 0 fun _ _ => rfl
  pre c := iprop(StableHlo.held (c : Thread nD τ) (Pipeline.ucRefs τ sig) (V16 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from PassOne.inv_out (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E0' m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: its arrays taken out of the buffers that outlive a launch and put back at what the
    pass leaves; the generator register lent to the pass's invariant and returned; nothing owed; no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (PassTwo.body_obligation (E1 m) c).loose
  hwaits := Pipeline.hwaits_of_owed_zero _ _ _ _ L lv 1 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E1' m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 over the thread state: its arrays taken out of the buffers that outlive a launch and put back at what the
    pass leaves; the generator register lent to the pass's invariant and returned; nothing owed; no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (PassThree.body_obligation (E2 m) c).loose
  hwaits := Pipeline.hwaits_of_owed_zero _ _ _ _ L lv 2 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E2' m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 4 over the thread state: its arrays taken out of the buffers that outlive a launch and put back at what the
    pass leaves; the generator register lent to the pass's invariant and returned; nothing owed; no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (PassFour.body_obligation (E3 m) c).loose
  hwaits := Pipeline.hwaits_of_owed_zero _ _ _ _ L lv 3 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (E3' m c) ((pdats m 3 c).arrAt · cfg3.N) (left3 m c) (kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the last pass the generator register goes with the buffers and the core's debt, which is nothing, stands apart. -/
theorem last_link (c : Dev nD) :
    (iprop(StableHlo.held (c : Thread nD τ) (Pipeline.ucRefs τ sig) (X4 m c) ∗ R c) : sProp 𝕄)
      ⊢ iprop(iprop(StableHlo.held (c : Thread nD τ) (Pipeline.ucRefs τ sig) (X4 m c) ∗ ∃ r, prngReg c r)
          ∗ ∃ W, owes (c.tc : Thread nD τ) (0 : CellTallies nD τ sig Unit) W) := by
  iintro ⟨Hh, Hp, Ho⟩
  isplitl [Hh Hp]
  · isplitl [Hh]; · iexact Hh
    iexact Hp
  iexact Ho

/-! ## @main as its items, and the run -/

/-- @main's twenty items in order, the same on every core. -/
abbrev items (c : Dev nD) : List (Seg (pcfgs (F := F)) adm (pdats m) () defs₀ 𝒱₀ L lv) :=
  [.host (seg0 m 𝒱₀ L lv (fun _ => R)), .host (seg1 m 𝒱₀ L lv (fun _ => R)), .host (seg2 m 𝒱₀ L lv (fun _ => R)), .host (seg3 m 𝒱₀ L lv (fun _ => R)), .host (seg4 m 𝒱₀ L lv (fun _ => R)), .host (seg5 m 𝒱₀ L lv (fun _ => R)), .host (seg6 m 𝒱₀ L lv (fun _ => R)), .host (seg7 m 𝒱₀ L lv (fun _ => R)), .host (seg8 m 𝒱₀ L lv (fun _ => R)), .host (seg9 m 𝒱₀ L lv (fun _ => R)), .host (seg10 m 𝒱₀ L lv (fun _ => R)), .host (seg11 m 𝒱₀ L lv (fun _ => R)), .host (seg12 m 𝒱₀ L lv (fun _ => R)), .host (seg13 m 𝒱₀ L lv (fun _ => R)), .host (seg14 m 𝒱₀ L lv (fun _ => R)), .host (seg15 m 𝒱₀ L lv (fun _ => R)), .region (reg0 m), .region (reg1 m), .region (reg2 m), .region (reg3 m)]

set_option backward.isDefEq.respectTransparency.types false in
/-- From any memory with zero counters every weakly fair execution of @main terminates, faulting nowhere, with the result
    array at `result` and every argument array as launched. -/
theorem run : θ_run defs (onTc (τ := τ) (main (F := F))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_dev (pcfgs (F := F)) adm (pdats m) () cellOf_inj emb₁ defs₀ 𝒱₀ L lv m ρ main (items m)
    (fun c Q => by
      rewrite [main_chain c, Seg.run_eq_chain,
        show (items m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (fun c => by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (X4 m c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X4 m c b)
    (hfin := fun c s' => by
      iintro ⟨⟨Hh, -⟩, HSI⟩
      unfold StableHlo.held
      imodintro
      iapply (pointsTo_read_all (Pipeline.ucRefs τ sig) (fun b => (((c : Thread nD τ)).1, b)) (X4 m c) s')
      isplitl [Hh] <;> iassumption)
    (hQ := fun s h c =>
      ⟨(h c _ (mem_uc main_v23 (by decide))).trans (X4_result m c),
       (h c _ (mem_uc main_arg0 (by decide))).trans (X4_main_arg0 m c),
       (h c _ (mem_uc main_arg1 (by decide))).trans (X4_main_arg1 m c),
       (h c _ (mem_uc main_arg2 (by decide))).trans (X4_main_arg2 m c),
       (h c _ (mem_uc main_arg3 (by decide))).trans (X4_main_arg3 m c),
       (h c _ (mem_uc main_arg4 (by decide))).trans (X4_main_arg4 m c),
       (h c _ (mem_uc main_arg5 (by decide))).trans (X4_main_arg5 m c),
       (h c _ (mem_uc main_arg6 (by decide))).trans (X4_main_arg6 m c),
       (h c _ (mem_uc main_arg7 (by decide))).trans (X4_main_arg7 m c),
       (h c _ (mem_uc main_arg8 (by decide))).trans (X4_main_arg8 m c),
       (h c _ (mem_uc main_arg9 (by decide))).trans (X4_main_arg9 m c),
       (h c _ (mem_uc main_arg10 (by decide))).trans (X4_main_arg10 m c),
       (h c _ (mem_uc main_arg11 (by decide))).trans (X4_main_arg11 m c)⟩)

end Cert.Kernel.Whole

end
-- ==== Proof.IdealPassOneRuns.lean ====
/-
  The first aggregation pass (the first kernel launch of @main) as one segment of the program's run.

  At grid point t the body converts rows 200·t … 200·t + 199 of the adjacency to the narrower format (one output
  block), multiplies them by the 10000 × 128 support matrix x · W1, adds the bias row and applies the logistic function
  (the first layer's rows: a second output block), and multiplies that by the padded 128 × 128 weight (the next layer's
  support rows: a third output block). The support matrix x · W1 is computed once, at the first grid point, into a
  buffer no window stages, and every point reads it from there: so the pass has two cases. At the first point the body
  also writes that buffer; at every later point it finds the buffer as the first point left it and leaves it so.
-/
import proofs.«138753_g16518444220475_cont_week2b_302_25_alg».proof.Proof.Gen.KernelIdeal.Launch
import proofs.«138753_g16518444220475_cont_week2b_302_25_alg».proof.Proof.Gen.KernelIdeal.Skeleton
import proofs.«138753_g16518444220475_cont_week2b_302_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.PassOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two cases -/

/-- The body's one condition: the grid coordinate is zero. -/
abbrev atFirst (i : grid0.Coords) : Prop :=
  (Scalar.cmpi .ne (Scalar.extui (Scalar.cmpi .eq (BitVec.ofNat 32 (i 0).val) 0#32)) 0#32) = 1#1

/-- It holds at the first of the fifty grid points and at no other. -/
theorem atFirst_iff : ∀ t : Fin cfg0.N, atFirst (grid0.coords t) ↔ t.val = 0 :=
  (by decide +kernel : ∀ t : Fin grid0.N, atFirst (grid0.coords t) ↔ t.val = 0)

/-- The buffer that holds the support matrix between grid points, and views through which stored pieces are read back. -/
abbrev keep : Memref sig .tc .vmem S10000x128 .bf16 := Memref.whole cc0_scratch0
abbrev VK : View sig .tc .vmem S10000x128 .bf16 := (keep).view
abbrev VO5 : View sig .tc .vmem S200x10000 .bf16 := (Memref.whole cc0_stg5_0 : Memref sig .tc .vmem S200x10000 .bf16).view
abbrev VO6 : View sig .tc .vmem S200x128 .f32 := (Memref.whole cc0_stg6_0 : Memref sig .tc .vmem S200x128 .f32).view
abbrev VO7 : View sig .tc .vmem S200x128 .bf16 := (Memref.whole cc0_stg7_0 : Memref sig .tc .vmem S200x128 .bf16).view

set_option maxHeartbeats 4000000 in
/-- THE FIRST POINT. On whole buffers — the five inputs at their blocks, the three outputs and the kept buffer at
    anything — the body returns with the inputs as they were and, in each output and in the kept buffer, the pieces
    its stores wrote (found by running it). -/
noncomputable def runFirst (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) :
    Σ' (L5 : List (View.Piece (Elt F) S200x10000 .bf16)) (L6 : List (View.Piece (Elt F) S200x128 .f32)) (L7 : List (View.Piece (Elt F) S200x128 .bf16)), { LK : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LK)) -∗ K ⟨⟩))
          ⊢ wp frame (wpE (defs₀ (F := F)) Variants.none c none) E (cc0__p1_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__p1_body_eq_skeleton]; unfold cc0__p1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%dk, %fk, -, HK⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HK

set_option maxHeartbeats 4000000 in
/-- EVERY LATER POINT. The same, with the kept buffer found at contents `xk` and handed back untouched. -/
noncomputable def runLater (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : ¬atFirst i)
    (x0 : Vec F S200x10000 .f32) (x1 : Vec F S10000x128 .f32) (x2 : Vec F S128x128 .f32) (x3 : Vec F S1x128 .f32) (x4 : Vec F S128x128 .bf16) (xk : Vec F S10000x128 .bf16) :
    Σ' (L5 : List (View.Piece (Elt F) S200x10000 .bf16)) (L6 : List (View.Piece (Elt F) S200x128 .f32)), { L7 : List (View.Piece (Elt F) S200x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xk
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xk) -∗ K ⟨⟩))
          ⊢ wp frame (wpE (defs₀ (F := F)) Variants.none c none) E (cc0__p1_body i arg1 harg1 arg2 harg2 arg3 harg3 arg4 harg4 arg5 harg5 arg6 harg6 arg7 harg7 arg8 harg8 arg9 harg9) K } := by
  refine ⟨?_, ?_, ?_, fun E K => ?run⟩
  case run =>
    simp only [cc0__p1_body_eq_skeleton]; unfold cc0__p1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fk, %hfk, HK⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfk
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; isplitr; · ipureintro; exact harg9.read_unread _
    iexact HK

end Cert.KernelIdeal.PassOne

end
-- ==== Proof.IdealPassOne.lean ====
/-
  The first aggregation pass, continued: what its buffers hold point by point, and the body's obligation.

  The kept buffer holds the support matrix x · W1 from the first grid point on: at point 0 the body writes it, at every
  later point the body finds it and leaves it. So between points the pass's invariant is: before point 0 nothing is
  known of the kept buffer; from then on it holds exactly what point 0 wrote. Each output block at a point is what that
  point's stores wrote, read back.
-/
import proofs.«138753_g16518444220475_cont_week2b_302_25_alg».proof.Proof.IdealPassOneRuns

set_option maxRecDepth 16384

noncomputable section

namespace Cert.KernelIdeal.PassOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces each case's stores wrote fill their buffers -/

theorem cover5_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) (y : S200x10000.Idx) :
    ∃ pc ∈ (runFirst c i arg1 harg1 arg2 harg2 arg3 harg3 arg4 harg4 arg5 harg5 arg6 harg6 arg7 harg7 arg8 harg8 arg9 harg9 hc x0 x1 x2 x3 x4).1, y ∈ pc.1.set :=
  View.cover_of_tiledL (runFirst c i arg1 harg1 arg2 harg2 arg3 harg3 arg4 harg4 arg5 harg5 arg6 harg6 arg7 harg7 arg8 harg8 arg9 harg9 hc x0 x1 x2 x3 x4).1 S200x10000.size (by sl_kernel_rfl) y
theorem cover6_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) (y : S200x128.Idx) :
    ∃ pc ∈ (runFirst c i arg1 harg1 arg2 harg2 arg3 harg3 arg4 harg4 arg5 harg5 arg6 harg6 arg7 harg7 arg8 harg8 arg9 harg9 hc x0 x1 x2 x3 x4).2.1, y ∈ pc.1.set :=
  View.cover_of_tiledL (runFirst c i arg1 harg1 arg2 harg2 arg3 harg3 arg4 harg4 arg5 harg5 arg6 harg6 arg7 harg7 arg8 harg8 arg9 harg9 hc x0 x1 x2 x3 x4).2.1 S200x128.size (by sl_kernel_rfl) y
theorem cover7_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) (y : S200x128.Idx) :
    ∃ pc ∈ (runFirst c i arg1 harg1 arg2 harg2 arg3 harg3 arg4 harg4 arg5 harg5 arg6 harg6 arg7 harg7 arg8 harg8 arg9 harg9 hc x0 x1 x2 x3 x4).2.2.1, y ∈ pc.1.set :=
  View.cover_of_tiledL (runFirst c i arg1 harg1 arg2 harg2 arg3 harg3 arg4 harg4 arg5 harg5 arg6 harg6 arg7 harg7 arg8 harg8 arg9 harg9 hc x0 x1 x2 x3 x4).2.2.1 S200x128.size (by sl_kernel_rfl) y
theorem coverK_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) (y : S10000x128.Idx) :
    ∃ pc ∈ (runFirst c i arg1 harg1 arg2 harg2 arg3 harg3 arg4 harg4 arg5 harg5 arg6 harg6 arg7 harg7 arg8 harg8 arg9 harg9 hc x0 x1 x2 x3 x4).2.2.2.1, y ∈ pc.1.set :=
  View.cover_of_tiledL (runFirst c i arg1 harg1 arg2 harg2 arg3 harg3 arg4 harg4 arg5 harg5 arg6 harg6 arg7 harg7 arg8 harg8 arg9 harg9 hc x0 x1 x2 x3 x4).2.2.2.1 S10000x128.size (by sl_kernel_rfl) y
theorem cover5_later (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : ¬atFirst i)
    (x0 : Vec F S200x10000 .f32) (x1 : Vec F S10000x128 .f32) (x2 : Vec F S128x128 .f32) (x3 : Vec F S1x128 .f32) (x4 : Vec F S128x128 .bf16) (xk : Vec F S10000x128 .bf16) (y : S200x10000.Idx) :
    ∃ pc ∈ (runLater c i arg1 harg1 arg2 harg2 arg3 harg3 arg4 harg4 arg5 harg5 arg6 harg6 arg7 harg7 arg8 harg8 arg9 harg9 hc x0 x1 x2 x3 x4 xk).1, y ∈ pc.1.set :=
  View.cover_of_tiledL (runLater c i arg1 harg1 arg2 harg2 arg3 harg3 arg4 harg4 arg5 harg5 arg6 harg6 arg7 harg7 arg8 harg8 arg9 harg9 hc x0 x1 x2 x3 x4 xk).1 S200x10000.size (by sl_kernel_rfl) y
theorem cover6_later (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : ¬atFirst i)
    (x0 : Vec F S200x10000 .f32) (x1 : Vec F S10000x128 .f32) (x2 : Vec F S128x128 .f32) (x3 : Vec F S1x128 .f32) (x4 : Vec F S128x128 .bf16) (xk : Vec F S10000x128 .bf16) (y : S200x128.Idx) :
    ∃ pc ∈ (runLater c i arg1 harg1 arg2 harg2 arg3 harg3 arg4 harg4 arg5 harg5 arg6 harg6 arg7 harg7 arg8 harg8 arg9 harg9 hc x0 x1 x2 x3 x4 xk).2.1, y ∈ pc.1.set :=
  View.cover_of_tiledL (runLater c i arg1 harg1 arg2 harg2 arg3 harg3 arg4 harg4 arg5 harg5 arg6 harg6 arg7 harg7 arg8 harg8 arg9 harg9 hc x0 x1 x2 x3 x4 xk).2.1 S200x128.size (by sl_kernel_rfl) y
theorem cover7_later (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : ¬atFirst i)
    (x0 : Vec F S200x10000 .f32) (x1 : Vec F S10000x128 .f32) (x2 : Vec F S128x128 .f32) (x3 : Vec F S1x128 .f32) (x4 : Vec F S128x128 .bf16) (xk : Vec F S10000x128 .bf16) (y : S200x128.Idx) :
    ∃ pc ∈ (runLater c i arg1 harg1 arg2 harg2 arg3 harg3 arg4 harg4 arg5 harg5 arg6 harg6 arg7 harg7 arg8 harg8 arg9 harg9 hc x0 x1 x2 x3 x4 xk).2.2.1, y ∈ pc.1.set :=
  View.cover_of_tiledL (runLater c i arg1 harg1 arg2 harg2 arg3 harg3 arg4 harg4 arg5 harg5 arg6 harg6 arg7 harg7 arg8 harg8 arg9 harg9 hc x0 x1 x2 x3 x4 xk).2.2.1 S200x128.size (by sl_kernel_rfl) y

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem held0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- The staging buffer each window is on at point `t`. -/
abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S200x10000 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S200x128 .bf16 := win0_7.stage (cfg0.slots t 7)
abbrev hs7 (t : Fin cfg0.N) : (ms7 t).IsWhole := hstage0_7 ((cfg0.slots t 7).cast nbuf0_7)

/-- The first grid point. -/
def t0 : Fin cfg0.N := ⟨0, by have h : cfg0.N = 50 := N_0; omega⟩

/-- The first case's run at a first point, the later case's at a later one (given what the kept buffer holds). -/
abbrev firstAt (c : Dev nD) (t : Fin cfg0.N) (hz : t.val = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) keep (Memref.isWhole_whole _) ((atFirst_iff t).mpr hz) (blockAt V c 0 t) (blockAt V c 1 t) (blockAt V c 2 t) (blockAt V c 3 t) (blockAt V c 4 t)
abbrev laterAt (c : Dev nD) (t : Fin cfg0.N) (hz : ¬t.val = 0) (xk : Vec F S10000x128 .bf16) :=
  runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) keep (Memref.isWhole_whole _) (fun h => hz ((atFirst_iff t).mp h)) (blockAt V c 0 t) (blockAt V c 1 t) (blockAt V c 2 t) (blockAt V c 3 t) (blockAt V c 4 t) xk

/-- What the kept buffer holds from the first point on: what that point's store wrote. -/
def carried (c : Dev nD) : Vec F S10000x128 .bf16 :=
  VK.read (Elt F) (VK.writes (Elt F) VK.junk (firstAt V c t0 rfl).2.2.2.1)

/-- What the three output blocks hold after the body at point `t`. -/
def leaves (c : Dev nD) (t : Fin cfg0.N) : Vec F S200x10000 .bf16 × Vec F S200x128 .f32 × Vec F S200x128 .bf16 :=
  if hz : t.val = 0 then
    (VO5.read (Elt F) (VO5.writes (Elt F) VO5.junk (firstAt V c t hz).1),
     VO6.read (Elt F) (VO6.writes (Elt F) VO6.junk (firstAt V c t hz).2.1),
     VO7.read (Elt F) (VO7.writes (Elt F) VO7.junk (firstAt V c t hz).2.2.1))
  else
    (VO5.read (Elt F) (VO5.writes (Elt F) VO5.junk (laterAt V c t hz (carried V c)).1),
     VO6.read (Elt F) (VO6.writes (Elt F) VO6.junk (laterAt V c t hz (carried V c)).2.1),
     VO7.read (Elt F) (VO7.writes (Elt F) VO7.junk (laterAt V c t hz (carried V c)).2.2.1))

theorem leaves_first (c : Dev nD) (t : Fin cfg0.N) (hz : t.val = 0) : leaves V c t =
    (VO5.read (Elt F) (VO5.writes (Elt F) VO5.junk (firstAt V c t hz).1),
     VO6.read (Elt F) (VO6.writes (Elt F) VO6.junk (firstAt V c t hz).2.1),
     VO7.read (Elt F) (VO7.writes (Elt F) VO7.junk (firstAt V c t hz).2.2.1)) := dif_pos hz
theorem leaves_later (c : Dev nD) (t : Fin cfg0.N) (hz : ¬t.val = 0) : leaves V c t =
    (VO5.read (Elt F) (VO5.writes (Elt F) VO5.junk (laterAt V c t hz (carried V c)).1),
     VO6.read (Elt F) (VO6.writes (Elt F) VO6.junk (laterAt V c t hz (carried V c)).2.1),
     VO7.read (Elt F) (VO7.writes (Elt F) VO7.junk (laterAt V c t hz (carried V c)).2.2.1)) := dif_neg hz

/-! ## Between points -/

/-- The scoped buffers other than the kept one and the staging buffers: never opened. -/
abbrev others (c : Dev nD) : sProp 𝕄 :=
  Pipeline.scopedRestBut (Ix := Unit) (Name := ℕ) (U := UR sig nD τ) (Lvl := ℕ) (Val := Elt F) spec0 c [cc0_scratch0]

/-- Before point `n`: nothing known of the kept buffer before the first point; afterwards it holds `carried`. -/
def keepInv (c : Dev nD) : ℕ → sProp 𝕄
  | 0 => Pipeline.ΦA spec0 c
  | _ + 1 => iprop(owns (c : Thread nD τ) keep fullShare (carried V c) ∗ others c ∗ (∃ r, prngReg c r))

theorem keepInv_pos (c : Dev nD) (n : ℕ) (h : n ≠ 0) :
    keepInv V c n = iprop(owns (c : Thread nD τ) keep fullShare (carried V c) ∗ others c ∗ (∃ r, prngReg c r)) := by
  cases n with
  | zero => exact absurd rfl h
  | succ n => rfl

/-- The invariant before the first point, with the kept buffer taken out of the untouched rest. -/
theorem inv_open (c : Dev nD) :
    (Pipeline.ΦA spec0 c : sProp 𝕄)
      = iprop(iprop(iprop((∃ d, owns (c : Thread nD τ) keep fullShare d)) ∗ others c) ∗ (∃ r, prngReg c r)) := by
  unfold Pipeline.ΦA; rw [scopedRest0_split]; simp only [keep, owns_whole]; try rfl

/-! ## The pass's data -/

def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => (leaves V c t).1
    | ⟨6, _⟩ => (leaves V c t).2.1
    | ⟨7, _⟩ => (leaves V c t).2.2
  Φ t := keepInv V c t.val
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blockAt V c 0 t := by dsimp only [dat]
theorem after1 (c : Dev nD) (t : Fin cfg0.N) : (dat V c).after 1 t = blockAt V c 1 t := by dsimp only [dat]
theorem after2 (c : Dev nD) (t : Fin cfg0.N) : (dat V c).after 2 t = blockAt V c 2 t := by dsimp only [dat]
theorem after3 (c : Dev nD) (t : Fin cfg0.N) : (dat V c).after 3 t = blockAt V c 3 t := by dsimp only [dat]
theorem after4 (c : Dev nD) (t : Fin cfg0.N) : (dat V c).after 4 t = blockAt V c 4 t := by dsimp only [dat]
theorem after5 (c : Dev nD) (t : Fin cfg0.N) : (dat V c).after 5 t = (leaves V c t).1 := by dsimp only [dat]
theorem after6 (c : Dev nD) (t : Fin cfg0.N) : (dat V c).after 6 t = (leaves V c t).2.1 := by dsimp only [dat]
theorem after7 (c : Dev nD) (t : Fin cfg0.N) : (dat V c).after 7 t = (leaves V c t).2.2 := by dsimp only [dat]
theorem held0 (c : Dev nD) (t : Fin cfg0.N) (d) : (dat V c).before 0 t d = blockAt V c 0 t :=
  held0_of V (dat V c) (dat_A V c 0) (after0 V c) t d
theorem held1 (c : Dev nD) (t : Fin cfg0.N) (d) : (dat V c).before 1 t d = blockAt V c 1 t :=
  held1_of V (dat V c) (dat_A V c 1) (after1 V c) t d
theorem held2 (c : Dev nD) (t : Fin cfg0.N) (d) : (dat V c).before 2 t d = blockAt V c 2 t :=
  held2_of V (dat V c) (dat_A V c 2) (after2 V c) t d
theorem held3 (c : Dev nD) (t : Fin cfg0.N) (d) : (dat V c).before 3 t d = blockAt V c 3 t :=
  held3_of V (dat V c) (dat_A V c 3) (after3 V c) t d
theorem held4 (c : Dev nD) (t : Fin cfg0.N) (d) : (dat V c).before 4 t d = blockAt V c 4 t :=
  held4_of V (dat V c) (dat_A V c 4) (after4 V c) t d
theorem inv_start (c : Dev nD) (t : Fin cfg0.N) : (dat V c).Φ t.castSucc = keepInv V c t.val := by
  dsimp only [dat]; simp only [Fin.coe_castSucc]
theorem inv_end (c : Dev nD) (t : Fin cfg0.N) : (dat V c).Φ t.succ = keepInv V c (t.val + 1) := rfl

/-! ## The body at a generic grid point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t))

set_option maxHeartbeats 4000000 in
/-- At the first point the body is handed the kept buffer at anything and returns it at `carried`; at a later point it is
    handed it at `carried` and returns it so. Either way each output block ends at what the point's stores wrote. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4]
  rw [show (dat V c).owesAt () t.succ = (dat V c).owesAt () t.castSucc from rfl, inv_start, inv_end, keepInv_pos V c (t.val + 1) (Nat.succ_ne_zero _),
    after0, after1, after2, after3, after4, after5, after6, after7]
  by_cases hz : t.val = 0
  · obtain rfl : t = t0 := Fin.ext hz
    rw [leaves_first V c t0 hz, show keepInv V c (t0 : Fin cfg0.N).val = Pipeline.ΦA spec0 c from rfl, inv_open]
    dsimp only
    iintro ⟨⟨⟨HK, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt V c t0 hz).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HK]; · iexact HK
    iintro ⟨H0, H1, H2, H3, H4, ⟨%e5, H5⟩, ⟨%e6, H6⟩, ⟨%e7, H7⟩, ⟨%ek, HK⟩⟩
    isplitl [HK Hrest Hg]
    · isplitl [HK]
      · unfold owns; iexists _; isplitr
        swap; · iexact HK
        ipureintro; exact View.read_writes_of_cover _ _ _ _ _ (coverK_first c _ _ _ _ _ _ _ _ _ _ _ _ _ _ _ _ _ _ _ _ _ _ _ _ _)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_first c _ _ _ _ _ _ _ _ _ _ _ _ _ _ _ _ _ _ _ _ _ _ _ _ _)
    isplitl [H6]
    · unfold owns; iexists _; isplitr
      swap; · iexact H6
      ipureintro; exact View.read_writes_of_cover _ _ _ _ _ (cover6_first c _ _ _ _ _ _ _ _ _ _ _ _ _ _ _ _ _ _ _ _ _ _ _ _ _)
    unfold owns; iexists _; isplitr
    swap; · iexact H7
    ipureintro; exact View.read_writes_of_cover _ _ _ _ _ (cover7_first c _ _ _ _ _ _ _ _ _ _ _ _ _ _ _ _ _ _ _ _ _ _ _ _ _)
  · rw [leaves_later V c t hz, keepInv_pos V c t.val hz]
    dsimp only
    iintro ⟨⟨HK, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((laterAt V c t hz (carried V c)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HK]; · iexact HK
    iintro ⟨H0, H1, H2, H3, H4, ⟨%e5, H5⟩, ⟨%e6, H6⟩, ⟨%e7, H7⟩, HK⟩
    isplitl [HK Hrest Hg]
    · isplitl [HK]; · iexact HK
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_later c _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover6_later c _ _ _ _ _ _ _ _ _ _ _ _ _ _ _ _ _ _ _ _ _ _ _ _ _ _)
    unfold owns; iexists _; isplitr
    swap; · iexact H7
    ipureintro; exact View.read_writes_of_cover _ _ _ _ _ (cover7_later c _ _ _ _ _ _ _ _ _ _ _ _ _ _ _ _ _ _ _ _ _ _ _ _ _ _)

/-- The body's obligation at every grid point. -/
theorem body_obligation (c : Dev nD) : BodyObligation (dat (F := F) V c) (defs₀ (F := F)) Variants.none () Set.univ := fun t => by
  rw [bigSep_W0, bigSep_W0]
  exact body_at V c t

/-- What the launch hands the pass is the invariant before the first point. -/
theorem inv_in (c : Dev nD) : Pipeline.ΦA spec0 c ⊢ (dat V c).Φ 0 := by
  show Pipeline.ΦA spec0 c ⊢ Pipeline.ΦA spec0 c
  exact Idealize.SL.BI.Entails.refl _

/-- After the last point the invariant gives back what the launch handed over: the kept buffer's contents forgotten. -/
theorem inv_out (c : Dev nD) : (dat V c).Φ (Fin.last cfg0.N) ⊢ Pipeline.ΦA spec0 c := by
  rw [show (dat V c).Φ (Fin.last cfg0.N) = keepInv V c cfg0.N from rfl,
    keepInv_pos V c cfg0.N (by have h : cfg0.N = 50 := N_0; omega), inv_open]
  iintro ⟨HK, Hrest, Hg⟩
  isplitl [HK Hrest]
  · isplitl [HK]; · iexists _; iexact HK
    iexact Hrest
  iexact Hg

end Cert.KernelIdeal.PassOne

end
-- ==== Proof.IdealPassTwo.lean ====
/-
  The second aggregation pass (the second kernel launch of @main) as one segment of the program's run.

  At grid point t the body multiplies rows 1000·t … 1000·t + 999 of the adjacency by the 10000 × 128 support matrix,
  adds a bias row and applies the logistic function; puts the result beside the same rows of the first layer's output
  (a 1000 × 256 block) and multiplies by the 256 × 256 weight. The left 128 columns of that product plus a second bias
  row are one output block (the linear gate); the right 128 columns are the other (the next layer's support). It reads
  six windows and writes two; nothing is carried from one grid point to the next.
-/
import proofs.«138753_g16518444220475_cont_week2b_302_25_alg».proof.Proof.Gen.KernelIdeal.Launch
import proofs.«138753_g16518444220475_cont_week2b_302_25_alg».proof.Proof.Gen.KernelIdeal.Skeleton
import proofs.«138753_g16518444220475_cont_week2b_302_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.PassTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every grid point, whether it was fetched there or (its block
    index not having moved) left from the point before. -/
theorem held0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held5_of {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each buffer read or written whole -/

abbrev r0 : Rect S1000x10000 := Rect.unit (s := S1000x10000) ![0, 0] S1000x10000.size inb_S1000x10000_S1000x10000_0_0
abbrev r1 : Rect S10000x128 := Rect.unit (s := S10000x128) ![0, 0] S10000x128.size inb_S10000x128_S10000x128_0_0
abbrev r2 : Rect S1x128 := Rect.unit (s := S1x128) ![0, 0] S1x128.size inb_S1x128_S1x128_0_0
abbrev r3 : Rect S1000x128 := Rect.unit (s := S1000x128) ![0, 0] S1000x128.size inb_S1000x128_S1000x128_0_0
abbrev r4 : Rect S256x256 := Rect.unit (s := S256x256) ![0, 0] S256x256.size inb_S256x256_S256x256_0_0
abbrev r5 : Rect S1x128 := Rect.unit (s := S1x128) ![0, 0] S1x128.size inb_S1x128_S1x128_0_0
abbrev r6 : Rect S1000x128 := Rect.unit (s := S1000x128) ![0, 0] S1000x128.size inb_S1000x128_S1000x128_0_0
abbrev r7 : Rect S1000x128 := Rect.unit (s := S1000x128) ![0, 0] S1000x128.size inb_S1000x128_S1000x128_0_0

/-- What the body leaves in the gate's block: the left half of the 256-wide product, plus the gate's bias row. -/
def leaves6 (x0 : Vec F S1000x10000 .bf16) (x1 : Vec F S10000x128 .bf16) (x2 : Vec F S1x128 .f32) (x3 : Vec F S1000x128 .f32) (x4 : Vec F S256x256 .bf16) (x5 : Vec F S1x128 .f32) : Vec F S1000x128 .f32 :=
  View.canon [⟨r6, k1_pay2 (View.ld x0 r0) (View.ld x1 r1) (View.ld x2 r2) (View.ld x3 r3) (View.ld x4 r4) (View.ld x5 r5)⟩]

/-- That one store fills the whole block. -/
theorem cover6 (p0 : Vec F S1000x128 .f32) (y : S1000x128.Idx) :
    ∃ pc ∈ ([⟨r6, p0⟩] : List (View.Piece (Elt F) S1000x128 .f32)), y ∈ pc.1.set :=
  View.cover_of_tiled [⟨r6, p0⟩] S1000x128.size (by rfl) y

/-- What the body leaves in the next support's block: the right half of the 256-wide product. -/
def leaves7 (x0 : Vec F S1000x10000 .bf16) (x1 : Vec F S10000x128 .bf16) (x2 : Vec F S1x128 .f32) (x3 : Vec F S1000x128 .f32) (x4 : Vec F S256x256 .bf16) (x5 : Vec F S1x128 .f32) : Vec F S1000x128 .bf16 :=
  View.canon [⟨r7, k1_pay3 (View.ld x0 r0) (View.ld x1 r1) (View.ld x2 r2) (View.ld x3 r3) (View.ld x4 r4)⟩]

/-- That one store fills the whole block. -/
theorem cover7 (p0 : Vec F S1000x128 .bf16) (y : S1000x128.Idx) :
    ∃ pc ∈ ([⟨r7, p0⟩] : List (View.Piece (Elt F) S1000x128 .bf16)), y ∈ pc.1.set :=
  View.cover_of_tiled [⟨r7, p0⟩] S1000x128.size (by rfl) y

set_option maxHeartbeats 1000000 in
/-- The body, run on staging buffers holding the input blocks and anything in the outputs', returns with the inputs as
    they were and each output block at what its store leaves. -/
theorem body_triple (c : Dev nD) (E : Set ℕ) (i : grid1.Coords) (arg1 : Memref sig .tc .vmem S1000x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S1000x128 .f32) (harg4 : arg4.IsWhole) (arg5 : Memref sig .tc .vmem S256x256 .bf16) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .bf16) (harg8 : arg8.IsWhole)
    (x0 : Vec F S1000x10000 .bf16) (x1 : Vec F S10000x128 .bf16) (x2 : Vec F S1x128 .f32) (x3 : Vec F S1000x128 .f32) (x4 : Vec F S256x256 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (leaves6 x0 x1 x2 x3 x4 x5) ∗ owns (c : Thread nD τ) arg8 fullShare (leaves7 x0 x1 x2 x3 x4 x5)) -∗ K ⟨⟩))
      ⊢ wp frame (wpE (defs₀ (F := F)) Variants.none c none) E (cc1__p2_body i arg1 harg1 arg2 harg2 arg3 harg3 arg4 harg4 arg5 harg5 arg6 harg6 arg7 harg7 arg8 harg8) K := by
  simp only [cc1__p2_body_eq_skeleton]; unfold cc1__p2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _)
  iexists _; isplitr
  swap; · iexact H7
  ipureintro
  exact View.read_writes_eq_canon _ _ _ (cover7 _)

/-! ## The pass's data: what each staging buffer holds after the body, point by point -/

/-- The arrays as the pass finds them; after the body at point `t` each input's buffer at its block and each output's at
    what the store leaves of the input blocks; between points only the untouched rest; nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => leaves6 (blockAt V c 0 t) (blockAt V c 1 t) (blockAt V c 2 t) (blockAt V c 3 t) (blockAt V c 4 t) (blockAt V c 5 t)
    | ⟨7, _⟩ => leaves7 (blockAt V c 0 t) (blockAt V c 1 t) (blockAt V c 2 t) (blockAt V c 3 t) (blockAt V c 4 t) (blockAt V c 5 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = blockAt V c 4 t := by dsimp only [dat]
theorem after5 (c : Dev nD) (t : Fin cfg1.N) : (dat V c).after 5 t = blockAt V c 5 t := by dsimp only [dat]
theorem after6 (c : Dev nD) (t : Fin cfg1.N) : (dat V c).after 6 t = leaves6 (blockAt V c 0 t) (blockAt V c 1 t) (blockAt V c 2 t) (blockAt V c 3 t) (blockAt V c 4 t) (blockAt V c 5 t) := by dsimp only [dat]
theorem after7 (c : Dev nD) (t : Fin cfg1.N) : (dat V c).after 7 t = leaves7 (blockAt V c 0 t) (blockAt V c 1 t) (blockAt V c 2 t) (blockAt V c 3 t) (blockAt V c 4 t) (blockAt V c 5 t) := by dsimp only [dat]
theorem held0 (c : Dev nD) (t : Fin cfg1.N) (d) : (dat V c).before 0 t d = blockAt V c 0 t :=
  held0_of V (dat V c) (dat_A V c 0) (after0 V c) t d
theorem held1 (c : Dev nD) (t : Fin cfg1.N) (d) : (dat V c).before 1 t d = blockAt V c 1 t :=
  held1_of V (dat V c) (dat_A V c 1) (after1 V c) t d
theorem held2 (c : Dev nD) (t : Fin cfg1.N) (d) : (dat V c).before 2 t d = blockAt V c 2 t :=
  held2_of V (dat V c) (dat_A V c 2) (after2 V c) t d
theorem held3 (c : Dev nD) (t : Fin cfg1.N) (d) : (dat V c).before 3 t d = blockAt V c 3 t :=
  held3_of V (dat V c) (dat_A V c 3) (after3 V c) t d
theorem held4 (c : Dev nD) (t : Fin cfg1.N) (d) : (dat V c).before 4 t d = blockAt V c 4 t :=
  held4_of V (dat V c) (dat_A V c 4) (after4 V c) t d
theorem held5 (c : Dev nD) (t : Fin cfg1.N) (d) : (dat V c).before 5 t d = blockAt V c 5 t :=
  held5_of V (dat V c) (dat_A V c 5) (after5 V c) t d

/-! ## The body at a generic grid point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- At any grid point the input buffers hold their blocks, so the body's triple applies; the rest passes through. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2, held3, held4, held5]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt V c 0 t) (blockAt V c 1 t) (blockAt V c 2 t) (blockAt V c 3 t) (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation at every grid point. -/
theorem body_obligation (c : Dev nD) : BodyObligation (dat (F := F) V c) (defs₀ (F := F)) Variants.none () Set.univ := fun t => by
  rw [bigSep_W1, bigSep_W1]
  exact body_at V c t

end Cert.KernelIdeal.PassTwo

end
-- ==== Proof.IdealPassThree.lean ====
/-
  The third aggregation pass (the third kernel launch of @main) as one segment of the program's run.

  At grid point t the body multiplies rows 1000·t … 1000·t + 999 of the adjacency by the whole 10000 × 128 support
  matrix, adds the bias row, applies the logistic function, multiplies the result by the padded 128 × 128 weight, and
  stores that 1000 × 128 block. It reads four windows (the adjacency block, the support, the bias, the weight) and
  writes one; nothing is carried from one grid point to the next.
-/
import proofs.«138753_g16518444220475_cont_week2b_302_25_alg».proof.Proof.Gen.KernelIdeal.Launch
import proofs.«138753_g16518444220475_cont_week2b_302_25_alg».proof.Proof.Gen.KernelIdeal.Skeleton
import proofs.«138753_g16518444220475_cont_week2b_302_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.PassThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every grid point, whether it was fetched there or (its block
    index not having moved) left from the point before. -/
theorem held0_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each buffer read or written whole -/

abbrev rAdj : Rect S1000x10000 := Rect.unit (s := S1000x10000) ![0, 0] S1000x10000.size inb_S1000x10000_S1000x10000_0_0
abbrev rSup : Rect S10000x128 := Rect.unit (s := S10000x128) ![0, 0] S10000x128.size inb_S10000x128_S10000x128_0_0
abbrev rBias : Rect S1x128 := Rect.unit (s := S1x128) ![0, 0] S1x128.size inb_S1x128_S1x128_0_0
abbrev rWt : Rect S128x128 := Rect.unit (s := S128x128) ![0, 0] S128x128.size inb_S128x128_S128x128_0_0
abbrev rOut : Rect S1000x128 := Rect.unit (s := S1000x128) ![0, 0] S1000x128.size inb_S1000x128_S1000x128_0_0

/-- What the body leaves in the output block: logistic(adjacency block · support + bias) · weight, as its one store. -/
def leaves (a : Vec F S1000x10000 .bf16) (s : Vec F S10000x128 .bf16) (b : Vec F S1x128 .f32) (w : Vec F S128x128 .bf16) : Vec F S1000x128 .bf16 :=
  View.canon [⟨rOut, k2_pay1 (View.ld a rAdj) (View.ld s rSup) (View.ld b rBias) (View.ld w rWt)⟩]

/-- The one store fills the whole output block. -/
theorem leaves_cover (p0 : Vec F S1000x128 .bf16) (y : S1000x128.Idx) :
    ∃ pc ∈ ([⟨rOut, p0⟩] : List (View.Piece (Elt F) S1000x128 .bf16)), y ∈ pc.1.set :=
  View.cover_of_tiled [⟨rOut, p0⟩] S1000x128.size (by rfl) y

set_option maxHeartbeats 1000000 in
/-- The body, run on staging buffers holding the four input blocks and anything in the output's, returns with the
    inputs as they were and the output block at `leaves` of them. -/
theorem body_triple (c : Dev nD) (E : Set ℕ) (i : grid2.Coords)
    (arg1 : Memref sig .tc .vmem S1000x10000 .bf16) (harg1 : arg1.IsWhole) (arg2 : Memref sig .tc .vmem S10000x128 .bf16) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S1000x128 .bf16) (harg5 : arg5.IsWhole)
    (x0 : Vec F S1000x10000 .bf16) (x1 : Vec F S10000x128 .bf16) (x2 : Vec F S1x128 .f32) (x3 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (leaves x0 x1 x2 x3)) -∗ K ⟨⟩))
      ⊢ wp frame (wpE (defs₀ (F := F)) Variants.none c none) E (cc2__p3_body i arg1 harg1 arg2 harg2 arg3 harg3 arg4 harg4 arg5 harg5) K := by
  simp only [cc2__p3_body_eq_skeleton]; unfold cc2__p3_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (leaves_cover _)

/-! ## The pass's data: what each staging buffer holds after the body, point by point -/

/-- The arrays as the pass finds them; after the body at point `t` each input's buffer at its block and the output's at
    `leaves` of the input blocks; between points only the untouched rest; nothing owed. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => leaves (blockAt V c 0 t) (blockAt V c 1 t) (blockAt V c 2 t) (blockAt V c 3 t)
  Φ _ := Pipeline.ΦA spec2 c
  q _ := fullShare
  owed _ := 0

theorem dat_A (c : Dev nD) (w : Fin cfg2.W) : (dat V c).A w = V c (Pipeline.arrRef spec2 w) := by
  dsimp only [dat]

theorem after0 (c : Dev nD) (t : Fin cfg2.N) : (dat V c).after 0 t = blockAt V c 0 t := by dsimp only [dat]
theorem after1 (c : Dev nD) (t : Fin cfg2.N) : (dat V c).after 1 t = blockAt V c 1 t := by dsimp only [dat]
theorem after2 (c : Dev nD) (t : Fin cfg2.N) : (dat V c).after 2 t = blockAt V c 2 t := by dsimp only [dat]
theorem after3 (c : Dev nD) (t : Fin cfg2.N) : (dat V c).after 3 t = blockAt V c 3 t := by dsimp only [dat]
theorem after4 (c : Dev nD) (t : Fin cfg2.N) :
    (dat V c).after 4 t = leaves (blockAt V c 0 t) (blockAt V c 1 t) (blockAt V c 2 t) (blockAt V c 3 t) := by dsimp only [dat]

theorem held0 (c : Dev nD) (t : Fin cfg2.N) (d) : (dat V c).before 0 t d = blockAt V c 0 t :=
  held0_of V (dat V c) (dat_A V c 0) (after0 V c) t d
theorem held1 (c : Dev nD) (t : Fin cfg2.N) (d) : (dat V c).before 1 t d = blockAt V c 1 t :=
  held1_of V (dat V c) (dat_A V c 1) (after1 V c) t d
theorem held2 (c : Dev nD) (t : Fin cfg2.N) (d) : (dat V c).before 2 t d = blockAt V c 2 t :=
  held2_of V (dat V c) (dat_A V c 2) (after2 V c) t d
theorem held3 (c : Dev nD) (t : Fin cfg2.N) (d) : (dat V c).before 3 t d = blockAt V c 3 t :=
  held3_of V (dat V c) (dat_A V c 3) (after3 V c) t d

/-! ## The body at a generic grid point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

/-- At any grid point the input buffers hold their blocks, so the body's triple applies; the rest passes through. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [held0, held1, held2, held3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every grid point. -/
theorem body_obligation (c : Dev nD) : BodyObligation (dat (F := F) V c) (defs₀ (F := F)) Variants.none () Set.univ := fun t => by
  rw [bigSep_W2, bigSep_W2]
  exact body_at V c t

end Cert.KernelIdeal.PassThree

end
-- ==== Proof.IdealPassFour.lean ====
/-
  The fourth aggregation pass (the last kernel launch of @main) as one segment of the program's run.

  At grid point t the body multiplies rows 1000·t … 1000·t + 999 of the adjacency by the 10000 × 128 support matrix,
  adds the bias row and applies the logistic function (the fourth layer's rows), multiplies entry by entry by the same
  rows of the gate, adds the same rows of the first layer's output, and applies the logistic function again: the
  result's rows. It reads five windows and writes one; nothing is carried from one grid point to the next.
-/
import proofs.«138753_g16518444220475_cont_week2b_302_25_alg».proof.Proof.Gen.KernelIdeal.Launch
import proofs.«138753_g16518444220475_cont_week2b_302_25_alg».proof.Proof.Gen.KernelIdeal.Skeleton
import proofs.«138753_g16518444220475_cont_week2b_302_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.PassFour

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pass is entered
variable (V : (c : Dev nD) → (b : Ref sig .tc) → Buf (Elt F) ((c : Thread nD τ).loc b))

/-- Window `w`'s block at grid point `t`, read off its array as the pass finds it. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every grid point, whether it was fetched there or (its block
    index not having moved) left from the point before. -/
theorem held0_of {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg3 c) (hA : dat.A 2 = V c (Pipeline.arrRef spec3 2))
    (hafter : ∀ t, dat.after 2 t = blockAt V c 2 t) (t : Fin cfg3.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg3 c) (hA : dat.A 3 = V c (Pipeline.arrRef spec3 3))
    (hafter : ∀ t, dat.after 3 t = blockAt V c 3 t) (t : Fin cfg3.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg3 c) (hA : dat.A 4 = V c (Pipeline.arrRef spec3 4))
    (hafter : ∀ t, dat.after 4 t = blockAt V c 4 t) (t : Fin cfg3.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each buffer read or written whole -/

abbrev r0 : Rect S1000x10000 := Rect.unit (s := S1000x10000) ![0, 0] S1000x10000.size inb_S1000x10000_S1000x10000_0_0
abbrev r1 : Rect S10000x128 := Rect.unit (s := S10000x128) ![0, 0] S10000x128.size inb_S10000x128_S10000x128_0_0
abbrev r2 : Rect S1x128 := Rect.unit (s := S1x128) ![0, 0] S1x128.size inb_S1x128_S1x128_0_0
abbrev r3 : Rect S1000x128 := Rect.unit (s := S1000x128) ![0, 0] S1000x128.size inb_S1000x128_S1000x128_0_0
abbrev r4 : Rect S1000x128 := Rect.unit (s := S1000x128) ![0, 0] S1000x128.size inb_S1000x128_S1000x128_0_0
abbrev r5 : Rect S1000x128 := Rect.unit (s := S1000x128) ![0, 0] S1000x128.size inb_S1000x128_S1000x128_0_0

/-- What the body leaves in the result's block: logistic(first layer + fourth layer ⊙ gate). -/
def leaves5 (x0 : Vec F S1000x10000 .bf16) (x1 : Vec F S10000x128 .bf16) (x2 : Vec F S1x128 .f32) (x3 : Vec F S1000x128 .f32) (x4 : Vec F S1000x128 .f32) : Vec F S1000x128 .f32 :=
  View.canon [⟨r5, k3_pay1 (View.ld x0 r0) (View.ld x1 r1) (View.ld x2 r2) (View.ld x3 r3) (View.ld x4 r4)⟩]

/-- That one store fills the whole block. -/
theorem cover5 (p0 : Vec F S1000x128 .f32) (y : S1000x128.Idx) :
    ∃ pc ∈ ([⟨r5, p0⟩] : List (View.Piece (Elt F) S1000x128 .f32)), y ∈ pc.1.set :=
  View.cover_of_tiled [⟨r5, p0⟩] S1000x128.size (by rfl) y

set_option maxHeartbeats 1000000 in
/-- The body, run on staging buffers holding the input blocks and anything in the outputs', returns with the inputs as
    they were and each output block at what its store leaves. -/
theorem body_triple (c : Dev nD) (E : Set ℕ) (i : grid3.Coords) (arg1 : Memref sig .tc .vmem S1000x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1000x128 .f32) (harg6 : arg6.IsWhole)
    (x0 : Vec F S1000x10000 .bf16) (x1 : Vec F S10000x128 .bf16) (x2 : Vec F S1x128 .f32) (x3 : Vec F S1000x128 .f32) (x4 : Vec F S1000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (leaves5 x0 x1 x2 x3 x4)) -∗ K ⟨⟩))
      ⊢ wp frame (wpE (defs₀ (F := F)) Variants.none c none) E (cc3__p4_body i arg1 harg1 arg2 harg2 arg3 harg3 arg4 harg4 arg5 harg5 arg6 harg6) K := by
  simp only [cc3__p4_body_eq_skeleton]; unfold cc3__p4_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pass's data: what each staging buffer holds after the body, point by point -/

/-- The arrays as the pass finds them; after the body at point `t` each input's buffer at its block and each output's at
    what the store leaves of the input blocks; between points only the untouched rest; nothing owed. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => leaves5 (blockAt V c 0 t) (blockAt V c 1 t) (blockAt V c 2 t) (blockAt V c 3 t) (blockAt V c 4 t)
  Φ _ := Pipeline.ΦA spec3 c
  q _ := fullShare
  owed _ := 0

theorem dat_A (c : Dev nD) (w : Fin cfg3.W) : (dat V c).A w = V c (Pipeline.arrRef spec3 w) := by
  dsimp only [dat]

theorem after0 (c : Dev nD) (t : Fin cfg3.N) : (dat V c).after 0 t = blockAt V c 0 t := by dsimp only [dat]
theorem after1 (c : Dev nD) (t : Fin cfg3.N) : (dat V c).after 1 t = blockAt V c 1 t := by dsimp only [dat]
theorem after2 (c : Dev nD) (t : Fin cfg3.N) : (dat V c).after 2 t = blockAt V c 2 t := by dsimp only [dat]
theorem after3 (c : Dev nD) (t : Fin cfg3.N) : (dat V c).after 3 t = blockAt V c 3 t := by dsimp only [dat]
theorem after4 (c : Dev nD) (t : Fin cfg3.N) : (dat V c).after 4 t = blockAt V c 4 t := by dsimp only [dat]
theorem after5 (c : Dev nD) (t : Fin cfg3.N) : (dat V c).after 5 t = leaves5 (blockAt V c 0 t) (blockAt V c 1 t) (blockAt V c 2 t) (blockAt V c 3 t) (blockAt V c 4 t) := by dsimp only [dat]
theorem held0 (c : Dev nD) (t : Fin cfg3.N) (d) : (dat V c).before 0 t d = blockAt V c 0 t :=
  held0_of V (dat V c) (dat_A V c 0) (after0 V c) t d
theorem held1 (c : Dev nD) (t : Fin cfg3.N) (d) : (dat V c).before 1 t d = blockAt V c 1 t :=
  held1_of V (dat V c) (dat_A V c 1) (after1 V c) t d
theorem held2 (c : Dev nD) (t : Fin cfg3.N) (d) : (dat V c).before 2 t d = blockAt V c 2 t :=
  held2_of V (dat V c) (dat_A V c 2) (after2 V c) t d
theorem held3 (c : Dev nD) (t : Fin cfg3.N) (d) : (dat V c).before 3 t d = blockAt V c 3 t :=
  held3_of V (dat V c) (dat_A V c 3) (after3 V c) t d
theorem held4 (c : Dev nD) (t : Fin cfg3.N) (d) : (dat V c).before 4 t d = blockAt V c 4 t :=
  held4_of V (dat V c) (dat_A V c 4) (after4 V c) t d

/-! ## The body at a generic grid point -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

/-- At any grid point the input buffers hold their blocks, so the body's triple applies; the rest passes through. -/
theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [held0, held1, held2, held3, held4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every grid point. -/
theorem body_obligation (c : Dev nD) : BodyObligation (dat (F := F) V c) (defs₀ (F := F)) Variants.none () Set.univ := fun t => by
  rw [bigSep_W3, bigSep_W3]
  exact body_at V c t

end Cert.KernelIdeal.PassFour

end
-- ==== Proof.IdealWhole.lean ====
/-
  The whole program's run: sixteen stretches of host operations that reshape, pad, slice and join the weights and
  biases, then the four aggregation passes in order, each entered from what the one before left.

  Between two items every buffer that outlives a kernel launch holds a known value: after a host stretch what its
  operations compute; after a pass, that pass's arrays at what its write-backs leave (an input array as entered, an
  output array block by block) and every other buffer as entered. The run ends with the result array at what the fourth
  pass leaves in it and the twelve argument arrays as launched: no host operation writes an argument, and a pass only
  reads one.
-/
import proofs.«138753_g16518444220475_cont_week2b_302_25_alg».proof.Proof.IdealPassOne
import proofs.«138753_g16518444220475_cont_week2b_302_25_alg».proof.Proof.IdealPassTwo
import proofs.«138753_g16518444220475_cont_week2b_302_25_alg».proof.Proof.IdealPassThree
import proofs.«138753_g16518444220475_cont_week2b_302_25_alg».proof.Proof.IdealPassFour
import proofs.«138753_g16518444220475_cont_week2b_302_25_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the passes -/

/-- The buffers as pass 1 finds them, read at the TensorCore's references. -/
abbrev E0 : (c : Dev nD) → (b : Ref sig .tc) → Buf (Elt F) ((c : Thread nD τ).loc b) := fun c b => V16 m c b
/-- After pass 1: its arrays at what its write-backs leave, every other buffer as entered. -/
def X1 (c : Dev nD) : Valuation τ sig (Elt F) :=
  Pipeline.withArrays spec0 c (V16 m c) fun w => (PassOne.dat (E0 m) c).arrAt w cfg0.N
theorem X1_arr (c : Dev nD) (w : Fin cfg0.W) :
    X1 m c (Proc.devRef .tc (Pipeline.arrRef spec0 w)) = (PassOne.dat (E0 m) c).arrAt w cfg0.N := by
  unfold X1; exact Pipeline.withArrays_arr spec0 launch0.win.arr_inj c _ _ w
theorem X1_of_ne (c : Dev nD) (b : Ref sig .tc) (hb : ∀ w, Pipeline.arrRef spec0 w ≠ b) :
    X1 m c (Proc.devRef .tc b) = V16 m c (Proc.devRef .tc b) := by
  unfold X1; exact Pipeline.withArrays_of_ne spec0 c _ _ b hb
abbrev E0' : (c : Dev nD) → (b : Ref sig .tc) → Buf (Elt F) ((c : Thread nD τ).loc b) := fun c b => X1 m c b
theorem left0 (c : Dev nD) (w : Fin cfg0.W) : (PassOne.dat (E0 m) c).arrAt w cfg0.N = E0' m c (Pipeline.arrRef spec0 w) :=
  (X1_arr m c w).symm
theorem kept0 (c : Dev nD) : ∀ b, b ∉ Finset.univ.image (Pipeline.arrRef spec0) → E0' m c b = E0 m c b :=
  fun b hb => X1_of_ne m c b fun w e => hb (Finset.mem_image.mpr ⟨w, Finset.mem_univ _, e⟩)

/-- The buffers as pass 2 finds them, read at the TensorCore's references. -/
abbrev E1 : (c : Dev nD) → (b : Ref sig .tc) → Buf (Elt F) ((c : Thread nD τ).loc b) := fun c b => X1 m c b
/-- After pass 2: its arrays at what its write-backs leave, every other buffer as entered. -/
def X2 (c : Dev nD) : Valuation τ sig (Elt F) :=
  Pipeline.withArrays spec1 c (X1 m c) fun w => (PassTwo.dat (E1 m) c).arrAt w cfg1.N
theorem X2_arr (c : Dev nD) (w : Fin cfg1.W) :
    X2 m c (Proc.devRef .tc (Pipeline.arrRef spec1 w)) = (PassTwo.dat (E1 m) c).arrAt w cfg1.N := by
  unfold X2; exact Pipeline.withArrays_arr spec1 launch1.win.arr_inj c _ _ w
theorem X2_of_ne (c : Dev nD) (b : Ref sig .tc) (hb : ∀ w, Pipeline.arrRef spec1 w ≠ b) :
    X2 m c (Proc.devRef .tc b) = X1 m c (Proc.devRef .tc b) := by
  unfold X2; exact Pipeline.withArrays_of_ne spec1 c _ _ b hb
abbrev E1' : (c : Dev nD) → (b : Ref sig .tc) → Buf (Elt F) ((c : Thread nD τ).loc b) := fun c b => X2 m c b
theorem left1 (c : Dev nD) (w : Fin cfg1.W) : (PassTwo.dat (E1 m) c).arrAt w cfg1.N = E1' m c (Pipeline.arrRef spec1 w) :=
  (X2_arr m c w).symm
theorem kept1 (c : Dev nD) : ∀ b, b ∉ Finset.univ.image (Pipeline.arrRef spec1) → E1' m c b = E1 m c b :=
  fun b hb => X2_of_ne m c b fun w e => hb (Finset.mem_image.mpr ⟨w, Finset.mem_univ _, e⟩)

/-- The buffers as pass 3 finds them, read at the TensorCore's references. -/
abbrev E2 : (c : Dev nD) → (b : Ref sig .tc) → Buf (Elt F) ((c : Thread nD τ).loc b) := fun c b => X2 m c b
/-- After pass 3: its arrays at what its write-backs leave, every other buffer as entered. -/
def X3 (c : Dev nD) : Valuation τ sig (Elt F) :=
  Pipeline.withArrays spec2 c (X2 m c) fun w => (PassThree.dat (E2 m) c).arrAt w cfg2.N
theorem X3_arr (c : Dev nD) (w : Fin cfg2.W) :
    X3 m c (Proc.devRef .tc (Pipeline.arrRef spec2 w)) = (PassThree.dat (E2 m) c).arrAt w cfg2.N := by
  unfold X3; exact Pipeline.withArrays_arr spec2 launch2.win.arr_inj c _ _ w
theorem X3_of_ne (c : Dev nD) (b : Ref sig .tc) (hb : ∀ w, Pipeline.arrRef spec2 w ≠ b) :
    X3 m c (Proc.devRef .tc b) = X2 m c (Proc.devRef .tc b) := by
  unfold X3; exact Pipeline.withArrays_of_ne spec2 c _ _ b hb
abbrev E2' : (c : Dev nD) → (b : Ref sig .tc) → Buf (Elt F) ((c : Thread nD τ).loc b) := fun c b => X3 m c b
theorem left2 (c : Dev nD) (w : Fin cfg2.W) : (PassThree.dat (E2 m) c).arrAt w cfg2.N = E2' m c (Pipeline.arrRef spec2 w) :=
  (X3_arr m c w).symm
theorem kept2 (c : Dev nD) : ∀ b, b ∉ Finset.univ.image (Pipeline.arrRef spec2) → E2' m c b = E2 m c b :=
  fun b hb => X3_of_ne m c b fun w e => hb (Finset.mem_image.mpr ⟨w, Finset.mem_univ _, e⟩)

/-- The buffers as pass 4 finds them, read at the TensorCore's references. -/
abbrev E3 : (c : Dev nD) → (b : Ref sig .tc) → Buf (Elt F) ((c : Thread nD τ).loc b) := fun c b => X3 m c b
/-- After pass 4: its arrays at what its write-backs leave, every other buffer as entered. -/
def X4 (c : Dev nD) : Valuation τ sig (Elt F) :=
  Pipeline.withArrays spec3 c (X3 m c) fun w => (PassFour.dat (E3 m) c).arrAt w cfg3.N
theorem X4_arr (c : Dev nD) (w : Fin cfg3.W) :
    X4 m c (Proc.devRef .tc (Pipeline.arrRef spec3 w)) = (PassFour.dat (E3 m) c).arrAt w cfg3.N := by
  unfold X4; exact Pipeline.withArrays_arr spec3 launch3.win.arr_inj c _ _ w
theorem X4_of_ne (c : Dev nD) (b : Ref sig .tc) (hb : ∀ w, Pipeline.arrRef spec3 w ≠ b) :
    X4 m c (Proc.devRef .tc b) = X3 m c (Proc.devRef .tc b) := by
  unfold X4; exact Pipeline.withArrays_of_ne spec3 c _ _ b hb
abbrev E3' : (c : Dev nD) → (b : Ref sig .tc) → Buf (Elt F) ((c : Thread nD τ).loc b) := fun c b => X4 m c b
theorem left3 (c : Dev nD) (w : Fin cfg3.W) : (PassFour.dat (E3 m) c).arrAt w cfg3.N = E3' m c (Pipeline.arrRef spec3 w) :=
  (X4_arr m c w).symm
theorem kept3 (c : Dev nD) : ∀ b, b ∉ Finset.univ.image (Pipeline.arrRef spec3) → E3' m c b = E3 m c b :=
  fun b hb => X4_of_ne m c b fun w e => hb (Finset.mem_image.mpr ⟨w, Finset.mem_univ _, e⟩)

/-! ## The arguments end as launched -/

theorem X4_main_arg0 (c : Dev nD) : X4 m c (Proc.devRef .tc main_arg0) = m ((c : Thread nD τ).loc main_arg0) :=
  (X4_of_ne m c main_arg0 (by decide)).trans <| (X3_of_ne m c main_arg0 (by decide)).trans <| (X2_of_ne m c main_arg0 (by decide)).trans <| ((X1_arr m c 1).trans (((PassOne.dat (E0 m) c).arrAt_in 1 rfl _).trans (PassOne.dat_A (E0 m) c 1))).trans <|
    (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem X4_main_arg1 (c : Dev nD) : X4 m c (Proc.devRef .tc main_arg1) = m ((c : Thread nD τ).loc main_arg1) :=
  (X4_of_ne m c main_arg1 (by decide)).trans <| (X3_of_ne m c main_arg1 (by decide)).trans <| (X2_of_ne m c main_arg1 (by decide)).trans <| ((X1_arr m c 0).trans (((PassOne.dat (E0 m) c).arrAt_in 0 rfl _).trans (PassOne.dat_A (E0 m) c 0))).trans <|
    (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
theorem X4_main_arg2 (c : Dev nD) : X4 m c (Proc.devRef .tc main_arg2) = m ((c : Thread nD τ).loc main_arg2) :=
  (X4_of_ne m c main_arg2 (by decide)).trans <| (X3_of_ne m c main_arg2 (by decide)).trans <| (X2_of_ne m c main_arg2 (by decide)).trans <| ((X1_arr m c 2).trans (((PassOne.dat (E0 m) c).arrAt_in 2 rfl _).trans (PassOne.dat_A (E0 m) c 2))).trans <|
    (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
theorem X4_main_arg3 (c : Dev nD) : X4 m c (Proc.devRef .tc main_arg3) = m ((c : Thread nD τ).loc main_arg3) :=
  (X4_of_ne m c main_arg3 (by decide)).trans <| (X3_of_ne m c main_arg3 (by decide)).trans <| (X2_of_ne m c main_arg3 (by decide)).trans <| (X1_of_ne m c main_arg3 (by decide)).trans <|
    (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
theorem X4_main_arg4 (c : Dev nD) : X4 m c (Proc.devRef .tc main_arg4) = m ((c : Thread nD τ).loc main_arg4) :=
  (X4_of_ne m c main_arg4 (by decide)).trans <| (X3_of_ne m c main_arg4 (by decide)).trans <| (X2_of_ne m c main_arg4 (by decide)).trans <| (X1_of_ne m c main_arg4 (by decide)).trans <|
    (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))
theorem X4_main_arg5 (c : Dev nD) : X4 m c (Proc.devRef .tc main_arg5) = m ((c : Thread nD τ).loc main_arg5) :=
  (X4_of_ne m c main_arg5 (by decide)).trans <| (X3_of_ne m c main_arg5 (by decide)).trans <| (X2_of_ne m c main_arg5 (by decide)).trans <| (X1_of_ne m c main_arg5 (by decide)).trans <|
    (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem X4_main_arg6 (c : Dev nD) : X4 m c (Proc.devRef .tc main_arg6) = m ((c : Thread nD τ).loc main_arg6) :=
  (X4_of_ne m c main_arg6 (by decide)).trans <| (X3_of_ne m c main_arg6 (by decide)).trans <| (X2_of_ne m c main_arg6 (by decide)).trans <| (X1_of_ne m c main_arg6 (by decide)).trans <|
    (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
theorem X4_main_arg7 (c : Dev nD) : X4 m c (Proc.devRef .tc main_arg7) = m ((c : Thread nD τ).loc main_arg7) :=
  (X4_of_ne m c main_arg7 (by decide)).trans <| (X3_of_ne m c main_arg7 (by decide)).trans <| (X2_of_ne m c main_arg7 (by decide)).trans <| (X1_of_ne m c main_arg7 (by decide)).trans <|
    (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
theorem X4_main_arg8 (c : Dev nD) : X4 m c (Proc.devRef .tc main_arg8) = m ((c : Thread nD τ).loc main_arg8) :=
  (X4_of_ne m c main_arg8 (by decide)).trans <| (X3_of_ne m c main_arg8 (by decide)).trans <| (X2_of_ne m c main_arg8 (by decide)).trans <| (X1_of_ne m c main_arg8 (by decide)).trans <|
    (V16_of m c main_arg8 (by decide)).trans <| (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))
theorem X4_main_arg9 (c : Dev nD) : X4 m c (Proc.devRef .tc main_arg9) = m ((c : Thread nD τ).loc main_arg9) :=
  (X4_of_ne m c main_arg9 (by decide)).trans <| (X3_of_ne m c main_arg9 (by decide)).trans <| (X2_of_ne m c main_arg9 (by decide)).trans <| (X1_of_ne m c main_arg9 (by decide)).trans <|
    (V16_of m c main_arg9 (by decide)).trans <| (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))
theorem X4_main_arg10 (c : Dev nD) : X4 m c (Proc.devRef .tc main_arg10) = m ((c : Thread nD τ).loc main_arg10) :=
  (X4_of_ne m c main_arg10 (by decide)).trans <| (X3_of_ne m c main_arg10 (by decide)).trans <| (X2_of_ne m c main_arg10 (by decide)).trans <| (X1_of_ne m c main_arg10 (by decide)).trans <|
    (V16_of m c main_arg10 (by decide)).trans <| (V15_of m c main_arg10 (by decide)).trans <| (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide))
theorem X4_main_arg11 (c : Dev nD) : X4 m c (Proc.devRef .tc main_arg11) = m ((c : Thread nD τ).loc main_arg11) :=
  (X4_of_ne m c main_arg11 (by decide)).trans <| (X3_of_ne m c main_arg11 (by decide)).trans <| (X2_of_ne m c main_arg11 (by decide)).trans <| (X1_of_ne m c main_arg11 (by decide)).trans <|
    (V16_of m c main_arg11 (by decide)).trans <| (V15_of m c main_arg11 (by decide)).trans <| (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))

/-- The result array at the end: what the fourth pass's write-backs leave in it. -/
def result (c : Dev nD) : Buf (Elt F) ((c.tc : Thread nD τ).loc main_v23) := (PassFour.dat (E3 m) c).arrAt 5 cfg3.N
theorem X4_result (c : Dev nD) : X4 m c (Proc.devRef .tc main_v23) = result m c := X4_arr m c 5

/-! ## The proof data family and the thread state -/

/-- Every pass's data, each at the contents it is entered from. -/
def pdats : (p : Fin 4) → (c : Dev nD) → Dat τ (Elt F) Unit ℕ (UR sig nD τ) ℕ (Pipeline.pin (pcfgs (F := F)) adm p) c
  | ⟨0, _⟩ => fun c => PassOne.dat (E0 m) c
  | ⟨1, _⟩ => fun c => PassTwo.dat (E1 m) c
  | ⟨2, _⟩ => fun c => PassThree.dat (E2 m) c
  | ⟨3, _⟩ => fun c => PassFour.dat (E3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The passes as segments -/

set_option backward.isDefEq.respectTransparency.types false in
/-- Pass 1 over the thread state: its arrays taken out of the buffers that outlive a launch and put back at what the
    pass leaves; the generator register lent to the pass's invariant and returned; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (PassOne.body_obligation (E0 m) c).loose
  hwaits := Pipeline.hwaits_of_owed_zero _ _ _ _ L lv 0 fun _ _ => rfl
  pre c := iprop(StableHlo.held (c : Thread nD τ) (Pipeline.ucRefs τ sig) (V16 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from PassOne.inv_out (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E0' m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: its arrays taken out of the buffers that outlive a launch and put back at what the
    pass leaves; the generator register lent to the pass's invariant and returned; nothing owed; no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (PassTwo.body_obligation (E1 m) c).loose
  hwaits := Pipeline.hwaits_of_owed_zero _ _ _ _ L lv 1 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E1' m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 over the thread state: its arrays taken out of the buffers that outlive a launch and put back at what the
    pass leaves; the generator register lent to the pass's invariant and returned; nothing owed; no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (PassThree.body_obligation (E2 m) c).loose
  hwaits := Pipeline.hwaits_of_owed_zero _ _ _ _ L lv 2 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E2' m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 4 over the thread state: its arrays taken out of the buffers that outlive a launch and put back at what the
    pass leaves; the generator register lent to the pass's invariant and returned; nothing owed; no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (PassFour.body_obligation (E3 m) c).loose
  hwaits := Pipeline.hwaits_of_owed_zero _ _ _ _ L lv 3 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (E3' m c) ((pdats m 3 c).arrAt · cfg3.N) (left3 m c) (kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the last pass the generator register goes with the buffers and the core's debt, which is nothing, stands apart. -/
theorem last_link (c : Dev nD) :
    (iprop(StableHlo.held (c : Thread nD τ) (Pipeline.ucRefs τ sig) (X4 m c) ∗ R c) : sProp 𝕄)
      ⊢ iprop(iprop(StableHlo.held (c : Thread nD τ) (Pipeline.ucRefs τ sig) (X4 m c) ∗ ∃ r, prngReg c r)
          ∗ ∃ W, owes (c.tc : Thread nD τ) (0 : CellTallies nD τ sig Unit) W) := by
  iintro ⟨Hh, Hp, Ho⟩
  isplitl [Hh Hp]
  · isplitl [Hh]; · iexact Hh
    iexact Hp
  iexact Ho

/-! ## @main as its items, and the run -/

/-- @main's twenty items in order, the same on every core. -/
abbrev items (c : Dev nD) : List (Seg (pcfgs (F := F)) adm (pdats m) () defs₀ 𝒱₀ L lv) :=
  [.host (seg0 m 𝒱₀ L lv (fun _ => R)), .host (seg1 m 𝒱₀ L lv (fun _ => R)), .host (seg2 m 𝒱₀ L lv (fun _ => R)), .host (seg3 m 𝒱₀ L lv (fun _ => R)), .host (seg4 m 𝒱₀ L lv (fun _ => R)), .host (seg5 m 𝒱₀ L lv (fun _ => R)), .host (seg6 m 𝒱₀ L lv (fun _ => R)), .host (seg7 m 𝒱₀ L lv (fun _ => R)), .host (seg8 m 𝒱₀ L lv (fun _ => R)), .host (seg9 m 𝒱₀ L lv (fun _ => R)), .host (seg10 m 𝒱₀ L lv (fun _ => R)), .host (seg11 m 𝒱₀ L lv (fun _ => R)), .host (seg12 m 𝒱₀ L lv (fun _ => R)), .host (seg13 m 𝒱₀ L lv (fun _ => R)), .host (seg14 m 𝒱₀ L lv (fun _ => R)), .host (seg15 m 𝒱₀ L lv (fun _ => R)), .region (reg0 m), .region (reg1 m), .region (reg2 m), .region (reg3 m)]

set_option backward.isDefEq.respectTransparency.types false in
/-- From any memory with zero counters every weakly fair execution of @main terminates, faulting nowhere, with the result
    array at `result` and every argument array as launched. -/
theorem run : θ_run defs (onTc (τ := τ) (main (F := F))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_dev (pcfgs (F := F)) adm (pdats m) () cellOf_inj emb₁ defs₀ 𝒱₀ L lv m ρ main (items m)
    (fun c Q => by
      rewrite [main_chain c, Seg.run_eq_chain,
        show (items m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (fun c => by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (X4 m c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X4 m c b)
    (hfin := fun c s' => by
      iintro ⟨⟨Hh, -⟩, HSI⟩
      unfold StableHlo.held
      imodintro
      iapply (pointsTo_read_all (Pipeline.ucRefs τ sig) (fun b => (((c : Thread nD τ)).1, b)) (X4 m c) s')
      isplitl [Hh] <;> iassumption)
    (hQ := fun s h c =>
      ⟨(h c _ (mem_uc main_v23 (by decide))).trans (X4_result m c),
       (h c _ (mem_uc main_arg0 (by decide))).trans (X4_main_arg0 m c),
       (h c _ (mem_uc main_arg1 (by decide))).trans (X4_main_arg1 m c),
       (h c _ (mem_uc main_arg2 (by decide))).trans (X4_main_arg2 m c),
       (h c _ (mem_uc main_arg3 (by decide))).trans (X4_main_arg3 m c),
       (h c _ (mem_uc main_arg4 (by decide))).trans (X4_main_arg4 m c),
       (h c _ (mem_uc main_arg5 (by decide))).trans (X4_main_arg5 m c),
       (h c _ (mem_uc main_arg6 (by decide))).trans (X4_main_arg6 m c),
       (h c _ (mem_uc main_arg7 (by decide))).trans (X4_main_arg7 m c),
       (h c _ (mem_uc main_arg8 (by decide))).trans (X4_main_arg8 m c),
       (h c _ (mem_uc main_arg9 (by decide))).trans (X4_main_arg9 m c),
       (h c _ (mem_uc main_arg10 (by decide))).trans (X4_main_arg10 m c),
       (h c _ (mem_uc main_arg11 (by decide))).trans (X4_main_arg11 m c)⟩)

end Cert.KernelIdeal.Whole

end
-- ==== Proof.IdealChain.lean ====
/-
  From pass to pass: what each buffer a later pass reads holds when that pass is entered. An output array of an earlier
  pass holds what that pass left; an array a pass only reads comes out as it went in; a buffer a pass does not touch is
  unchanged. So the adjacency copy, the first layer's output and the gate reach the last pass as the first and second
  passes left them, and every padded weight and bias row reaches its pass as the host operations left it.
-/
import proofs.«138753_g16518444220475_cont_week2b_302_25_alg».proof.Proof.IdealWhole
import Idealize.ShloMosaic.PureOps.Ideal

set_option maxRecDepth 16384

noncomputable section

namespace Cert.KernelIdeal.Chain

open Cert.KernelIdeal Cert.KernelIdeal.Gen Cert.KernelIdeal.Whole
open Idealize.ShloMosaic Idealize.ShloMosaic.TcCoe Idealize.SL.Sem

variable (m : (ℓ : Loc nD τ sig) → Buf (Elt Ideal) ℓ) (c : Dev nD)

/-! ## Before the first pass: no host operation writes an argument -/
theorem v16_main_arg0 : V16 m c main_arg0 = m ((c : Thread nD τ).loc main_arg0) :=
  (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem v16_main_arg1 : V16 m c main_arg1 = m ((c : Thread nD τ).loc main_arg1) :=
  (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
theorem v16_main_arg2 : V16 m c main_arg2 = m ((c : Thread nD τ).loc main_arg2) :=
  (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))

/-! ## After the first pass -/
theorem x1_main_v20_0 : X1 m c main_v20_0 = (PassOne.dat (E0 m) c).arrAt 5 cfg0.N := X1_arr m c 5
theorem x1_main_v20_1 : X1 m c main_v20_1 = (PassOne.dat (E0 m) c).arrAt 6 cfg0.N := X1_arr m c 6
theorem x1_main_v20_2 : X1 m c main_v20_2 = (PassOne.dat (E0 m) c).arrAt 7 cfg0.N := X1_arr m c 7
theorem x1_main_v2 : X1 m c main_v2 = V16 m c main_v2 := X1_of_ne m c main_v2 (by decide)
theorem x1_main_v17 : X1 m c main_v17 = V16 m c main_v17 := X1_of_ne m c main_v17 (by decide)
theorem x1_main_v6 : X1 m c main_v6 = V16 m c main_v6 := X1_of_ne m c main_v6 (by decide)
theorem x1_main_v4 : X1 m c main_v4 = V16 m c main_v4 := X1_of_ne m c main_v4 (by decide)
theorem x1_main_v19 : X1 m c main_v19 = V16 m c main_v19 := X1_of_ne m c main_v19 (by decide)
theorem x1_main_v5 : X1 m c main_v5 = V16 m c main_v5 := X1_of_ne m c main_v5 (by decide)

/-! ## After the second pass -/
theorem x2_main_v21_0 : X2 m c main_v21_0 = (PassTwo.dat (E1 m) c).arrAt 6 cfg1.N := X2_arr m c 6
theorem x2_main_v21_1 : X2 m c main_v21_1 = (PassTwo.dat (E1 m) c).arrAt 7 cfg1.N := X2_arr m c 7
theorem x2_main_v20_0 : X2 m c main_v20_0 = X1 m c main_v20_0 :=
  (X2_arr m c 0).trans (((PassTwo.dat (E1 m) c).arrAt_in 0 rfl _).trans (PassTwo.dat_A (E1 m) c 0))
theorem x2_main_v20_1 : X2 m c main_v20_1 = X1 m c main_v20_1 :=
  (X2_arr m c 3).trans (((PassTwo.dat (E1 m) c).arrAt_in 3 rfl _).trans (PassTwo.dat_A (E1 m) c 3))
theorem x2_main_v4 : X2 m c main_v4 = X1 m c main_v4 := X2_of_ne m c main_v4 (by decide)
theorem x2_main_v19 : X2 m c main_v19 = X1 m c main_v19 := X2_of_ne m c main_v19 (by decide)
theorem x2_main_v5 : X2 m c main_v5 = X1 m c main_v5 := X2_of_ne m c main_v5 (by decide)

/-! ## After the third pass -/
theorem x3_main_v22 : X3 m c main_v22 = (PassThree.dat (E2 m) c).arrAt 4 cfg2.N := X3_arr m c 4
theorem x3_main_v20_0 : X3 m c main_v20_0 = X2 m c main_v20_0 :=
  (X3_arr m c 0).trans (((PassThree.dat (E2 m) c).arrAt_in 0 rfl _).trans (PassThree.dat_A (E2 m) c 0))
theorem x3_main_v20_1 : X3 m c main_v20_1 = X2 m c main_v20_1 := X3_of_ne m c main_v20_1 (by decide)
theorem x3_main_v21_0 : X3 m c main_v21_0 = X2 m c main_v21_0 := X3_of_ne m c main_v21_0 (by decide)
theorem x3_main_v5 : X3 m c main_v5 = X2 m c main_v5 := X3_of_ne m c main_v5 (by decide)

end Cert.KernelIdeal.Chain

end
-- ==== Proof.IdealPassOneValue.lean ====
/-
  The first aggregation pass: what its stores wrote, as values.

  At the first grid point the kept buffer receives x · W1 (in the narrower format), and the three output blocks are the
  adjacency rows in the narrower format, σ(rows · (x · W1) + b1), and that times the padded weight — the support matrix
  being read back from the kept buffer just written. At a later point the same three, over whatever the kept buffer holds.
-/
import proofs.«138753_g16518444220475_cont_week2b_302_25_alg».proof.Proof.IdealPassOne
import Idealize.ShloMosaic.Lib.Pipeline.Value

set_option maxRecDepth 16384

noncomputable section

namespace Cert.KernelIdeal.PassOne

open Cert.KernelIdeal Cert.KernelIdeal.Gen
open Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

/-- At the first point the kept buffer ends holding x · W1. -/
theorem kept_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) :
    VK.read (Elt F) (VK.writes (Elt F) VK.junk (runFirst (F := F) c i arg1 harg1 arg2 harg2 arg3 harg3 arg4 harg4 arg5 harg5 arg6 harg6 arg7 harg7 arg8 harg8 arg9 harg9 hc x0 x1 x2 x3 x4).2.2.2.1) = k0_pay1 x1 x2 := by
  rw [View.read_writes_eq_canon _ _ _ (coverK_first c i arg1 harg1 arg2 harg2 arg3 harg3 arg4 harg4 arg5 harg5 arg6 harg6 arg7 harg7 arg8 harg8 arg9 harg9 hc x0 x1 x2 x3 x4)]
  unfold runFirst
  dsimp only
  try sl_unfold_words
  rw [View.canon_unit_zero (S := S10000x128) hz]
  try rw [View.readCov_unit_zero (S := S10000x128) _ hz]
  try simp only [View.readAt_eq_ld, harg1.read_unread, harg2.read_unread, harg3.read_unread, harg4.read_unread, harg5.read_unread, harg9.read_unread,
    View.ld_unit_zero (S := S200x10000) hz, View.ld_unit_zero (S := S10000x128) hz, View.ld_unit_zero (S := S128x128) hz, View.ld_unit_zero (S := S1x128) hz, View.ld_unit_zero (S := S200x128) hz]

/-- The adjacency rows in the narrower format. -/
theorem out5_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) :
    VO5.read (Elt F) (VO5.writes (Elt F) VO5.junk (runFirst (F := F) c i arg1 harg1 arg2 harg2 arg3 harg3 arg4 harg4 arg5 harg5 arg6 harg6 arg7 harg7 arg8 harg8 arg9 harg9 hc x0 x1 x2 x3 x4).1) = k0_pay2 x0 := by
  rw [View.read_writes_eq_canon _ _ _ (cover5_first c i arg1 harg1 arg2 harg2 arg3 harg3 arg4 harg4 arg5 harg5 arg6 harg6 arg7 harg7 arg8 harg8 arg9 harg9 hc x0 x1 x2 x3 x4)]
  unfold runFirst
  dsimp only
  try sl_unfold_words
  rw [View.canon_unit_zero (S := S200x10000) hz]
  try rw [View.readCov_unit_zero (S := S10000x128) _ hz]
  try simp only [View.readAt_eq_ld, harg1.read_unread, harg2.read_unread, harg3.read_unread, harg4.read_unread, harg5.read_unread, harg9.read_unread,
    View.ld_unit_zero (S := S200x10000) hz, View.ld_unit_zero (S := S10000x128) hz, View.ld_unit_zero (S := S128x128) hz, View.ld_unit_zero (S := S1x128) hz, View.ld_unit_zero (S := S200x128) hz]

/-- The first layer's rows, over the support matrix just written. -/
theorem out6_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) :
    VO6.read (Elt F) (VO6.writes (Elt F) VO6.junk (runFirst (F := F) c i arg1 harg1 arg2 harg2 arg3 harg3 arg4 harg4 arg5 harg5 arg6 harg6 arg7 harg7 arg8 harg8 arg9 harg9 hc x0 x1 x2 x3 x4).2.1) = k0_pay3 x0 (k0_pay1 x1 x2) x3 := by
  rw [View.read_writes_eq_canon _ _ _ (cover6_first c i arg1 harg1 arg2 harg2 arg3 harg3 arg4 harg4 arg5 harg5 arg6 harg6 arg7 harg7 arg8 harg8 arg9 harg9 hc x0 x1 x2 x3 x4)]
  unfold runFirst
  dsimp only
  try sl_unfold_words
  rw [View.canon_unit_zero (S := S200x128) hz]
  try rw [View.readCov_unit_zero (S := S10000x128) _ hz]
  try simp only [View.readAt_eq_ld, harg1.read_unread, harg2.read_unread, harg3.read_unread, harg4.read_unread, harg5.read_unread, harg9.read_unread,
    View.ld_unit_zero (S := S200x10000) hz, View.ld_unit_zero (S := S10000x128) hz, View.ld_unit_zero (S := S128x128) hz, View.ld_unit_zero (S := S1x128) hz, View.ld_unit_zero (S := S200x128) hz]

/-- The next support's rows, over the support matrix just written. -/
theorem out7_first (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : atFirst i)
    (x0 : Vec F S200x10000 .f32) (x1 : Vec F S10000x128 .f32) (x2 : Vec F S128x128 .f32) (x3 : Vec F S1x128 .f32) (x4 : Vec F S128x128 .bf16) :
    VO7.read (Elt F) (VO7.writes (Elt F) VO7.junk (runFirst (F := F) c i arg1 harg1 arg2 harg2 arg3 harg3 arg4 harg4 arg5 harg5 arg6 harg6 arg7 harg7 arg8 harg8 arg9 harg9 hc x0 x1 x2 x3 x4).2.2.1) = k0_pay4 x0 (k0_pay1 x1 x2) x3 x4 := by
  rw [View.read_writes_eq_canon _ _ _ (cover7_first c i arg1 harg1 arg2 harg2 arg3 harg3 arg4 harg4 arg5 harg5 arg6 harg6 arg7 harg7 arg8 harg8 arg9 harg9 hc x0 x1 x2 x3 x4)]
  unfold runFirst
  dsimp only
  try sl_unfold_words
  rw [View.canon_unit_zero (S := S200x128) hz]
  try rw [View.readCov_unit_zero (S := S10000x128) _ hz]
  try simp only [View.readAt_eq_ld, harg1.read_unread, harg2.read_unread, harg3.read_unread, harg4.read_unread, harg5.read_unread, harg9.read_unread,
    View.ld_unit_zero (S := S200x10000) hz, View.ld_unit_zero (S := S10000x128) hz, View.ld_unit_zero (S := S128x128) hz, View.ld_unit_zero (S := S1x128) hz, View.ld_unit_zero (S := S200x128) hz]

/-- At a later point: the adjacency rows in the narrower format. -/
theorem out5_later (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : ¬atFirst i)
    (x0 : Vec F S200x10000 .f32) (x1 : Vec F S10000x128 .f32) (x2 : Vec F S128x128 .f32) (x3 : Vec F S1x128 .f32) (x4 : Vec F S128x128 .bf16) (xk : Vec F S10000x128 .bf16) :
    VO5.read (Elt F) (VO5.writes (Elt F) VO5.junk (runLater (F := F) c i arg1 harg1 arg2 harg2 arg3 harg3 arg4 harg4 arg5 harg5 arg6 harg6 arg7 harg7 arg8 harg8 arg9 harg9 hc x0 x1 x2 x3 x4 xk).1) = k0_pay2 x0 := by
  rw [View.read_writes_eq_canon _ _ _ (cover5_later c i arg1 harg1 arg2 harg2 arg3 harg3 arg4 harg4 arg5 harg5 arg6 harg6 arg7 harg7 arg8 harg8 arg9 harg9 hc x0 x1 x2 x3 x4 xk)]
  unfold runLater
  dsimp only
  try sl_unfold_words
  rw [View.canon_unit_zero (S := S200x10000) hz]
  try simp only [View.readAt_eq_ld, harg1.read_unread, harg2.read_unread, harg3.read_unread, harg4.read_unread, harg5.read_unread, harg9.read_unread,
    View.ld_unit_zero (S := S200x10000) hz, View.ld_unit_zero (S := S10000x128) hz, View.ld_unit_zero (S := S128x128) hz, View.ld_unit_zero (S := S1x128) hz, View.ld_unit_zero (S := S200x128) hz]

/-- At a later point: the first layer's rows, over what the kept buffer holds. -/
theorem out6_later (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : ¬atFirst i)
    (x0 : Vec F S200x10000 .f32) (x1 : Vec F S10000x128 .f32) (x2 : Vec F S128x128 .f32) (x3 : Vec F S1x128 .f32) (x4 : Vec F S128x128 .bf16) (xk : Vec F S10000x128 .bf16) :
    VO6.read (Elt F) (VO6.writes (Elt F) VO6.junk (runLater (F := F) c i arg1 harg1 arg2 harg2 arg3 harg3 arg4 harg4 arg5 harg5 arg6 harg6 arg7 harg7 arg8 harg8 arg9 harg9 hc x0 x1 x2 x3 x4 xk).2.1) = k0_pay3 x0 xk x3 := by
  rw [View.read_writes_eq_canon _ _ _ (cover6_later c i arg1 harg1 arg2 harg2 arg3 harg3 arg4 harg4 arg5 harg5 arg6 harg6 arg7 harg7 arg8 harg8 arg9 harg9 hc x0 x1 x2 x3 x4 xk)]
  unfold runLater
  dsimp only
  try sl_unfold_words
  rw [View.canon_unit_zero (S := S200x128) hz]
  try simp only [View.readAt_eq_ld, harg1.read_unread, harg2.read_unread, harg3.read_unread, harg4.read_unread, harg5.read_unread, harg9.read_unread,
    View.ld_unit_zero (S := S200x10000) hz, View.ld_unit_zero (S := S10000x128) hz, View.ld_unit_zero (S := S128x128) hz, View.ld_unit_zero (S := S1x128) hz, View.ld_unit_zero (S := S200x128) hz]

/-- At a later point: the next support's rows, over what the kept buffer holds. -/
theorem out7_later (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S200x10000 .bf16) (harg6 : arg6.IsWhole) (arg7 : Memref sig .tc .vmem S200x128 .f32) (harg7 : arg7.IsWhole) (arg8 : Memref sig .tc .vmem S200x128 .bf16) (harg8 : arg8.IsWhole) (arg9 : Memref sig .tc .vmem S10000x128 .bf16) (harg9 : arg9.IsWhole) (hc : ¬atFirst i)
    (x0 : Vec F S200x10000 .f32) (x1 : Vec F S10000x128 .f32) (x2 : Vec F S128x128 .f32) (x3 : Vec F S1x128 .f32) (x4 : Vec F S128x128 .bf16) (xk : Vec F S10000x128 .bf16) :
    VO7.read (Elt F) (VO7.writes (Elt F) VO7.junk (runLater (F := F) c i arg1 harg1 arg2 harg2 arg3 harg3 arg4 harg4 arg5 harg5 arg6 harg6 arg7 harg7 arg8 harg8 arg9 harg9 hc x0 x1 x2 x3 x4 xk).2.2.1) = k0_pay4 x0 xk x3 x4 := by
  rw [View.read_writes_eq_canon _ _ _ (cover7_later c i arg1 harg1 arg2 harg2 arg3 harg3 arg4 harg4 arg5 harg5 arg6 harg6 arg7 harg7 arg8 harg8 arg9 harg9 hc x0 x1 x2 x3 x4 xk)]
  unfold runLater
  dsimp only
  try sl_unfold_words
  rw [View.canon_unit_zero (S := S200x128) hz]
  try simp only [View.readAt_eq_ld, harg1.read_unread, harg2.read_unread, harg3.read_unread, harg4.read_unread, harg5.read_unread, harg9.read_unread,
    View.ld_unit_zero (S := S200x10000) hz, View.ld_unit_zero (S := S10000x128) hz, View.ld_unit_zero (S := S128x128) hz, View.ld_unit_zero (S := S1x128) hz, View.ld_unit_zero (S := S200x128) hz]

end Cert.KernelIdeal.PassOne

end
-- ==== Proof.Spec.lean ====
/-
  The graph network's arithmetic over the extended reals, on matrices indexed by coordinates.

  One layer is σ(A · S + b): the adjacency times a support matrix, plus a bias row, through the logistic function σ.
  The network is four such layers. The second layer's 64 columns are joined to the first layer's 128 (a 192-wide
  matrix) before the third layer and before the linear map that gates the output: out = σ(x11 + x22 ⊙ l1).

  Two spellings are stated. `refOut` joins the columns and multiplies by the 192-row weights. `kerOut` works at width
  128 throughout: the 64-wide weights and biases are padded with zeros, the joined matrix is 256 wide and is multiplied
  by one 256 × 256 matrix holding the two 192-row weights in its blocks. A padded support column is a sum of products
  with 0, hence 0; the logistic function gives σ(0) in a padded column, which then only meets zero rows of the next
  weight. So the two agree entry by entry, using only x · 0 = 0, 0 + x = x and the splitting of a finite sum.
-/
import Idealize.ShloMosaic.PureOps.Ideal
import Idealize.ShloMosaic.Lib.ValueIdx

noncomputable section

namespace Cert.Spec

open Idealize.ShloMosaic
open scoped BigOperators

/-- A matrix, and a row, of extended reals. -/
abbrev Mat (a b : ℕ) : Type := Fin a → Fin b → EReal
abbrev Row (b : ℕ) : Type := Fin b → EReal

/-- An array of shape [a, b] (resp. [b]) at the ideal values, read as a matrix (resp. a row). -/
def ofArr {a b : ℕ} (v : (⟨2, ![a, b]⟩ : Shape).Idx → EReal) : Mat a b := fun r j => v (ValueIdx.ix2 r j)
def ofVec {b : ℕ} (v : (⟨1, ![b]⟩ : Shape).Idx → EReal) : Row b := fun j => v (ValueIdx.ix1 j)

/-- The matrix product. -/
def mm {a k b : ℕ} (L : Mat a k) (R : Mat k b) : Mat a b := fun r j => ∑ f : Fin k, L r f * R f j

/-- One layer: σ(A · S + bias). -/
def conv {n k b : ℕ} (A : Mat n k) (S : Mat k b) (bias : Row b) : Mat n b :=
  fun r j => Ideal.logistic (mm A S r j + bias j)

/-- Two matrices side by side. -/
def join {n a b : ℕ} (P : Mat n a) (Q : Mat n b) : Mat n (a + b) :=
  fun r f => if h : f.val < a then P r ⟨f.val, h⟩ else Q r ⟨f.val - a, by have := f.isLt; omega⟩

/-- The network's twelve arguments. -/
structure Args where
  X : Mat 10000 128
  A : Mat 10000 10000
  W1 : Mat 128 128
  b1 : Row 128
  W2 : Mat 128 64
  b2 : Row 64
  W3 : Mat 192 64
  b3 : Row 64
  W4 : Mat 64 128
  b4 : Row 128
  Wl : Mat 192 128
  bl : Row 128

namespace Args
variable (p : Args)

/-- First layer, 128 wide. -/
def x11 : Mat 10000 128 := conv p.A (mm p.X p.W1) p.b1
/-- Second layer, 64 wide. -/
def x12 : Mat 10000 64 := conv p.A (mm p.x11 p.W2) p.b2
/-- Both, side by side: 192 wide. -/
def xcat : Mat 10000 192 := join p.x11 p.x12
/-- The linear gate. -/
def l1 : Mat 10000 128 := fun r j => mm p.xcat p.Wl r j + p.bl j
/-- Third layer, 64 wide. -/
def x21 : Mat 10000 64 := conv p.A (mm p.xcat p.W3) p.b3
/-- Fourth layer, 128 wide. -/
def x22 : Mat 10000 128 := conv p.A (mm p.x21 p.W4) p.b4
/-- The result. -/
def refOut : Mat 10000 128 := fun r j => Ideal.logistic (p.x11 r j + p.x22 r j * p.l1 r j)

end Args

/-- The zero-padded weights and biases the 128-wide spelling uses. -/
structure Padded where
  W2p : Mat 128 128
  b2p : Row 128
  Wc : Mat 256 256
  b3p : Row 128
  W4p : Mat 128 128

/-- `q` is the padding of `p`'s weights: zero outside the original columns and rows; the 256 × 256 matrix holds the
    gate's weight in its left half and the third layer's weight in its right half, each over rows 0 … 191. -/
structure IsPadding (p : Args) (q : Padded) : Prop where
  W2p : ∀ (f j : Fin 128), q.W2p f j = if h : j.val < 64 then p.W2 f ⟨j.val, h⟩ else 0
  b2p : ∀ j : Fin 128, q.b2p j = if h : j.val < 64 then p.b2 ⟨j.val, h⟩ else 0
  b3p : ∀ j : Fin 128, q.b3p j = if h : j.val < 64 then p.b3 ⟨j.val, h⟩ else 0
  W4p : ∀ (f j : Fin 128), q.W4p f j = if h : f.val < 64 then p.W4 ⟨f.val, h⟩ j else 0
  Wc : ∀ (f j : Fin 256), q.Wc f j =
    if hf : f.val < 192 then
      (if hj : j.val < 128 then p.Wl ⟨f.val, hf⟩ ⟨j.val, hj⟩
       else if hj' : j.val - 128 < 64 then p.W3 ⟨f.val, hf⟩ ⟨j.val - 128, hj'⟩ else 0)
    else 0

section Ker
variable (p : Args) (q : Padded)

/-- The 128-wide spelling, stage by stage. -/
def kS2 : Mat 10000 128 := mm p.x11 q.W2p
def kX12 : Mat 10000 128 := conv p.A (kS2 p q) q.b2p
def kR : Mat 10000 256 := mm (join p.x11 (kX12 p q)) q.Wc
def kL1 : Mat 10000 128 := fun r j => kR p q r ⟨j.val, by have := j.isLt; omega⟩ + p.bl j
def kS3 : Mat 10000 128 := fun r j => kR p q r ⟨128 + j.val, by have := j.isLt; omega⟩
def kX21 : Mat 10000 128 := conv p.A (kS3 p q) q.b3p
def kS4 : Mat 10000 128 := mm (kX21 p q) q.W4p
def kX22 : Mat 10000 128 := conv p.A (kS4 p q) p.b4
def kerOut : Mat 10000 128 := fun r j => Ideal.logistic (p.x11 r j + kX22 p q r j * kL1 p q r j)

end Ker

end Cert.Spec

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.Payloads.lean ====
/-
  The kernel bodies' arithmetic at the ideal values, read at one entry.

  Each stored value of the four kernel bodies is a pure function of the vectors read before it. Here each is read at
  one entry (p, q) and written in the vocabulary of matrices over the extended reals: a matrix product accumulated
  into the zero splat is the sum over the contracted coordinate; a change of float format is the identity on the
  extended reals; a shape cast to the same shape is the identity; a [1, 128] row broadcast to [n, 128] reads the row
  at the column; a slice along the columns reads at the offset plus the column; two 128-wide blocks joined along the
  columns read the first below column 128 and the second at the column less 128.
-/
import proofs.«138753_g16518444220475_cont_week2b_302_25_alg».proof.Proof.Gen.KernelIdeal.Skeleton
import proofs.«138753_g16518444220475_cont_week2b_302_25_alg».proof.Proof.Spec
import proofs.«138753_g16518444220475_cont_week2b_302_25_alg».proof.Proof.LibPlainDot
import Idealize.ShloMosaic.Lib.ValueLayout

noncomputable section

namespace Cert.KernelIdeal.Payloads

open Cert.KernelIdeal Cert.KernelIdeal.Gen Cert.Spec Idealize.ShloMosaic Idealize.ShloMosaic.ValueIdx
open scoped BigOperators

/-- A [1, 128] array read as a row. -/
def rowOf (v : Vec Ideal S1x128 .f32) : Cert.Spec.Row 128 := fun j => v (ix2 (0 : Fin 1) j)

variable {φ₁ φ₂ : FTy}

/-- One layer at an entry: the logistic function of the product's entry plus the bias at the column. -/
theorem layer_apply {n k : Nat} (D : DotDims ⟨2, ![n, k]⟩ ⟨2, ![k, 128]⟩ ⟨2, ![n, 128]⟩) (hD : D = DotDims.plain n k 128)
    (A : FVec Ideal ⟨2, ![n, k]⟩ φ₁) (B : FVec Ideal ⟨2, ![k, 128]⟩ φ₂) (b : FVec Ideal ⟨2, ![1, 128]⟩ .f32)
    (hb : (⟨2, ![1, 128]⟩ : Shape).Broadcasts ⟨2, ![n, 128]⟩) (p : Fin n) (q : Fin 128) :
    logistic (addf (matmul D none A B (constant (F := Ideal) ⟨2, ![n, 128]⟩ .f32 0x00000000#32))
        (broadcastTo ⟨2, ![n, 128]⟩ b hb)) (ix2 p q)
      = conv (ofArr A) (ofArr B) (rowOf b) p q := by
  show Ideal.logistic (_ + _) = Ideal.logistic (_ + _)
  rw [Cert.LibPlainDot.matmul_plain_zero_apply D hD, broadcastTo_1b_ab_apply]
  rfl

section Concat
variable {α : Type}

/-- Two blocks joined along the columns, read left of the seam: the first block at the same entry. -/
theorem concat_cols_left {n a b w : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, w]⟩ 1) (p : Fin n) (c : Fin w)
    (hc : c.val < a) :
    concatenate ⟨2, ![n, w]⟩ 1 [⟨⟨2, ![n, a]⟩, x₁⟩, ⟨⟨2, ![n, b]⟩, x₂⟩] h (ix2 p c) = x₁ (ix2 p ⟨c.val, hc⟩) :=
  concatenate_pair_apply_left 1 x₁ x₂ h (ix2 p c) rfl (ix2 p ⟨c.val, hc⟩) fun d => by
    match d with
    | ⟨0, _⟩ => rfl
    | ⟨1, _⟩ => rfl

/-- Two blocks joined along the columns, read at or right of the seam: the second block, the column less the first
    block's width. -/
theorem concat_cols_right {n a b w : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, w]⟩ 1) (p : Fin n) (c : Fin w)
    (hc : a ≤ c.val) (hb : c.val - a < b) :
    concatenate ⟨2, ![n, w]⟩ 1 [⟨⟨2, ![n, a]⟩, x₁⟩, ⟨⟨2, ![n, b]⟩, x₂⟩] h (ix2 p c) = x₂ (ix2 p ⟨c.val - a, hb⟩) :=
  concatenate_pair_apply_right 1 x₁ x₂ h (ix2 p c) rfl rfl (ix2 p ⟨c.val - a, hb⟩)
    (fun d hd => by
      match d, hd with
      | ⟨0, _⟩, _ => rfl
      | ⟨1, _⟩, hd => exact absurd (Fin.ext rfl) hd)
    (by show c.val - a + a = c.val; omega)

end Concat

/-- The third body's stored value: the layer times the weights. -/
theorem pay2_s4 (v0 : Vec Ideal S1000x10000 .bf16) (v2 : Vec Ideal S10000x128 .bf16) (v5 : Vec Ideal S1x128 .f32)
    (v11 : Vec Ideal S128x128 .bf16) (p : Fin 1000) (q : Fin 128) :
    k2_pay1 (F := Ideal) v0 v2 v5 v11 (ix2 p q) = mm (conv (ofArr v0) (ofArr v2) (rowOf v5)) (ofArr v11) p q := by
  unfold k2_pay1
  simp only [shapeCast_self]
  show matmul (φ₁ := .bf16) (φ₂ := .bf16) dot_S1000x128_S128x128_S1000x128_1_0_0_1_n_n none _ v11
    (constant (F := Ideal) S1000x128 .f32 0x00000000#32) (ix2 p q) = _
  refine (Cert.LibPlainDot.matmul_plain_zero_apply (φ₁ := .bf16) (φ₂ := .bf16)
    dot_S1000x128_S128x128_S1000x128_1_0_0_1_n_n rfl none _ v11 p q).trans ?_
  refine Finset.sum_congr rfl fun c _ => ?_
  exact congrArg (· * v11 (ix2 c q)) (layer_apply (φ₁ := .bf16) (φ₂ := .bf16) _ rfl v0 v2 v5 _ p c)

/-- The first body's first stored value: the features times the first weights. -/
theorem pay0_s1 (v20 : Vec Ideal S10000x128 .f32) (v21 : Vec Ideal S128x128 .f32) (k : Fin 10000) (j : Fin 128) :
    k0_pay1 (F := Ideal) v20 v21 (ix2 k j) = mm (ofArr v20) (ofArr v21) k j := by
  unfold k0_pay1
  simp only [shapeCast_self]
  exact Cert.LibPlainDot.matmul_plain_zero_apply (φ₁ := .f32) (φ₂ := .f32)
    dot_S10000x128_S128x128_S10000x128_1_0_0_1_n_n rfl none v20 v21 k j

/-- The adjacency block in the narrower float format: the same extended reals. -/
theorem pay0_adj (v3 : Vec Ideal S200x10000 .f32) (p : Fin 200) (k : Fin 10000) :
    k0_pay2 (F := Ideal) v3 (ix2 p k) = v3 (ix2 p k) := rfl

/-- The first layer's block. -/
theorem pay0_x11 (v3 : Vec Ideal S200x10000 .f32) (v6 : Vec Ideal S10000x128 .bf16) (v8 : Vec Ideal S1x128 .f32)
    (p : Fin 200) (q : Fin 128) :
    k0_pay3 (F := Ideal) v3 v6 v8 (ix2 p q) = conv (ofArr v3) (ofArr v6) (rowOf v8) p q := by
  have e : k0_pay2 (F := Ideal) v3 = v3 := rfl
  unfold k0_pay3
  simp only [shapeCast_self]
  rw [e]
  exact layer_apply (φ₁ := .f32) (φ₂ := .bf16) dot_S200x10000_S10000x128_S200x128_1_0_0_1_n_n rfl v3 v6 v8 _ p q

/-- The first layer's block times the second weights. -/
theorem pay0_s2 (v3 : Vec Ideal S200x10000 .f32) (v6 : Vec Ideal S10000x128 .bf16) (v8 : Vec Ideal S1x128 .f32)
    (v15 : Vec Ideal S128x128 .bf16) (p : Fin 200) (q : Fin 128) :
    k0_pay4 (F := Ideal) v3 v6 v8 v15 (ix2 p q)
      = mm (conv (ofArr v3) (ofArr v6) (rowOf v8)) (ofArr v15) p q := by
  unfold k0_pay4
  simp only [shapeCast_self]
  show matmul (φ₁ := .bf16) (φ₂ := .bf16) dot_S200x128_S128x128_S200x128_1_0_0_1_n_n none _ v15
    (constant (F := Ideal) S200x128 .f32 0x00000000#32) (ix2 p q) = _
  refine (Cert.LibPlainDot.matmul_plain_zero_apply (φ₁ := .bf16) (φ₂ := .bf16)
    dot_S200x128_S128x128_S200x128_1_0_0_1_n_n rfl none _ v15 p q).trans ?_
  refine Finset.sum_congr rfl fun c _ => ?_
  exact congrArg (· * v15 (ix2 c q)) (pay0_x11 v3 v6 v8 p c)

/-- The second body's product: the first layer's block and the second layer's block side by side, times the
    256 × 256 weights. -/
theorem pay1_r (v0 : Vec Ideal S1000x10000 .bf16) (v2 : Vec Ideal S10000x128 .bf16) (v5 : Vec Ideal S1x128 .f32)
    (v10 : Vec Ideal S1000x128 .f32) (v15 : Vec Ideal S256x256 .bf16) (p : Fin 1000) (q : Fin 256) :
    k1_pay1 (F := Ideal) v0 v2 v5 v10 v15 (ix2 p q)
      = mm (join (ofArr v10) (conv (ofArr v0) (ofArr v2) (rowOf v5))) (ofArr v15) p q := by
  unfold k1_pay1
  rw [shapeCast_self v15]
  refine (Cert.LibPlainDot.matmul_plain_zero_apply (φ₁ := .bf16) (φ₂ := .bf16)
    dot_S1000x256_S256x256_S1000x256_1_0_0_1_n_n rfl none _ v15 p q).trans ?_
  refine Finset.sum_congr rfl fun c _ => ?_
  refine congrArg (· * v15 (ix2 c q)) ?_
  show _ = join (ofArr v10) (conv (ofArr v0) (ofArr v2) (rowOf v5)) p c
  unfold join
  split
  · next h =>
    refine (concat_cols_left _ _ concatenates_S1000x128_S1000x128_S1000x256_d1 p c h).trans ?_
    show shapeCast S1000x128 v10 shapeCasts_S1000x128_S1000x128 (ix2 p ⟨c.val, h⟩) = v10 (ix2 p ⟨c.val, h⟩)
    rw [shapeCast_self]
  · next h =>
    refine (concat_cols_right _ _ concatenates_S1000x128_S1000x128_S1000x256_d1 p c (Nat.not_lt.1 h)
      (by have := c.isLt; omega)).trans ?_
    simp only [shapeCast_self]
    exact layer_apply (φ₁ := .bf16) (φ₂ := .bf16) dot_S1000x10000_S10000x128_S1000x128_1_0_0_1_n_n rfl v0 v2 v5 _ p _

/-- The gate: the product's left half plus the gate's bias. -/
theorem pay1_l1 (v0 : Vec Ideal S1000x10000 .bf16) (v2 : Vec Ideal S10000x128 .bf16) (v5 : Vec Ideal S1x128 .f32)
    (v10 : Vec Ideal S1000x128 .f32) (v15 : Vec Ideal S256x256 .bf16) (v19 : Vec Ideal S1x128 .f32)
    (p : Fin 1000) (q : Fin 128) :
    k1_pay2 (F := Ideal) v0 v2 v5 v10 v15 v19 (ix2 p q)
      = k1_pay1 (F := Ideal) v0 v2 v5 v10 v15 (ix2 p ⟨q.val, by have := q.isLt; omega⟩) + rowOf v19 q := by
  unfold k1_pay2
  rw [shapeCast_self v19]
  exact congrArg₂ (· + ·)
    (slice2_axis1_apply 0 (k1_pay1 (F := Ideal) v0 v2 v5 v10 v15) slices_S1000x256_o0_0_S1000x128 p q
      ⟨q.val, by have := q.isLt; omega⟩ (Nat.zero_add _).symm)
    (broadcastTo_1b_ab_apply v19 broadcasts_S1x128_S1000x128 p q)

/-- The third layer's support: the product's right half. -/
theorem pay1_s3 (v0 : Vec Ideal S1000x10000 .bf16) (v2 : Vec Ideal S10000x128 .bf16) (v5 : Vec Ideal S1x128 .f32)
    (v10 : Vec Ideal S1000x128 .f32) (v15 : Vec Ideal S256x256 .bf16) (p : Fin 1000) (q : Fin 128) :
    k1_pay3 (F := Ideal) v0 v2 v5 v10 v15 (ix2 p q)
      = k1_pay1 (F := Ideal) v0 v2 v5 v10 v15 (ix2 p ⟨128 + q.val, by have := q.isLt; omega⟩) := by
  unfold k1_pay3
  show extractStridedSlice S1000x128 ![0, 128] (k1_pay1 (F := Ideal) v0 v2 v5 v10 v15)
    slices_S1000x256_o0_128_S1000x128 (ix2 p q) = _
  exact slice2_axis1_apply 128 (k1_pay1 (F := Ideal) v0 v2 v5 v10 v15) slices_S1000x256_o0_128_S1000x128 p q
    ⟨128 + q.val, by have := q.isLt; omega⟩ rfl

/-- The fourth body's stored value: the logistic function of the first layer's entry plus the fourth layer's entry
    times the gate's. -/
theorem pay3_out (v0 : Vec Ideal S1000x10000 .bf16) (v2 : Vec Ideal S10000x128 .bf16) (v5 : Vec Ideal S1x128 .f32)
    (v10 : Vec Ideal S1000x128 .f32) (v12 : Vec Ideal S1000x128 .f32) (p : Fin 1000) (q : Fin 128) :
    k3_pay1 (F := Ideal) v0 v2 v5 v10 v12 (ix2 p q)
      = Ideal.logistic (v10 (ix2 p q) + conv (ofArr v0) (ofArr v2) (rowOf v5) p q * v12 (ix2 p q)) := by
  unfold k3_pay1
  simp only [shapeCast_self]
  exact congrArg (fun x => Ideal.logistic (v10 (ix2 p q) + x * v12 (ix2 p q)))
    (layer_apply (φ₁ := .bf16) (φ₂ := .bf16) dot_S1000x10000_S10000x128_S1000x128_1_0_0_1_n_n rfl v0 v2 v5 _ p q)

end Cert.KernelIdeal.Payloads

end
-- ==== Proof.IdealValueOne.lean ====
/-
  The first aggregation pass: its three output arrays as functions of the arrays it is entered with, at the ideal values.

  Write A for the adjacency, X and W1 for the features and the first weight, b1 for the first bias row, W2' for the padded
  second weight. The pass keeps S1 = X · W1 from its first grid point on, and point t writes rows 200·t … 200·t + 199
  of: the adjacency itself (a change of format is the identity on ideal values); σ(A · S1 + b1); and σ(A · S1 + b1) · W2'.
  The fifty blocks tile each array, so after the pass each array is that one function of A, X, W1, b1, W2' entry by entry.
-/
import proofs.«138753_g16518444220475_cont_week2b_302_25_alg».proof.Proof.IdealPassOneValue
import proofs.«138753_g16518444220475_cont_week2b_302_25_alg».proof.Proof.Payloads
import proofs.«138753_g16518444220475_cont_week2b_302_25_alg».proof.Proof.Spec
import Idealize.ShloMosaic.Lib.Pipeline.Value

set_option maxRecDepth 16384

noncomputable section

namespace Cert.KernelIdeal.ValueOne

open Cert.KernelIdeal Cert.KernelIdeal.Gen Cert.KernelIdeal.PassOne Cert.KernelIdeal.Payloads Cert.Spec
open Idealize.ShloMosaic Idealize.ShloMosaic.TcCoe Idealize.ShloMosaic.ValueIdx Idealize.SL.Sem
open Idealize.ShloMosaic.Pipeline (Dat)

/-! ## What the kept buffer and the output blocks hold, at any reading of the floats -/

section AnyReading

variable {F : FTy → Type} [FloatOps F]
variable (V : (c : Dev nD) → (b : Ref sig .tc) → Buf (Elt F) ((c : Thread nD τ).loc b)) (c : Dev nD)

/-- The three components of `leaves`, case by case. -/
theorem first6 (t : Fin cfg0.N) (hz : t.val = 0) :
    (leaves V c t).2.1 = VO6.read (Elt F) (VO6.writes (Elt F) VO6.junk (firstAt V c t hz).2.1) := congrArg (fun x => x.2.1) (leaves_first V c t hz)
theorem first7 (t : Fin cfg0.N) (hz : t.val = 0) :
    (leaves V c t).2.2 = VO7.read (Elt F) (VO7.writes (Elt F) VO7.junk (firstAt V c t hz).2.2.1) := congrArg (fun x => x.2.2) (leaves_first V c t hz)
theorem later6 (t : Fin cfg0.N) (hz : ¬t.val = 0) :
    (leaves V c t).2.1 = VO6.read (Elt F) (VO6.writes (Elt F) VO6.junk (laterAt V c t hz (carried V c)).2.1) := congrArg (fun x => x.2.1) (leaves_later V c t hz)
theorem later7 (t : Fin cfg0.N) (hz : ¬t.val = 0) :
    (leaves V c t).2.2 = VO7.read (Elt F) (VO7.writes (Elt F) VO7.junk (laterAt V c t hz (carried V c)).2.2.1) := congrArg (fun x => x.2.2) (leaves_later V c t hz)

/-- The kept buffer's contents as the first point's payload. -/
theorem carried_pay : carried V c = k0_pay1 (F := F) (blockAt V c 1 t0) (blockAt V c 2 t0) :=
  kept_first (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) keep (Memref.isWhole_whole _) ((atFirst_iff t0).mpr rfl) (blockAt V c 0 t0) (blockAt V c 1 t0) (blockAt V c 2 t0) (blockAt V c 3 t0) (blockAt V c 4 t0)

theorem leaves5_eq (t : Fin cfg0.N) : (leaves V c t).1 = k0_pay2 (F := F) (blockAt V c 0 t) := by
  by_cases hz : t.val = 0
  · have h5 := out5_first (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) keep (Memref.isWhole_whole _) ((atFirst_iff t).mpr hz) (blockAt V c 0 t) (blockAt V c 1 t) (blockAt V c 2 t) (blockAt V c 3 t) (blockAt V c 4 t)
    rw [leaves_first V c t hz]
    dsimp only [firstAt]
    exact h5
  · have h5 := out5_later (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) keep (Memref.isWhole_whole _) (fun h => hz ((atFirst_iff t).mp h)) (blockAt V c 0 t) (blockAt V c 1 t) (blockAt V c 2 t) (blockAt V c 3 t) (blockAt V c 4 t) (carried V c)
    rw [leaves_later V c t hz]
    dsimp only [laterAt]
    exact h5

theorem leaves6_eq (t : Fin cfg0.N) : (leaves V c t).2.1 = k0_pay3 (F := F) (blockAt V c 0 t) (carried V c) (blockAt V c 3 t) := by
  by_cases hz : t.val = 0
  · obtain rfl : t = t0 := Fin.ext hz
    rw [carried_pay V c]
    exact (first6 V c t0 hz).trans (out6_first (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) keep (Memref.isWhole_whole _) ((atFirst_iff t0).mpr hz) (blockAt V c 0 t0) (blockAt V c 1 t0) (blockAt V c 2 t0) (blockAt V c 3 t0) (blockAt V c 4 t0))
  · exact (later6 V c t hz).trans (out6_later (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) keep (Memref.isWhole_whole _) (fun h => hz ((atFirst_iff t).mp h)) (blockAt V c 0 t) (blockAt V c 1 t) (blockAt V c 2 t) (blockAt V c 3 t) (blockAt V c 4 t) (carried V c))

theorem leaves7_eq (t : Fin cfg0.N) : (leaves V c t).2.2 = k0_pay4 (F := F) (blockAt V c 0 t) (carried V c) (blockAt V c 3 t) (blockAt V c 4 t) := by
  by_cases hz : t.val = 0
  · obtain rfl : t = t0 := Fin.ext hz
    rw [carried_pay V c]
    exact (first7 V c t0 hz).trans (out7_first (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) keep (Memref.isWhole_whole _) ((atFirst_iff t0).mpr hz) (blockAt V c 0 t0) (blockAt V c 1 t0) (blockAt V c 2 t0) (blockAt V c 3 t0) (blockAt V c 4 t0))
  · exact (later7 V c t hz).trans (out7_later (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) keep (Memref.isWhole_whole _) (fun h => hz ((atFirst_iff t).mp h)) (blockAt V c 0 t) (blockAt V c 1 t) (blockAt V c 2 t) (blockAt V c 3 t) (blockAt V c 4 t) (carried V c))

end AnyReading

variable (V : (c : Dev nD) → (b : Ref sig .tc) → Buf (Elt Ideal) ((c : Thread nD τ).loc b)) (c : Dev nD)

/-! ## The arrays the pass reads, as matrices -/

abbrev adj : Mat 10000 10000 := ofArr (V c main_arg1)
abbrev feat : Mat 10000 128 := ofArr (V c main_arg0)
abbrev w1 : Mat 128 128 := ofArr (V c main_arg2)
abbrev b1 : Row 128 := rowOf (V c main_v0)
abbrev w2p : Mat 128 128 := ofArr (V c main_v8)

/-- The three output arrays' contents. -/
def G5 : S10000x10000.Idx → EReal := fun i => V c main_arg1 i
def G6 : S10000x128.Idx → EReal := fun i => conv (adj V c) (mm (feat V c) (w1 V c)) (b1 V c) (i 0) (i 1)
def G7 : S10000x128.Idx → EReal := fun i => mm (conv (adj V c) (mm (feat V c) (w1 V c)) (b1 V c)) (w2p V c) (i 0) (i 1)

/-! ## Which rows a grid point's blocks are -/

theorem N50 : cfg0.N = 50 := N_0

/-- The index maps, decided over the fifty grid points: the row-blocked windows are at block (t, 0), the whole-array
    windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of point `t`'s blocks is row 200·t + p of the arrays. -/
def rowAt (t : Fin cfg0.N) (p : Fin 200) : Fin 10000 :=
  ⟨200 * t.val + p.val, by have h := N50; have := t.isLt; have := p.isLt; omega⟩

theorem adj_block (t : Fin cfg0.N) (p : Fin 200) (k : Fin 10000) :
    blockAt V c 0 t (ix2 p k) = V c main_arg1 (ix2 (rowAt t p) k) := by
  show V c main_arg1 (((cfg0.win 0).blk t).view.emb (ix2 p k)) = _
  congr 1
  funext a; apply Fin.ext
  obtain ⟨e0, e1, -⟩ := idx_facts t
  match a with
  | ⟨0, _⟩ => show win0_0.index t (0 : Fin 2) * 200 + 1 * p.val = 200 * t.val + p.val; omega
  | ⟨1, _⟩ => show win0_0.index t (1 : Fin 2) * 10000 + 1 * k.val = k.val; omega

theorem feat_block (t : Fin cfg0.N) (k : Fin 10000) (f : Fin 128) : blockAt V c 1 t (ix2 k f) = V c main_arg0 (ix2 k f) := by
  show V c main_arg0 (((cfg0.win 1).blk t).view.emb (ix2 k f)) = _
  congr 1
  funext a; apply Fin.ext
  obtain ⟨-, -, e0, e1, -⟩ := idx_facts t
  match a with
  | ⟨0, _⟩ => show win0_1.index t (0 : Fin 2) * 10000 + 1 * k.val = k.val; omega
  | ⟨1, _⟩ => show win0_1.index t (1 : Fin 2) * 128 + 1 * f.val = f.val; omega

theorem w1_block (t : Fin cfg0.N) (f : Fin 128) (j : Fin 128) : blockAt V c 2 t (ix2 f j) = V c main_arg2 (ix2 f j) := by
  show V c main_arg2 (((cfg0.win 2).blk t).view.emb (ix2 f j)) = _
  congr 1
  funext a; apply Fin.ext
  obtain ⟨-, -, -, -, e0, e1, -⟩ := idx_facts t
  match a with
  | ⟨0, _⟩ => show win0_2.index t (0 : Fin 2) * 128 + 1 * f.val = f.val; omega
  | ⟨1, _⟩ => show win0_2.index t (1 : Fin 2) * 128 + 1 * j.val = j.val; omega

theorem b1_block (t : Fin cfg0.N) (z : Fin 1) (j : Fin 128) : blockAt V c 3 t (ix2 z j) = V c main_v0 (ix2 z j) := by
  show V c main_v0 (((cfg0.win 3).blk t).view.emb (ix2 z j)) = _
  congr 1
  funext a; apply Fin.ext
  obtain ⟨-, -, -, -, -, -, e0, e1, -⟩ := idx_facts t
  match a with
  | ⟨0, _⟩ => show win0_3.index t (0 : Fin 2) * 1 + 1 * z.val = z.val; omega
  | ⟨1, _⟩ => show win0_3.index t (1 : Fin 2) * 128 + 1 * j.val = j.val; omega

theorem w2p_block (t : Fin cfg0.N) (f : Fin 128) (j : Fin 128) : blockAt V c 4 t (ix2 f j) = V c main_v8 (ix2 f j) := by
  show V c main_v8 (((cfg0.win 4).blk t).view.emb (ix2 f j)) = _
  congr 1
  funext a; apply Fin.ext
  obtain ⟨-, -, -, -, -, -, -, -, e0, e1, -⟩ := idx_facts t
  match a with
  | ⟨0, _⟩ => show win0_4.index t (0 : Fin 2) * 128 + 1 * f.val = f.val; omega
  | ⟨1, _⟩ => show win0_4.index t (1 : Fin 2) * 128 + 1 * j.val = j.val; omega

/-- The blocks as matrices. -/
theorem adj_rows (t : Fin cfg0.N) : ofArr (blockAt V c 0 t) = fun p k => adj V c (rowAt t p) k := by
  funext p k; exact adj_block V c t p k
theorem feat_whole (t : Fin cfg0.N) : ofArr (blockAt V c 1 t) = feat V c := by funext k f; exact feat_block V c t k f
theorem w1_whole (t : Fin cfg0.N) : ofArr (blockAt V c 2 t) = w1 V c := by funext f j; exact w1_block V c t f j
theorem b1_whole (t : Fin cfg0.N) : rowOf (blockAt V c 3 t) = b1 V c := by funext j; exact b1_block V c t 0 j
theorem w2p_whole (t : Fin cfg0.N) : ofArr (blockAt V c 4 t) = w2p V c := by funext f j; exact w2p_block V c t f j

/-! ## The same at the ideal values, in the arrays' terms -/

/-- The kept buffer holds X · W1. -/
theorem carried_eq : ofArr (carried V c) = mm (feat V c) (w1 V c) := by
  funext k j
  show carried V c (ix2 k j) = _
  rw [carried_pay V c, pay0_s1, feat_whole, w1_whole]

/-- An output block's entries, in the arrays' terms. -/
theorem block5_at (t : Fin cfg0.N) (p : Fin 200) (k : Fin 10000) :
    (leaves V c t).1 (ix2 p k) = G5 V c (ix2 (rowAt t p) k) := by
  rw [leaves5_eq, pay0_adj, adj_block]; rfl

theorem block6_at (t : Fin cfg0.N) (p : Fin 200) (q : Fin 128) :
    (leaves V c t).2.1 (ix2 p q) = G6 V c (ix2 (rowAt t p) q) := by
  rw [leaves6_eq, pay0_x11, adj_rows, carried_eq, b1_whole]; rfl

theorem block7_at (t : Fin cfg0.N) (p : Fin 200) (q : Fin 128) :
    (leaves V c t).2.2 (ix2 p q) = G7 V c (ix2 (rowAt t p) q) := by
  rw [leaves7_eq, pay0_s2, adj_rows, carried_eq, b1_whole, w2p_whole]; rfl

end Cert.KernelIdeal.ValueOne

end
-- ==== Proof.IdealValueOneFinal.lean ====
/-
  The first aggregation pass, from blocks to the three arrays it writes.

  At grid point t the pass writes rows 200·t … 200·t + 199 of each of its three outputs, and each block written at t
  is block t of ONE function of the arrays the pass was entered with: the adjacency itself; the first layer
  σ(A · (X · W1) + b1); and the first layer times the padded second weight. The fifty blocks tile the 10000 rows (row r
  lies in block r / 200), so each output array ends at its function.
-/
import proofs.«138753_g16518444220475_cont_week2b_302_25_alg».proof.Proof.IdealValueOne
import Idealize.ShloMosaic.Lib.Pipeline.Value

noncomputable section

namespace Cert.KernelIdeal.ValueOneFinal

open Cert.KernelIdeal Cert.KernelIdeal.Gen Cert.KernelIdeal.Payloads Cert.Spec
open Idealize.ShloMosaic Idealize.ShloMosaic.TcCoe Idealize.ShloMosaic.ValueIdx Idealize.SL.Sem
open Idealize.ShloMosaic.Pipeline (Dat)

-- the buffers' contents when the pass is entered
variable (V : (c : Dev nD) → (b : Ref sig .tc) → Buf (Elt Ideal) ((c : Thread nD τ).loc b))

/-- Two functions of a matrix index agree when they agree at every pair of coordinates. -/
theorem funext_ix2 {n0 n1 : Nat} {α : Type} {f g : (⟨2, ![n0, n1]⟩ : Shape).Idx → α}
    (h : ∀ (p : Fin n0) (q : Fin n1), f (ix2 p q) = g (ix2 p q)) : f = g :=
  funext fun y => by rw [eq_ix2 y]; exact h _ _

theorem t_lt (t : Fin cfg0.N) : t.val < 50 := lt_of_lt_of_eq t.isLt ValueOne.N50

/-! ## What each point writes back is its block of the array's function -/

/-- What point t writes back to the adjacency's copy is block t of G5. -/
theorem flushed5_eq (c : Dev nD) (t : Fin cfg0.N) :
    (PassOne.dat (F := Ideal) V c).flushed 5 t = ((cfg0.win 5).blk t).view.read (Elt Ideal) (ValueOne.G5 V c) := by
  show (cfg0.win 5).cut (grid0.coords t) ((PassOne.dat V c).after 5 t) = _
  rw [PassOne.after5]
  obtain ⟨-, -, -, -, -, -, -, -, -, -, e0, e1, -⟩ := ValueOne.idx_facts t
  refine funext_ix2 (n0 := 200) (n1 := 10000) fun p k => ?_
  have hemb : ((cfg0.win 5).blk t).view.emb (ix2 p k) = (ix2 (ValueOne.rowAt t p) k : S10000x10000.Idx) := by
    funext a; apply Fin.ext
    match a with
    | ⟨0, _⟩ => show win0_5.index t (0 : Fin 2) * 200 + 1 * p.val = 200 * t.val + p.val; omega
    | ⟨1, _⟩ => show win0_5.index t (1 : Fin 2) * 10000 + 1 * k.val = k.val; omega
  show (PassOne.leaves V c t).1 (ix2 p k) = ValueOne.G5 V c (((cfg0.win 5).blk t).view.emb (ix2 p k))
  rw [hemb]
  exact ValueOne.block5_at V c t p k

/-- What point t writes back to the first layer is block t of G6. -/
theorem flushed6_eq (c : Dev nD) (t : Fin cfg0.N) :
    (PassOne.dat (F := Ideal) V c).flushed 6 t = ((cfg0.win 6).blk t).view.read (Elt Ideal) (ValueOne.G6 V c) := by
  show (cfg0.win 6).cut (grid0.coords t) ((PassOne.dat V c).after 6 t) = _
  rw [PassOne.after6]
  obtain ⟨-, -, -, -, -, -, -, -, -, -, -, -, e0, e1, -⟩ := ValueOne.idx_facts t
  refine funext_ix2 (n0 := 200) (n1 := 128) fun p q => ?_
  have hemb : ((cfg0.win 6).blk t).view.emb (ix2 p q) = (ix2 (ValueOne.rowAt t p) q : S10000x128.Idx) := by
    funext a; apply Fin.ext
    match a with
    | ⟨0, _⟩ => show win0_6.index t (0 : Fin 2) * 200 + 1 * p.val = 200 * t.val + p.val; omega
    | ⟨1, _⟩ => show win0_6.index t (1 : Fin 2) * 128 + 1 * q.val = q.val; omega
  show (PassOne.leaves V c t).2.1 (ix2 p q) = ValueOne.G6 V c (((cfg0.win 6).blk t).view.emb (ix2 p q))
  rw [hemb]
  exact ValueOne.block6_at V c t p q

/-- What point t writes back to the second support is block t of G7. -/
theorem flushed7_eq (c : Dev nD) (t : Fin cfg0.N) :
    (PassOne.dat (F := Ideal) V c).flushed 7 t = ((cfg0.win 7).blk t).view.read (Elt Ideal) (ValueOne.G7 V c) := by
  show (cfg0.win 7).cut (grid0.coords t) ((PassOne.dat V c).after 7 t) = _
  rw [PassOne.after7]
  obtain ⟨-, -, -, -, -, -, -, -, -, -, -, -, -, -, e0, e1⟩ := ValueOne.idx_facts t
  refine funext_ix2 (n0 := 200) (n1 := 128) fun p q => ?_
  have hemb : ((cfg0.win 7).blk t).view.emb (ix2 p q) = (ix2 (ValueOne.rowAt t p) q : S10000x128.Idx) := by
    funext a; apply Fin.ext
    match a with
    | ⟨0, _⟩ => show win0_7.index t (0 : Fin 2) * 200 + 1 * p.val = 200 * t.val + p.val; omega
    | ⟨1, _⟩ => show win0_7.index t (1 : Fin 2) * 128 + 1 * q.val = q.val; omega
  show (PassOne.leaves V c t).2.2 (ix2 p q) = ValueOne.G7 V c (((cfg0.win 7).blk t).view.emb (ix2 p q))
  rw [hemb]
  exact ValueOne.block7_at V c t p q

/-! ## Which indices a point's block holds -/

/-- An index of the adjacency's copy is in point t's block iff each coordinate is in the block's range on its axis. -/
theorem mem_blk5 (t : Fin cfg0.N) (i : S10000x10000.Idx) :
    i ∈ ((cfg0.win 5).blk t).view.set ↔ ∀ a : Fin 2, win0_5.index t a * S200x10000.size a ≤ (i a).val
      ∧ (i a).val < win0_5.index t a * S200x10000.size a + S200x10000.size a := by
  show i ∈ ((View.whole main_v20_0).slice (win0_5.rect t)).set ↔ _
  rw [View.set_slice_whole, Rect.mem_set_unit]
  exact Iff.rfl

/-- The same for the first layer's array. -/
theorem mem_blk6 (t : Fin cfg0.N) (i : S10000x128.Idx) :
    i ∈ ((cfg0.win 6).blk t).view.set ↔ ∀ a : Fin 2, win0_6.index t a * S200x128.size a ≤ (i a).val
      ∧ (i a).val < win0_6.index t a * S200x128.size a + S200x128.size a := by
  show i ∈ ((View.whole main_v20_1).slice (win0_6.rect t)).set ↔ _
  rw [View.set_slice_whole, Rect.mem_set_unit]
  exact Iff.rfl

/-- The same for the second support's array. -/
theorem mem_blk7 (t : Fin cfg0.N) (i : S10000x128.Idx) :
    i ∈ ((cfg0.win 7).blk t).view.set ↔ ∀ a : Fin 2, win0_7.index t a * S200x128.size a ≤ (i a).val
      ∧ (i a).val < win0_7.index t a * S200x128.size a + S200x128.size a := by
  show i ∈ ((View.whole main_v20_2).slice (win0_7.rect t)).set ↔ _
  rw [View.set_slice_whole, Rect.mem_set_unit]
  exact Iff.rfl

/-! ## The blocks tile the rows: row r is in block r / 200 -/

theorem cover5 (i : S10000x10000.Idx) :
    ∃ t : Fin cfg0.N, (cfg0.win 5).flush t = true ∧ i ∈ ((cfg0.win 5).blk t).view.set := by
  have hi0 : (i 0).val < 10000 := (i 0).isLt
  have hi1 : (i 1).val < 10000 := (i 1).isLt
  have hN : (i 0).val / 200 < cfg0.N := by rw [ValueOne.N50]; omega
  obtain ⟨-, -, -, -, -, -, -, -, -, -, e0, e1, -⟩ := ValueOne.idx_facts ⟨(i 0).val / 200, hN⟩
  refine ⟨⟨(i 0).val / 200, hN⟩, flush0_5 _, ?_⟩
  rw [mem_blk5]
  intro a
  match a with
  | ⟨0, _⟩ =>
    show win0_5.index ⟨(i 0).val / 200, hN⟩ (0 : Fin 2) * 200 ≤ (i 0).val
      ∧ (i 0).val < win0_5.index ⟨(i 0).val / 200, hN⟩ (0 : Fin 2) * 200 + 200
    rw [e0]; show (i 0).val / 200 * 200 ≤ (i 0).val ∧ (i 0).val < (i 0).val / 200 * 200 + 200; omega
  | ⟨1, _⟩ =>
    show win0_5.index ⟨(i 0).val / 200, hN⟩ (1 : Fin 2) * 10000 ≤ (i 1).val
      ∧ (i 1).val < win0_5.index ⟨(i 0).val / 200, hN⟩ (1 : Fin 2) * 10000 + 10000
    rw [e1]; omega

theorem cover6 (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : (i 0).val / 200 < cfg0.N := by rw [ValueOne.N50]; omega
  obtain ⟨-, -, -, -, -, -, -, -, -, -, -, -, e0, e1, -⟩ := ValueOne.idx_facts ⟨(i 0).val / 200, hN⟩
  refine ⟨⟨(i 0).val / 200, hN⟩, flush0_6 _, ?_⟩
  rw [mem_blk6]
  intro a
  match a with
  | ⟨0, _⟩ =>
    show win0_6.index ⟨(i 0).val / 200, hN⟩ (0 : Fin 2) * 200 ≤ (i 0).val
      ∧ (i 0).val < win0_6.index ⟨(i 0).val / 200, hN⟩ (0 : Fin 2) * 200 + 200
    rw [e0]; show (i 0).val / 200 * 200 ≤ (i 0).val ∧ (i 0).val < (i 0).val / 200 * 200 + 200; omega
  | ⟨1, _⟩ =>
    show win0_6.index ⟨(i 0).val / 200, hN⟩ (1 : Fin 2) * 128 ≤ (i 1).val
      ∧ (i 1).val < win0_6.index ⟨(i 0).val / 200, hN⟩ (1 : Fin 2) * 128 + 128
    rw [e1]; omega

theorem cover7 (i : S10000x128.Idx) :
    ∃ t : Fin cfg0.N, (cfg0.win 7).flush t = true ∧ i ∈ ((cfg0.win 7).blk t).view.set := by
  have hi0 : (i 0).val < 10000 := (i 0).isLt
  have hi1 : (i 1).val < 128 := (i 1).isLt
  have hN : (i 0).val / 200 < cfg0.N := by rw [ValueOne.N50]; omega
  obtain ⟨-, -, -, -, -, -, -, -, -, -, -, -, -, -, e0, e1⟩ := ValueOne.idx_facts ⟨(i 0).val / 200, hN⟩
  refine ⟨⟨(i 0).val / 200, hN⟩, flush0_7 _, ?_⟩
  rw [mem_blk7]
  intro a
  match a with
  | ⟨0, _⟩ =>
    show win0_7.index ⟨(i 0).val / 200, hN⟩ (0 : Fin 2) * 200 ≤ (i 0).val
      ∧ (i 0).val < win0_7.index ⟨(i 0).val / 200, hN⟩ (0 : Fin 2) * 200 + 200
    rw [e0]; show (i 0).val / 200 * 200 ≤ (i 0).val ∧ (i 0).val < (i 0).val / 200 * 200 + 200; omega
  | ⟨1, _⟩ =>
    show win0_7.index ⟨(i 0).val / 200, hN⟩ (1 : Fin 2) * 128 ≤ (i 1).val
      ∧ (i 1).val < win0_7.index ⟨(i 0).val / 200, hN⟩ (1 : Fin 2) * 128 + 128
    rw [e1]; omega

/-! ## The three arrays after the pass -/

/-- The adjacency's copy after the pass is G5. -/
theorem final5 (c : Dev nD) : (PassOne.dat (F := Ideal) V c).arrAt 5 cfg0.N = ValueOne.G5 V c :=
  (PassOne.dat (F := Ideal) V c).arrAt_eq_of_cover 5 (ValueOne.G5 V c) (fun t _ => flushed5_eq V c t) cover5

/-- The first layer's array after the pass is G6. -/
theorem final6 (c : Dev nD) : (PassOne.dat (F := Ideal) V c).arrAt 6 cfg0.N = ValueOne.G6 V c :=
  (PassOne.dat (F := Ideal) V c).arrAt_eq_of_cover 6 (ValueOne.G6 V c) (fun t _ => flushed6_eq V c t) cover6

/-- The second support's array after the pass is G7. -/
theorem final7 (c : Dev nD) : (PassOne.dat (F := Ideal) V c).arrAt 7 cfg0.N = ValueOne.G7 V c :=
  (PassOne.dat (F := Ideal) V c).arrAt_eq_of_cover 7 (ValueOne.G7 V c) (fun t _ => flushed7_eq V c t) cover7

/-- The adjacency's copy at an entry: the adjacency's entry. -/
theorem value5 (c : Dev nD) (r k : Fin 10000) :
    (PassOne.dat (F := Ideal) V c).arrAt 5 cfg0.N (ix2 r k) = V c main_arg1 (ix2 r k) :=
  congrFun (final5 V c) (ix2 r k)

/-- The first layer's array at an entry: σ(A · (X · W1) + b1). -/
theorem value6 (c : Dev nD) (r : Fin 10000) (j : Fin 128) :
    (PassOne.dat (F := Ideal) V c).arrAt 6 cfg0.N (ix2 r j)
      = conv (ValueOne.adj V c) (mm (ValueOne.feat V c) (ValueOne.w1 V c)) (ValueOne.b1 V c) r j :=
  congrFun (final6 V c) (ix2 r j)

/-- The second support's array at an entry: the first layer times the padded second weight. -/
theorem value7 (c : Dev nD) (r : Fin 10000) (j : Fin 128) :
    (PassOne.dat (F := Ideal) V c).arrAt 7 cfg0.N (ix2 r j)
      = mm (conv (ValueOne.adj V c) (mm (ValueOne.feat V c) (ValueOne.w1 V c)) (ValueOne.b1 V c))
          (ValueOne.w2p V c) r j :=
  congrFun (final7 V c) (ix2 r j)

end Cert.KernelIdeal.ValueOneFinal

end
-- ==== Proof.ValueTwo.lean ====
/-
  The second aggregation pass, from blocks to the two arrays it writes.

  At grid point t the pass writes rows 1000·t … 1000·t + 999 of each of its two outputs. Both blocks are read off one
  product: the first layer's block and the second layer's block σ(A · S + b) side by side (256 columns), times the
  256 × 256 weights. The gate's block is the product's left half plus the gate's bias; the next support's block is the
  product's right half. The adjacency's and the first layer's blocks at t are rows 1000·t … 1000·t + 999 of their
  arrays; the support, the bias, the weights and the gate's bias are read whole. So each block written at t is block t
  of ONE function of the arrays the pass was entered with, and the ten blocks tile the 10000 rows (row r lies in block
  r / 1000): each output array ends at its function.
-/
import proofs.«138753_g16518444220475_cont_week2b_302_25_alg».proof.Proof.IdealPassTwo
import proofs.«138753_g16518444220475_cont_week2b_302_25_alg».proof.Proof.Payloads
import proofs.«138753_g16518444220475_cont_week2b_302_25_alg».proof.Proof.Spec
import Idealize.ShloMosaic.Lib.Pipeline.Value

noncomputable section

namespace Cert.KernelIdeal.ValueTwo

open Cert.KernelIdeal Cert.KernelIdeal.Gen Cert.KernelIdeal.Payloads Cert.Spec
open Idealize.ShloMosaic Idealize.ShloMosaic.TcCoe Idealize.ShloMosaic.ValueIdx Idealize.SL.Sem
open Idealize.ShloMosaic.Pipeline (Dat)
open scoped BigOperators

-- the buffers' contents when the pass is entered
variable (V : (c : Dev nD) → (b : Ref sig .tc) → Buf (Elt Ideal) ((c : Thread nD τ).loc b))

theorem hz : (![0, 0] : Fin 2 → Nat) = fun _ => 0 := funext fun a => by fin_cases a <;> rfl

/-- Two functions of a matrix index agree when they agree at every pair of coordinates. -/
theorem funext_ix2 {n0 n1 : Nat} {α : Type} {f g : (⟨2, ![n0, n1]⟩ : Shape).Idx → α}
    (h : ∀ (p : Fin n0) (q : Fin n1), f (ix2 p q) = g (ix2 p q)) : f = g :=
  funext fun y => by rw [eq_ix2 y]; exact h _ _

/-- A product's entry reads only one row of its left factor. -/
theorem mm_row {a a' k b : ℕ} {L : Mat a k} {L' : Mat a' k} (R : Mat k b) {r : Fin a} {r' : Fin a'}
    (h : ∀ f, L r f = L' r' f) (j : Fin b) : mm L R r j = mm L' R r' j := by
  unfold mm
  exact Finset.sum_congr rfl fun f _ => by rw [h f]

/-- So does a layer's entry. -/
theorem conv_row {n n' k b : ℕ} {A : Mat n k} {A' : Mat n' k} (S : Mat k b) (bias : Row b) {r : Fin n} {r' : Fin n'}
    (h : ∀ f, A r f = A' r' f) (j : Fin b) : conv A S bias r j = conv A' S bias r' j := by
  unfold conv
  rw [mm_row S h j]

/-- Two matrices side by side, at an entry, read only one row of each. -/
theorem join_row {n n' a b : ℕ} {P : Mat n a} {P' : Mat n' a} {Q : Mat n b} {Q' : Mat n' b} {r : Fin n} {r' : Fin n'}
    (hP : ∀ f, P r f = P' r' f) (hQ : ∀ f, Q r f = Q' r' f) (f : Fin (a + b)) : join P Q r f = join P' Q' r' f := by
  unfold join
  split
  · exact hP _
  · exact hQ _

/-- The body's product at an entry, from what its five input blocks are: the adjacency block's row p is row P of a
    matrix A, the first layer's block's row p is row P of X, the support, the bias and the weights are S, b, W. -/
theorem pointR (x0 : Vec Ideal S1000x10000 .bf16) (x1 : Vec Ideal S10000x128 .bf16) (x2 : Vec Ideal S1x128 .f32)
    (x3 : Vec Ideal S1000x128 .f32) (x4 : Vec Ideal S256x256 .bf16) (A : Mat 10000 10000) (S : Mat 10000 128)
    (b : Row 128) (X : Mat 10000 128) (W : Mat 256 256) (p : Fin 1000) (P : Fin 10000) (q : Fin 256)
    (h0 : ∀ k, x0 (ix2 p k) = A P k) (h1 : ∀ k j, x1 (ix2 k j) = S k j) (h2 : ∀ j, x2 (ix2 (0 : Fin 1) j) = b j)
    (h3 : ∀ j, x3 (ix2 p j) = X P j) (h4 : ∀ f j, x4 (ix2 f j) = W f j) :
    k1_pay1 (F := Ideal) x0 x1 x2 x3 x4 (ix2 p q) = mm (join X (conv A S b)) W P q := by
  rw [pay1_r]
  have e1 : ofArr x1 = S := funext fun k => funext fun j => h1 k j
  have e2 : rowOf x2 = b := funext h2
  have e4 : ofArr x4 = W := funext fun f => funext fun j => h4 f j
  rw [e1, e2, e4]
  exact mm_row W (fun f => join_row (P := ofArr x3) (P' := X) (r := p) (r' := P) h3
    (fun g => conv_row (A := ofArr x0) (A' := A) (r := p) (r' := P) S b h0 g) f) q

/-- The gate's stored value at an entry: the product's left half plus the gate's bias. -/
theorem point6 (x0 : Vec Ideal S1000x10000 .bf16) (x1 : Vec Ideal S10000x128 .bf16) (x2 : Vec Ideal S1x128 .f32)
    (x3 : Vec Ideal S1000x128 .f32) (x4 : Vec Ideal S256x256 .bf16) (x5 : Vec Ideal S1x128 .f32)
    (A : Mat 10000 10000) (S : Mat 10000 128) (b : Row 128) (X : Mat 10000 128) (W : Mat 256 256) (bl : Row 128)
    (p : Fin 1000) (P : Fin 10000) (q : Fin 128)
    (h0 : ∀ k, x0 (ix2 p k) = A P k) (h1 : ∀ k j, x1 (ix2 k j) = S k j) (h2 : ∀ j, x2 (ix2 (0 : Fin 1) j) = b j)
    (h3 : ∀ j, x3 (ix2 p j) = X P j) (h4 : ∀ f j, x4 (ix2 f j) = W f j) (h5 : ∀ j, x5 (ix2 (0 : Fin 1) j) = bl j) :
    k1_pay2 (F := Ideal) x0 x1 x2 x3 x4 x5 (ix2 p q)
      = mm (join X (conv A S b)) W P ⟨q.val, by have := q.isLt; omega⟩ + bl q := by
  have e5 : rowOf x5 = bl := funext h5
  rw [pay1_l1, pointR x0 x1 x2 x3 x4 A S b X W p P _ h0 h1 h2 h3 h4, e5]

/-- The next support's stored value at an entry: the product's right half. -/
theorem point7 (x0 : Vec Ideal S1000x10000 .bf16) (x1 : Vec Ideal S10000x128 .bf16) (x2 : Vec Ideal S1x128 .f32)
    (x3 : Vec Ideal S1000x128 .f32) (x4 : Vec Ideal S256x256 .bf16)
    (A : Mat 10000 10000) (S : Mat 10000 128) (b : Row 128) (X : Mat 10000 128) (W : Mat 256 256)
    (p : Fin 1000) (P : Fin 10000) (q : Fin 128)
    (h0 : ∀ k, x0 (ix2 p k) = A P k) (h1 : ∀ k j, x1 (ix2 k j) = S k j) (h2 : ∀ j, x2 (ix2 (0 : Fin 1) j) = b j)
    (h3 : ∀ j, x3 (ix2 p j) = X P j) (h4 : ∀ f j, x4 (ix2 f j) = W f j) :
    k1_pay3 (F := Ideal) x0 x1 x2 x3 x4 (ix2 p q)
      = mm (join X (conv A S b)) W P ⟨128 + q.val, by have := q.isLt; omega⟩ := by
  rw [pay1_s3]
  exact pointR x0 x1 x2 x3 x4 A S b X W p P _ h0 h1 h2 h3 h4

/-- The windows' index maps over the grid: the adjacency's, the first layer's and the two outputs' block index is the
    grid point along the rows; the support, the bias, the weights and the gate's bias stay at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 10 := lt_of_lt_of_eq t.isLt N_1

/-- The adjacency's block at point t: rows 1000·t … of the adjacency. -/
theorem block0 (c : Dev nD) (t : Fin cfg1.N) (p : Fin 1000) (k : Fin 10000) :
    PassTwo.blockAt V c 0 t (ix2 p k)
      = ofArr (V c (Pipeline.arrRef spec1 0)) ⟨1000 * t.val + p.val, by have := t_lt t; have := p.isLt; omega⟩ k := by
  obtain ⟨e0, e1, -⟩ := idx_facts t
  show V c (Pipeline.arrRef spec1 0) (((cfg1.win 0).blk t).view.emb (ix2 p k)) = V c (Pipeline.arrRef spec1 0) (ix2 _ k)
  refine congrArg _ (funext fun a => Fin.ext ?_)
  match a with
  | ⟨0, _⟩ => show win1_0.index t (0 : Fin 2) * 1000 + 1 * p.val = 1000 * t.val + p.val; omega
  | ⟨1, _⟩ => show win1_0.index t (1 : Fin 2) * 10000 + 1 * k.val = k.val; omega

/-- The support's block is the support. -/
theorem block1 (c : Dev nD) (t : Fin cfg1.N) (k : Fin 10000) (j : Fin 128) :
    PassTwo.blockAt V c 1 t (ix2 k j) = ofArr (V c (Pipeline.arrRef spec1 1)) k j := by
  obtain ⟨-, -, e0, e1, -⟩ := idx_facts t
  show V c (Pipeline.arrRef spec1 1) (((cfg1.win 1).blk t).view.emb (ix2 k j)) = V c (Pipeline.arrRef spec1 1) (ix2 k j)
  refine congrArg _ (funext fun a => Fin.ext ?_)
  match a with
  | ⟨0, _⟩ => show win1_1.index t (0 : Fin 2) * 10000 + 1 * k.val = k.val; omega
  | ⟨1, _⟩ => show win1_1.index t (1 : Fin 2) * 128 + 1 * j.val = j.val; omega

/-- The bias's block is the bias. -/
theorem block2 (c : Dev nD) (t : Fin cfg1.N) (j : Fin 128) :
    PassTwo.blockAt V c 2 t (ix2 (0 : Fin 1) j) = rowOf (V c (Pipeline.arrRef spec1 2)) j := by
  obtain ⟨-, -, -, -, e0, e1, -⟩ := idx_facts t
  show V c (Pipeline.arrRef spec1 2) (((cfg1.win 2).blk t).view.emb (ix2 (0 : Fin 1) j))
    = V c (Pipeline.arrRef spec1 2) (ix2 (0 : Fin 1) j)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * j.val = j.val; omega

/-- The first layer's block at point t: rows 1000·t … of the first layer. -/
theorem block3 (c : Dev nD) (t : Fin cfg1.N) (p : Fin 1000) (q : Fin 128) :
    PassTwo.blockAt V c 3 t (ix2 p q)
      = ofArr (V c (Pipeline.arrRef spec1 3)) ⟨1000 * t.val + p.val, by have := t_lt t; have := p.isLt; omega⟩ q := by
  obtain ⟨-, -, -, -, -, -, e0, e1, -⟩ := idx_facts t
  show V c (Pipeline.arrRef spec1 3) (((cfg1.win 3).blk t).view.emb (ix2 p q)) = V c (Pipeline.arrRef spec1 3) (ix2 _ q)
  refine congrArg _ (funext fun a => Fin.ext ?_)
  match a with
  | ⟨0, _⟩ => show win1_3.index t (0 : Fin 2) * 1000 + 1 * p.val = 1000 * t.val + p.val; omega
  | ⟨1, _⟩ => show win1_3.index t (1 : Fin 2) * 128 + 1 * q.val = q.val; omega

/-- The weights' block is the weights. -/
theorem block4 (c : Dev nD) (t : Fin cfg1.N) (f : Fin 256) (j : Fin 256) :
    PassTwo.blockAt V c 4 t (ix2 f j) = ofArr (V c (Pipeline.arrRef spec1 4)) f j := by
  obtain ⟨-, -, -, -, -, -, -, -, e0, e1, -⟩ := idx_facts t
  show V c (Pipeline.arrRef spec1 4) (((cfg1.win 4).blk t).view.emb (ix2 f j)) = V c (Pipeline.arrRef spec1 4) (ix2 f j)
  refine congrArg _ (funext fun a => Fin.ext ?_)
  match a with
  | ⟨0, _⟩ => show win1_4.index t (0 : Fin 2) * 256 + 1 * f.val = f.val; omega
  | ⟨1, _⟩ => show win1_4.index t (1 : Fin 2) * 256 + 1 * j.val = j.val; omega

/-- The gate's bias's block is the gate's bias. -/
theorem block5 (c : Dev nD) (t : Fin cfg1.N) (j : Fin 128) :
    PassTwo.blockAt V c 5 t (ix2 (0 : Fin 1) j) = rowOf (V c (Pipeline.arrRef spec1 5)) j := by
  obtain ⟨-, -, -, -, -, -, -, -, -, -, e0, e1, -⟩ := idx_facts t
  show V c (Pipeline.arrRef spec1 5) (((cfg1.win 5).blk t).view.emb (ix2 (0 : Fin 1) j))
    = V c (Pipeline.arrRef spec1 5) (ix2 (0 : Fin 1) j)
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * j.val = j.val; omega

/-- The product both outputs are read off: the first layer and the second layer σ(A · S + b) side by side, times the
    256 × 256 weights, of the arrays the pass was entered with. -/
abbrev R (c : Dev nD) : Mat 10000 256 :=
  mm (join (ofArr (V c (Pipeline.arrRef spec1 3)))
      (conv (ofArr (V c (Pipeline.arrRef spec1 0))) (ofArr (V c (Pipeline.arrRef spec1 1)))
        (rowOf (V c (Pipeline.arrRef spec1 2))))) (ofArr (V c (Pipeline.arrRef spec1 4)))

/-- The gate array after the pass, as one function of the arrays the pass was entered with. -/
def G6 (c : Dev nD) : S10000x128.Idx → EReal := fun i =>
  R V c (i 0) ⟨(i 1).val, by have := idx2_lt1 i; omega⟩ + rowOf (V c (Pipeline.arrRef spec1 5)) (i 1)

/-- The next support array after the pass, as one function of the arrays the pass was entered with. -/
def G7 (c : Dev nD) : S10000x128.Idx → EReal := fun i =>
  R V c (i 0) ⟨128 + (i 1).val, by have := idx2_lt1 i; omega⟩

/-- What point t writes back to the gate is block t of G6. -/
theorem flushed6_eq (c : Dev nD) (t : Fin cfg1.N) :
    (PassTwo.dat (F := Ideal) V c).flushed 6 t = ((cfg1.win 6).blk t).view.read (Elt Ideal) (G6 V c) := by
  show (cfg1.win 6).cut (grid1.coords t) ((PassTwo.dat V c).after 6 t) = _
  rw [PassTwo.after6]
  unfold PassTwo.leaves6
  rw [View.canon_unit_zero hz]
  simp only [View.ld_unit_zero (S := S1000x10000) hz, View.ld_unit_zero (S := S10000x128) hz,
    View.ld_unit_zero (S := S1x128) hz, View.ld_unit_zero (S := S1000x128) hz, View.ld_unit_zero (S := S256x256) hz]
  obtain ⟨-, -, -, -, -, -, -, -, -, -, -, -, e0, e1, -⟩ := idx_facts t
  refine funext_ix2 (n0 := 1000) (n1 := 128) fun p q => ?_
  have hP : 1000 * t.val + p.val < 10000 := by have := t_lt t; have := p.isLt; omega
  have hemb : ((cfg1.win 6).blk t).view.emb (ix2 p q) = (ix2 (⟨1000 * t.val + p.val, hP⟩ : Fin 10000) q : S10000x128.Idx) := by
    funext a; apply Fin.ext
    match a with
    | ⟨0, _⟩ => show win1_6.index t (0 : Fin 2) * 1000 + 1 * p.val = 1000 * t.val + p.val; omega
    | ⟨1, _⟩ => show win1_6.index t (1 : Fin 2) * 128 + 1 * q.val = q.val; omega
  show k1_pay2 (F := Ideal) (PassTwo.blockAt V c 0 t) (PassTwo.blockAt V c 1 t) (PassTwo.blockAt V c 2 t)
      (PassTwo.blockAt V c 3 t) (PassTwo.blockAt V c 4 t) (PassTwo.blockAt V c 5 t) (ix2 p q)
    = G6 V c (((cfg1.win 6).blk t).view.emb (ix2 p q))
  rw [hemb]
  exact point6 (PassTwo.blockAt V c 0 t) (PassTwo.blockAt V c 1 t) (PassTwo.blockAt V c 2 t)
    (PassTwo.blockAt V c 3 t) (PassTwo.blockAt V c 4 t) (PassTwo.blockAt V c 5 t)
    (ofArr (V c (Pipeline.arrRef spec1 0))) (ofArr (V c (Pipeline.arrRef spec1 1)))
    (rowOf (V c (Pipeline.arrRef spec1 2))) (ofArr (V c (Pipeline.arrRef spec1 3)))
    (ofArr (V c (Pipeline.arrRef spec1 4))) (rowOf (V c (Pipeline.arrRef spec1 5))) p ⟨1000 * t.val + p.val, hP⟩ q
    (fun k => block0 V c t p k) (fun k j => block1 V c t k j) (fun j => block2 V c t j) (fun j => block3 V c t p j)
    (fun f j => block4 V c t f j) (fun j => block5 V c t j)

/-- What point t writes back to the next support is block t of G7. -/
theorem flushed7_eq (c : Dev nD) (t : Fin cfg1.N) :
    (PassTwo.dat (F := Ideal) V c).flushed 7 t = ((cfg1.win 7).blk t).view.read (Elt Ideal) (G7 V c) := by
  show (cfg1.win 7).cut (grid1.coords t) ((PassTwo.dat V c).after 7 t) = _
  rw [PassTwo.after7]
  unfold PassTwo.leaves7
  rw [View.canon_unit_zero hz]
  simp only [View.ld_unit_zero (S := S1000x10000) hz, View.ld_unit_zero (S := S10000x128) hz,
    View.ld_unit_zero (S := S1x128) hz, View.ld_unit_zero (S := S1000x128) hz, View.ld_unit_zero (S := S256x256) hz]
  obtain ⟨-, -, -, -, -, -, -, -, -, -, -, -, -, -, e0, e1⟩ := idx_facts t
  refine funext_ix2 (n0 := 1000) (n1 := 128) fun p q => ?_
  have hP : 1000 * t.val + p.val < 10000 := by have := t_lt t; have := p.isLt; omega
  have hemb : ((cfg1.win 7).blk t).view.emb (ix2 p q) = (ix2 (⟨1000 * t.val + p.val, hP⟩ : Fin 10000) q : S10000x128.Idx) := by
    funext a; apply Fin.ext
    match a with
    | ⟨0, _⟩ => show win1_7.index t (0 : Fin 2) * 1000 + 1 * p.val = 1000 * t.val + p.val; omega
    | ⟨1, _⟩ => show win1_7.index t (1 : Fin 2) * 128 + 1 * q.val = q.val; omega
  show k1_pay3 (F := Ideal) (PassTwo.blockAt V c 0 t) (PassTwo.blockAt V c 1 t) (PassTwo.blockAt V c 2 t)
      (PassTwo.blockAt V c 3 t) (PassTwo.blockAt V c 4 t) (ix2 p q)
    = G7 V c (((cfg1.win 7).blk t).view.emb (ix2 p q))
  rw [hemb]
  exact point7 (PassTwo.blockAt V c 0 t) (PassTwo.blockAt V c 1 t) (PassTwo.blockAt V c 2 t)
    (PassTwo.blockAt V c 3 t) (PassTwo.blockAt V c 4 t)
    (ofArr (V c (Pipeline.arrRef spec1 0))) (ofArr (V c (Pipeline.arrRef spec1 1)))
    (rowOf (V c (Pipeline.arrRef spec1 2))) (ofArr (V c (Pipeline.arrRef spec1 3)))
    (ofArr (V c (Pipeline.arrRef spec1 4))) p ⟨1000 * t.val + p.val, hP⟩ q
    (fun k => block0 V c t p k) (fun k j => block1 V c t k j) (fun j => block2 V c t j) (fun j => block3 V c t p j)
    (fun f j => block4 V c t f j)

/-- An index of the gate array is in point t's block iff each coordinate is in the block's range on its axis. -/
theorem mem_blk6 (t : Fin cfg1.N) (i : S10000x128.Idx) :
    i ∈ ((cfg1.win 6).blk t).view.set ↔ ∀ a : Fin 2, win1_6.index t a * S1000x128.size a ≤ (i a).val
      ∧ (i a).val < win1_6.index t a * S1000x128.size a + S1000x128.size a := by
  show i ∈ ((View.whole main_v21_0).slice (win1_6.rect t)).set ↔ _
  rw [View.set_slice_whole, Rect.mem_set_unit]
  exact Iff.rfl

/-- The same for the next support array. -/
theorem mem_blk7 (t : Fin cfg1.N) (i : S10000x128.Idx) :
    i ∈ ((cfg1.win 7).blk t).view.set ↔ ∀ a : Fin 2, win1_7.index t a * S1000x128.size a ≤ (i a).val
      ∧ (i a).val < win1_7.index t a * S1000x128.size a + S1000x128.size a := by
  show i ∈ ((View.whole main_v21_1).slice (win1_7.rect t)).set ↔ _
  rw [View.set_slice_whole, Rect.mem_set_unit]
  exact Iff.rfl

/-- Every index of the gate array is in some point's block: row r is in block r / 1000. -/
theorem cover6 (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  have hN : (i 0).val / 1000 < cfg1.N := by rw [show cfg1.N = 10 from N_1]; omega
  obtain ⟨-, -, -, -, -, -, -, -, -, -, -, -, e0, e1, -⟩ := idx_facts ⟨(i 0).val / 1000, hN⟩
  refine ⟨⟨(i 0).val / 1000, hN⟩, flush1_6 _, ?_⟩
  rw [mem_blk6]
  intro a
  match a with
  | ⟨0, _⟩ =>
    show win1_6.index ⟨(i 0).val / 1000, hN⟩ (0 : Fin 2) * 1000 ≤ (i 0).val
      ∧ (i 0).val < win1_6.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win1_6.index ⟨(i 0).val / 1000, hN⟩ (1 : Fin 2) * 128 ≤ (i 1).val
      ∧ (i 1).val < win1_6.index ⟨(i 0).val / 1000, hN⟩ (1 : Fin 2) * 128 + 128
    rw [e1]; omega

/-- The same for the next support array. -/
theorem cover7 (i : S10000x128.Idx) :
    ∃ t : Fin cfg1.N, (cfg1.win 7).flush t = true ∧ i ∈ ((cfg1.win 7).blk t).view.set := by
  have hi0 : (i 0).val < 10000 := (i 0).isLt
  have hi1 : (i 1).val < 128 := (i 1).isLt
  have hN : (i 0).val / 1000 < cfg1.N := by rw [show cfg1.N = 10 from N_1]; omega
  obtain ⟨-, -, -, -, -, -, -, -, -, -, -, -, -, -, e0, e1⟩ := idx_facts ⟨(i 0).val / 1000, hN⟩
  refine ⟨⟨(i 0).val / 1000, hN⟩, flush1_7 _, ?_⟩
  rw [mem_blk7]
  intro a
  match a with
  | ⟨0, _⟩ =>
    show win1_7.index ⟨(i 0).val / 1000, hN⟩ (0 : Fin 2) * 1000 ≤ (i 0).val
      ∧ (i 0).val < win1_7.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win1_7.index ⟨(i 0).val / 1000, hN⟩ (1 : Fin 2) * 128 ≤ (i 1).val
      ∧ (i 1).val < win1_7.index ⟨(i 0).val / 1000, hN⟩ (1 : Fin 2) * 128 + 128
    rw [e1]; omega

/-- The gate array after the pass is G6. -/
theorem final6 (c : Dev nD) : (PassTwo.dat (F := Ideal) V c).arrAt 6 cfg1.N = G6 V c :=
  (PassTwo.dat (F := Ideal) V c).arrAt_eq_of_cover 6 (G6 V c) (fun t _ => flushed6_eq V c t) cover6

/-- The next support array after the pass is G7. -/
theorem final7 (c : Dev nD) : (PassTwo.dat (F := Ideal) V c).arrAt 7 cfg1.N = G7 V c :=
  (PassTwo.dat (F := Ideal) V c).arrAt_eq_of_cover 7 (G7 V c) (fun t _ => flushed7_eq V c t) cover7

/-- The gate array after the pass, at an entry: the product's left half plus the gate's bias. -/
theorem value6 (c : Dev nD) (r : Fin 10000) (j : Fin 128) :
    (PassTwo.dat (F := Ideal) V c).arrAt 6 cfg1.N (ix2 r j)
      = R V c r ⟨j.val, by have := j.isLt; omega⟩ + rowOf (V c (Pipeline.arrRef spec1 5)) j :=
  congrFun (final6 V c) (ix2 r j)

/-- The next support array after the pass, at an entry: the product's right half. -/
theorem value7 (c : Dev nD) (r : Fin 10000) (j : Fin 128) :
    (PassTwo.dat (F := Ideal) V c).arrAt 7 cfg1.N (ix2 r j) = R V c r ⟨128 + j.val, by have := j.isLt; omega⟩ :=
  congrFun (final7 V c) (ix2 r j)

end Cert.KernelIdeal.ValueTwo

end
-- ==== Proof.ValueThree.lean ====
/-
  The third aggregation pass, from blocks to the array.

  At grid point t the pass writes rows 1000·t … 1000·t + 999 of its output. The block it writes is the body's stored
  value of the four input blocks at t; the adjacency's block at t is rows 1000·t … 1000·t + 999 of the adjacency, and
  the support, the bias and the weight are read whole. So the block written at t is block t of ONE function of the
  arrays the pass was entered with: entry (r, j) is the logistic layer σ(A · S + b) at row r, times the weight, at
  column j. The ten blocks tile the 10000 rows (row r lies in block r / 1000), so the output array ends at that function.
-/
import proofs.«138753_g16518444220475_cont_week2b_302_25_alg».proof.Proof.IdealPassThree
import proofs.«138753_g16518444220475_cont_week2b_302_25_alg».proof.Proof.Payloads
import proofs.«138753_g16518444220475_cont_week2b_302_25_alg».proof.Proof.Spec
import Idealize.ShloMosaic.Lib.Pipeline.Value

noncomputable section

namespace Cert.KernelIdeal.ValueThree

open Cert.KernelIdeal Cert.KernelIdeal.Gen Cert.KernelIdeal.Payloads Cert.Spec
open Idealize.ShloMosaic Idealize.ShloMosaic.TcCoe Idealize.ShloMosaic.ValueIdx Idealize.SL.Sem
open Idealize.ShloMosaic.Pipeline (Dat)
open scoped BigOperators

-- the buffers' contents when the pass is entered
variable (V : (c : Dev nD) → (b : Ref sig .tc) → Buf (Elt Ideal) ((c : Thread nD τ).loc b))

theorem hz : (![0, 0] : Fin 2 → Nat) = fun _ => 0 := funext fun a => by fin_cases a <;> rfl

/-- Two functions of a matrix index agree when they agree at every pair of coordinates. -/
theorem funext_ix2 {n0 n1 : Nat} {α : Type} {f g : (⟨2, ![n0, n1]⟩ : Shape).Idx → α}
    (h : ∀ (p : Fin n0) (q : Fin n1), f (ix2 p q) = g (ix2 p q)) : f = g :=
  funext fun y => by rw [eq_ix2 y]; exact h _ _

/-- A product's entry reads only one row of its left factor. -/
theorem mm_row {a a' k b : ℕ} {L : Mat a k} {L' : Mat a' k} (R : Mat k b) {r : Fin a} {r' : Fin a'}
    (h : ∀ f, L r f = L' r' f) (j : Fin b) : mm L R r j = mm L' R r' j := by
  unfold mm
  exact Finset.sum_congr rfl fun f _ => by rw [h f]

/-- So does a layer's entry. -/
theorem conv_row {n n' k b : ℕ} {A : Mat n k} {A' : Mat n' k} (S : Mat k b) (bias : Row b) {r : Fin n} {r' : Fin n'}
    (h : ∀ f, A r f = A' r' f) (j : Fin b) : conv A S bias r j = conv A' S bias r' j := by
  unfold conv
  rw [mm_row S h j]

/-- The body's stored value at an entry, from what its four input blocks are: the adjacency block's row p is row P of
    a matrix A, the other three blocks are the matrices S, b, W. -/
theorem point (x0 : Vec Ideal S1000x10000 .bf16) (x1 : Vec Ideal S10000x128 .bf16) (x2 : Vec Ideal S1x128 .f32)
    (x3 : Vec Ideal S128x128 .bf16) (A : Mat 10000 10000) (S : Mat 10000 128) (b : Row 128) (W : Mat 128 128)
    (p : Fin 1000) (P : Fin 10000) (q : Fin 128)
    (h0 : ∀ k, x0 (ix2 p k) = A P k) (h1 : ∀ k j, x1 (ix2 k j) = S k j) (h2 : ∀ j, x2 (ix2 (0 : Fin 1) j) = b j)
    (h3 : ∀ f j, x3 (ix2 f j) = W f j) :
    k2_pay1 (F := Ideal) x0 x1 x2 x3 (ix2 p q) = mm (conv A S b) W P q := by
  rw [pay2_s4]
  have e1 : ofArr x1 = S := funext fun k => funext fun j => h1 k j
  have e2 : rowOf x2 = b := funext h2
  have e3 : ofArr x3 = W := funext fun f => funext fun j => h3 f j
  rw [e1, e2, e3]
  exact mm_row W (fun f => conv_row S b h0 f) q

/-- The windows' index maps over the grid: the adjacency's and the output's block index is the grid point along the
    rows; the support, the bias and the weight stay at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem t_lt (t : Fin cfg2.N) : t.val < 10 := lt_of_lt_of_eq t.isLt N_2

/-- The adjacency's block at point t: rows 1000·t … of the adjacency. -/
theorem block0 (c : Dev nD) (t : Fin cfg2.N) (p : Fin 1000) (k : Fin 10000) :
    PassThree.blockAt V c 0 t (ix2 p k)
      = ofArr (V c (Pipeline.arrRef spec2 0)) ⟨1000 * t.val + p.val, by have := t_lt t; have := p.isLt; omega⟩ k := by
  obtain ⟨e0, e1, -⟩ := idx_facts t
  show V c (Pipeline.arrRef spec2 0) (((cfg2.win 0).blk t).view.emb (ix2 p k)) = V c (Pipeline.arrRef spec2 0) (ix2 _ k)
  refine congrArg _ (funext fun a => Fin.ext ?_)
  match a with
  | ⟨0, _⟩ => show win2_0.index t (0 : Fin 2) * 1000 + 1 * p.val = 1000 * t.val + p.val; omega
  | ⟨1, _⟩ => show win2_0.index t (1 : Fin 2) * 10000 + 1 * k.val = k.val; omega

/-- The support's block is the support. -/
theorem block1 (c : Dev nD) (t : Fin cfg2.N) (k : Fin 10000) (j : Fin 128) :
    PassThree.blockAt V c 1 t (ix2 k j) = ofArr (V c (Pipeline.arrRef spec2 1)) k j := by
  obtain ⟨-, -, e0, e1, -⟩ := idx_facts t
  show V c (Pipeline.arrRef spec2 1) (((cfg2.win 1).blk t).view.emb (ix2 k j)) = V c (Pipeline.arrRef spec2 1) (ix2 k j)
  refine congrArg _ (funext fun a => Fin.ext ?_)
  match a with
  | ⟨0, _⟩ => show win2_1.index t (0 : Fin 2) * 10000 + 1 * k.val = k.val; omega
  | ⟨1, _⟩ => show win2_1.index t (1 : Fin 2) * 128 + 1 * j.val = j.val; omega

/-- The bias's block is the bias. -/
theorem block2 (c : Dev nD) (t : Fin cfg2.N) (j : Fin 128) :
    PassThree.blockAt V c 2 t (ix2 (0 : Fin 1) j) = rowOf (V c (Pipeline.arrRef spec2 2)) j := by
  obtain ⟨-, -, -, -, e0, e1, -⟩ := idx_facts t
  show V c (Pipeline.arrRef spec2 2) (((cfg2.win 2).blk t).view.emb (ix2 (0 : Fin 1) j))
    = V c (Pipeline.arrRef spec2 2) (ix2 (0 : Fin 1) j)
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * j.val = j.val; omega

/-- The weight's block is the weight. -/
theorem block3 (c : Dev nD) (t : Fin cfg2.N) (f : Fin 128) (j : Fin 128) :
    PassThree.blockAt V c 3 t (ix2 f j) = ofArr (V c (Pipeline.arrRef spec2 3)) f j := by
  obtain ⟨-, -, -, -, -, -, e0, e1, -⟩ := idx_facts t
  show V c (Pipeline.arrRef spec2 3) (((cfg2.win 3).blk t).view.emb (ix2 f j)) = V c (Pipeline.arrRef spec2 3) (ix2 f j)
  refine congrArg _ (funext fun a => Fin.ext ?_)
  match a with
  | ⟨0, _⟩ => show win2_3.index t (0 : Fin 2) * 128 + 1 * f.val = f.val; omega
  | ⟨1, _⟩ => show win2_3.index t (1 : Fin 2) * 128 + 1 * j.val = j.val; omega

/-- The output array after the pass, as one function of the arrays the pass was entered with. -/
def G (c : Dev nD) : S10000x128.Idx → EReal := fun i =>
  mm (conv (ofArr (V c (Pipeline.arrRef spec2 0))) (ofArr (V c (Pipeline.arrRef spec2 1)))
      (rowOf (V c (Pipeline.arrRef spec2 2)))) (ofArr (V c (Pipeline.arrRef spec2 3))) (i 0) (i 1)

/-- What point t writes back is block t of G. -/
theorem flushed4_eq (c : Dev nD) (t : Fin cfg2.N) :
    (PassThree.dat (F := Ideal) V c).flushed 4 t = ((cfg2.win 4).blk t).view.read (Elt Ideal) (G V c) := by
  show (cfg2.win 4).cut (grid2.coords t) ((PassThree.dat V c).after 4 t) = _
  rw [PassThree.after4]
  unfold PassThree.leaves
  rw [View.canon_unit_zero hz]
  simp only [View.ld_unit_zero (S := S1000x10000) hz, View.ld_unit_zero (S := S10000x128) hz,
    View.ld_unit_zero (S := S1x128) hz, View.ld_unit_zero (S := S128x128) hz]
  obtain ⟨-, -, -, -, -, -, -, -, e0, e1⟩ := idx_facts t
  refine funext_ix2 (n0 := 1000) (n1 := 128) fun p q => ?_
  have hP : 1000 * t.val + p.val < 10000 := by have := t_lt t; have := p.isLt; omega
  have hemb : ((cfg2.win 4).blk t).view.emb (ix2 p q) = (ix2 (⟨1000 * t.val + p.val, hP⟩ : Fin 10000) q : S10000x128.Idx) := by
    funext a; apply Fin.ext
    match a with
    | ⟨0, _⟩ => show win2_4.index t (0 : Fin 2) * 1000 + 1 * p.val = 1000 * t.val + p.val; omega
    | ⟨1, _⟩ => show win2_4.index t (1 : Fin 2) * 128 + 1 * q.val = q.val; omega
  show k2_pay1 (F := Ideal) (PassThree.blockAt V c 0 t) (PassThree.blockAt V c 1 t) (PassThree.blockAt V c 2 t)
      (PassThree.blockAt V c 3 t) (ix2 p q) = G V c (((cfg2.win 4).blk t).view.emb (ix2 p q))
  rw [hemb]
  exact point (PassThree.blockAt V c 0 t) (PassThree.blockAt V c 1 t) (PassThree.blockAt V c 2 t)
    (PassThree.blockAt V c 3 t) (ofArr (V c (Pipeline.arrRef spec2 0))) (ofArr (V c (Pipeline.arrRef spec2 1)))
    (rowOf (V c (Pipeline.arrRef spec2 2))) (ofArr (V c (Pipeline.arrRef spec2 3))) p ⟨1000 * t.val + p.val, hP⟩ q
    (fun k => block0 V c t p k) (fun k j => block1 V c t k j) (fun j => block2 V c t j) (fun f j => block3 V c t f j)

/-- An index of the output array is in point t's block iff each coordinate is in the block's range on its axis. -/
theorem mem_blk4 (t : Fin cfg2.N) (i : S10000x128.Idx) :
    i ∈ ((cfg2.win 4).blk t).view.set ↔ ∀ a : Fin 2, win2_4.index t a * S1000x128.size a ≤ (i a).val
      ∧ (i a).val < win2_4.index t a * S1000x128.size a + S1000x128.size a := by
  show i ∈ ((View.whole main_v22).slice (win2_4.rect t)).set ↔ _
  rw [View.set_slice_whole, Rect.mem_set_unit]
  exact Iff.rfl

/-- Every index of the output array is in some point's block: row r is in block r / 1000. -/
theorem cover4 (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  have hN : (i 0).val / 1000 < cfg2.N := by rw [show cfg2.N = 10 from N_2]; omega
  obtain ⟨-, -, -, -, -, -, -, -, e0, e1⟩ := idx_facts ⟨(i 0).val / 1000, hN⟩
  refine ⟨⟨(i 0).val / 1000, hN⟩, flush2_4 _, ?_⟩
  rw [mem_blk4]
  intro a
  match a with
  | ⟨0, _⟩ =>
    show win2_4.index ⟨(i 0).val / 1000, hN⟩ (0 : Fin 2) * 1000 ≤ (i 0).val
      ∧ (i 0).val < win2_4.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win2_4.index ⟨(i 0).val / 1000, hN⟩ (1 : Fin 2) * 128 ≤ (i 1).val
      ∧ (i 1).val < win2_4.index ⟨(i 0).val / 1000, hN⟩ (1 : Fin 2) * 128 + 128
    rw [e1]; omega

/-- The output array after the pass is G. -/
theorem final4 (c : Dev nD) : (PassThree.dat (F := Ideal) V c).arrAt 4 cfg2.N = G V c :=
  (PassThree.dat (F := Ideal) V c).arrAt_eq_of_cover 4 (G V c) (fun t _ => flushed4_eq V c t) cover4

/-- The output array after the pass, at an entry: the layer σ(A · S + b) of the arrays the pass was entered with,
    times the weight. -/
theorem value4 (c : Dev nD) (r : Fin 10000) (j : Fin 128) :
    (PassThree.dat (F := Ideal) V c).arrAt 4 cfg2.N (ix2 r j)
      = mm (conv (ofArr (V c (Pipeline.arrRef spec2 0))) (ofArr (V c (Pipeline.arrRef spec2 1)))
          (rowOf (V c (Pipeline.arrRef spec2 2)))) (ofArr (V c (Pipeline.arrRef spec2 3))) r j :=
  congrFun (final4 V c) (ix2 r j)

end Cert.KernelIdeal.ValueThree

end
-- ==== Proof.ValueFour.lean ====
/-
  The fourth aggregation pass, from blocks to the array.

  At grid point t the pass writes rows 1000·t … 1000·t + 999 of its output. The block it writes is the body's stored
  value of the five input blocks at t; the adjacency's, the first layer's and the gate's blocks at t are rows
  1000·t … 1000·t + 999 of their arrays, and the support and the bias are read whole. So the block written at t is
  block t of ONE function of the arrays the pass was entered with: entry (r, j) is the logistic function of the first
  layer's entry plus the layer σ(A · S + b) at (r, j) times the gate's entry. The ten blocks tile the 10000 rows (row r
  lies in block r / 1000), so the output array ends at that function.
-/
import proofs.«138753_g16518444220475_cont_week2b_302_25_alg».proof.Proof.IdealPassFour
import proofs.«138753_g16518444220475_cont_week2b_302_25_alg».proof.Proof.Payloads
import proofs.«138753_g16518444220475_cont_week2b_302_25_alg».proof.Proof.Spec
import Idealize.ShloMosaic.Lib.Pipeline.Value

noncomputable section

namespace Cert.KernelIdeal.ValueFour

open Cert.KernelIdeal Cert.KernelIdeal.Gen Cert.KernelIdeal.Payloads Cert.Spec
open Idealize.ShloMosaic Idealize.ShloMosaic.TcCoe Idealize.ShloMosaic.ValueIdx Idealize.SL.Sem
open Idealize.ShloMosaic.Pipeline (Dat)
open scoped BigOperators

-- the buffers' contents when the pass is entered
variable (V : (c : Dev nD) → (b : Ref sig .tc) → Buf (Elt Ideal) ((c : Thread nD τ).loc b))

theorem hz : (![0, 0] : Fin 2 → Nat) = fun _ => 0 := funext fun a => by fin_cases a <;> rfl

/-- Two functions of a matrix index agree when they agree at every pair of coordinates. -/
theorem funext_ix2 {n0 n1 : Nat} {α : Type} {f g : (⟨2, ![n0, n1]⟩ : Shape).Idx → α}
    (h : ∀ (p : Fin n0) (q : Fin n1), f (ix2 p q) = g (ix2 p q)) : f = g :=
  funext fun y => by rw [eq_ix2 y]; exact h _ _

/-- A product's entry reads only one row of its left factor. -/
theorem mm_row {a a' k b : ℕ} {L : Mat a k} {L' : Mat a' k} (R : Mat k b) {r : Fin a} {r' : Fin a'}
    (h : ∀ f, L r f = L' r' f) (j : Fin b) : mm L R r j = mm L' R r' j := by
  unfold mm
  exact Finset.sum_congr rfl fun f _ => by rw [h f]

/-- So does a layer's entry. -/
theorem conv_row {n n' k b : ℕ} {A : Mat n k} {A' : Mat n' k} (S : Mat k b) (bias : Row b) {r : Fin n} {r' : Fin n'}
    (h : ∀ f, A r f = A' r' f) (j : Fin b) : conv A S bias r j = conv A' S bias r' j := by
  unfold conv
  rw [mm_row S h j]

/-- The body's stored value at an entry, from what its five input blocks are: the adjacency block's row p is row P of
    a matrix A, the support and the bias are S and b, the first layer's and the gate's blocks at (p, q) are X and L at
    (P, q). -/
theorem point (x0 : Vec Ideal S1000x10000 .bf16) (x1 : Vec Ideal S10000x128 .bf16) (x2 : Vec Ideal S1x128 .f32)
    (x3 x4 : Vec Ideal S1000x128 .f32) (A : Mat 10000 10000) (S : Mat 10000 128) (b : Row 128) (X L : Mat 10000 128)
    (p : Fin 1000) (P : Fin 10000) (q : Fin 128)
    (h0 : ∀ k, x0 (ix2 p k) = A P k) (h1 : ∀ k j, x1 (ix2 k j) = S k j) (h2 : ∀ j, x2 (ix2 (0 : Fin 1) j) = b j)
    (h3 : x3 (ix2 p q) = X P q) (h4 : x4 (ix2 p q) = L P q) :
    k3_pay1 (F := Ideal) x0 x1 x2 x3 x4 (ix2 p q) = Ideal.logistic (X P q + conv A S b P q * L P q) := by
  rw [pay3_out, h3, h4]
  have e1 : ofArr x1 = S := funext fun k => funext fun j => h1 k j
  have e2 : rowOf x2 = b := funext h2
  rw [e1, e2, conv_row (A := ofArr x0) (A' := A) (r := p) (r' := P) S b h0 q]

/-- The windows' index maps over the grid: the adjacency's, the first layer's, the gate's and the output's block index
    is the grid point along the rows; the support and the bias stay at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem t_lt (t : Fin cfg3.N) : t.val < 10 := lt_of_lt_of_eq t.isLt N_3

/-- The adjacency's block at point t: rows 1000·t … of the adjacency. -/
theorem block0 (c : Dev nD) (t : Fin cfg3.N) (p : Fin 1000) (k : Fin 10000) :
    PassFour.blockAt V c 0 t (ix2 p k)
      = ofArr (V c (Pipeline.arrRef spec3 0)) ⟨1000 * t.val + p.val, by have := t_lt t; have := p.isLt; omega⟩ k := by
  obtain ⟨e0, e1, -⟩ := idx_facts t
  show V c (Pipeline.arrRef spec3 0) (((cfg3.win 0).blk t).view.emb (ix2 p k)) = V c (Pipeline.arrRef spec3 0) (ix2 _ k)
  refine congrArg _ (funext fun a => Fin.ext ?_)
  match a with
  | ⟨0, _⟩ => show win3_0.index t (0 : Fin 2) * 1000 + 1 * p.val = 1000 * t.val + p.val; omega
  | ⟨1, _⟩ => show win3_0.index t (1 : Fin 2) * 10000 + 1 * k.val = k.val; omega

/-- The support's block is the support. -/
theorem block1 (c : Dev nD) (t : Fin cfg3.N) (k : Fin 10000) (j : Fin 128) :
    PassFour.blockAt V c 1 t (ix2 k j) = ofArr (V c (Pipeline.arrRef spec3 1)) k j := by
  obtain ⟨-, -, e0, e1, -⟩ := idx_facts t
  show V c (Pipeline.arrRef spec3 1) (((cfg3.win 1).blk t).view.emb (ix2 k j)) = V c (Pipeline.arrRef spec3 1) (ix2 k j)
  refine congrArg _ (funext fun a => Fin.ext ?_)
  match a with
  | ⟨0, _⟩ => show win3_1.index t (0 : Fin 2) * 10000 + 1 * k.val = k.val; omega
  | ⟨1, _⟩ => show win3_1.index t (1 : Fin 2) * 128 + 1 * j.val = j.val; omega

/-- The bias's block is the bias. -/
theorem block2 (c : Dev nD) (t : Fin cfg3.N) (j : Fin 128) :
    PassFour.blockAt V c 2 t (ix2 (0 : Fin 1) j) = rowOf (V c (Pipeline.arrRef spec3 2)) j := by
  obtain ⟨-, -, -, -, e0, e1, -⟩ := idx_facts t
  show V c (Pipeline.arrRef spec3 2) (((cfg3.win 2).blk t).view.emb (ix2 (0 : Fin 1) j))
    = V c (Pipeline.arrRef spec3 2) (ix2 (0 : Fin 1) j)
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * j.val = j.val; omega

/-- The first layer's block at point t: rows 1000·t … of the first layer. -/
theorem block3 (c : Dev nD) (t : Fin cfg3.N) (p : Fin 1000) (q : Fin 128) :
    PassFour.blockAt V c 3 t (ix2 p q)
      = ofArr (V c (Pipeline.arrRef spec3 3)) ⟨1000 * t.val + p.val, by have := t_lt t; have := p.isLt; omega⟩ q := by
  obtain ⟨-, -, -, -, -, -, e0, e1, -⟩ := idx_facts t
  show V c (Pipeline.arrRef spec3 3) (((cfg3.win 3).blk t).view.emb (ix2 p q)) = V c (Pipeline.arrRef spec3 3) (ix2 _ q)
  refine congrArg _ (funext fun a => Fin.ext ?_)
  match a with
  | ⟨0, _⟩ => show win3_3.index t (0 : Fin 2) * 1000 + 1 * p.val = 1000 * t.val + p.val; omega
  | ⟨1, _⟩ => show win3_3.index t (1 : Fin 2) * 128 + 1 * q.val = q.val; omega

/-- The gate's block at point t: rows 1000·t … of the gate. -/
theorem block4 (c : Dev nD) (t : Fin cfg3.N) (p : Fin 1000) (q : Fin 128) :
    PassFour.blockAt V c 4 t (ix2 p q)
      = ofArr (V c (Pipeline.arrRef spec3 4)) ⟨1000 * t.val + p.val, by have := t_lt t; have := p.isLt; omega⟩ q := by
  obtain ⟨-, -, -, -, -, -, -, -, e0, e1, -⟩ := idx_facts t
  show V c (Pipeline.arrRef spec3 4) (((cfg3.win 4).blk t).view.emb (ix2 p q)) = V c (Pipeline.arrRef spec3 4) (ix2 _ q)
  refine congrArg _ (funext fun a => Fin.ext ?_)
  match a with
  | ⟨0, _⟩ => show win3_4.index t (0 : Fin 2) * 1000 + 1 * p.val = 1000 * t.val + p.val; omega
  | ⟨1, _⟩ => show win3_4.index t (1 : Fin 2) * 128 + 1 * q.val = q.val; omega

/-- The output array after the pass, as one function of the arrays the pass was entered with. -/
def G (c : Dev nD) : S10000x128.Idx → EReal := fun i =>
  Ideal.logistic (ofArr (V c (Pipeline.arrRef spec3 3)) (i 0) (i 1)
    + conv (ofArr (V c (Pipeline.arrRef spec3 0))) (ofArr (V c (Pipeline.arrRef spec3 1)))
        (rowOf (V c (Pipeline.arrRef spec3 2))) (i 0) (i 1) * ofArr (V c (Pipeline.arrRef spec3 4)) (i 0) (i 1))

/-- What point t writes back is block t of G. -/
theorem flushed5_eq (c : Dev nD) (t : Fin cfg3.N) :
    (PassFour.dat (F := Ideal) V c).flushed 5 t = ((cfg3.win 5).blk t).view.read (Elt Ideal) (G V c) := by
  show (cfg3.win 5).cut (grid3.coords t) ((PassFour.dat V c).after 5 t) = _
  rw [PassFour.after5]
  unfold PassFour.leaves5
  rw [View.canon_unit_zero hz]
  simp only [View.ld_unit_zero (S := S1000x10000) hz, View.ld_unit_zero (S := S10000x128) hz,
    View.ld_unit_zero (S := S1x128) hz, View.ld_unit_zero (S := S1000x128) hz]
  obtain ⟨-, -, -, -, -, -, -, -, -, -, e0, e1⟩ := idx_facts t
  refine funext_ix2 (n0 := 1000) (n1 := 128) fun p q => ?_
  have hP : 1000 * t.val + p.val < 10000 := by have := t_lt t; have := p.isLt; omega
  have hemb : ((cfg3.win 5).blk t).view.emb (ix2 p q) = (ix2 (⟨1000 * t.val + p.val, hP⟩ : Fin 10000) q : S10000x128.Idx) := by
    funext a; apply Fin.ext
    match a with
    | ⟨0, _⟩ => show win3_5.index t (0 : Fin 2) * 1000 + 1 * p.val = 1000 * t.val + p.val; omega
    | ⟨1, _⟩ => show win3_5.index t (1 : Fin 2) * 128 + 1 * q.val = q.val; omega
  show k3_pay1 (F := Ideal) (PassFour.blockAt V c 0 t) (PassFour.blockAt V c 1 t) (PassFour.blockAt V c 2 t)
      (PassFour.blockAt V c 3 t) (PassFour.blockAt V c 4 t) (ix2 p q) = G V c (((cfg3.win 5).blk t).view.emb (ix2 p q))
  rw [hemb]
  exact point (PassFour.blockAt V c 0 t) (PassFour.blockAt V c 1 t) (PassFour.blockAt V c 2 t)
    (PassFour.blockAt V c 3 t) (PassFour.blockAt V c 4 t) (ofArr (V c (Pipeline.arrRef spec3 0)))
    (ofArr (V c (Pipeline.arrRef spec3 1))) (rowOf (V c (Pipeline.arrRef spec3 2)))
    (ofArr (V c (Pipeline.arrRef spec3 3))) (ofArr (V c (Pipeline.arrRef spec3 4))) p ⟨1000 * t.val + p.val, hP⟩ q
    (fun k => block0 V c t p k) (fun k j => block1 V c t k j) (fun j => block2 V c t j) (block3 V c t p q)
    (block4 V c t p q)

/-- An index of the output array is in point t's block iff each coordinate is in the block's range on its axis. -/
theorem mem_blk5 (t : Fin cfg3.N) (i : S10000x128.Idx) :
    i ∈ ((cfg3.win 5).blk t).view.set ↔ ∀ a : Fin 2, win3_5.index t a * S1000x128.size a ≤ (i a).val
      ∧ (i a).val < win3_5.index t a * S1000x128.size a + S1000x128.size a := by
  show i ∈ ((View.whole main_v23).slice (win3_5.rect t)).set ↔ _
  rw [View.set_slice_whole, Rect.mem_set_unit]
  exact Iff.rfl

/-- Every index of the output array is in some point's block: row r is in block r / 1000. -/
theorem cover5 (i : S10000x128.Idx) :
    ∃ t : Fin cfg3.N, (cfg3.win 5).flush t = true ∧ i ∈ ((cfg3.win 5).blk t).view.set := by
  have hi0 : (i 0).val < 10000 := (i 0).isLt
  have hi1 : (i 1).val < 128 := (i 1).isLt
  have hN : (i 0).val / 1000 < cfg3.N := by rw [show cfg3.N = 10 from N_3]; omega
  obtain ⟨-, -, -, -, -, -, -, -, -, -, e0, e1⟩ := idx_facts ⟨(i 0).val / 1000, hN⟩
  refine ⟨⟨(i 0).val / 1000, hN⟩, flush3_5 _, ?_⟩
  rw [mem_blk5]
  intro a
  match a with
  | ⟨0, _⟩ =>
    show win3_5.index ⟨(i 0).val / 1000, hN⟩ (0 : Fin 2) * 1000 ≤ (i 0).val
      ∧ (i 0).val < win3_5.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win3_5.index ⟨(i 0).val / 1000, hN⟩ (1 : Fin 2) * 128 ≤ (i 1).val
      ∧ (i 1).val < win3_5.index ⟨(i 0).val / 1000, hN⟩ (1 : Fin 2) * 128 + 128
    rw [e1]; omega

/-- The output array after the pass is G. -/
theorem final5 (c : Dev nD) : (PassFour.dat (F := Ideal) V c).arrAt 5 cfg3.N = G V c :=
  (PassFour.dat (F := Ideal) V c).arrAt_eq_of_cover 5 (G V c) (fun t _ => flushed5_eq V c t) cover5

/-- The output array after the pass, at an entry: the logistic function of the first layer's entry plus the layer
    σ(A · S + b) of the arrays the pass was entered with times the gate's entry. -/
theorem value5 (c : Dev nD) (r : Fin 10000) (j : Fin 128) :
    (PassFour.dat (F := Ideal) V c).arrAt 5 cfg3.N (ix2 r j)
      = Ideal.logistic (ofArr (V c (Pipeline.arrRef spec3 3)) r j
          + conv (ofArr (V c (Pipeline.arrRef spec3 0))) (ofArr (V c (Pipeline.arrRef spec3 1)))
              (rowOf (V c (Pipeline.arrRef spec3 2))) r j * ofArr (V c (Pipeline.arrRef spec3 4)) r j) :=
  congrFun (final5 V c) (ix2 r j)

end Cert.KernelIdeal.ValueFour

end
-- ==== Proof.IdealPrelude.lean ====
/-
  What the host operations that run before the first kernel launch leave in the padded weights and bias rows, at the
  ideal values, as functions of the twelve arguments.

  A bias becomes a one-row matrix. A 64-wide weight or bias is padded with the value 0 (the integer 0 converted to a
  float) up to 128 columns or rows. The gate's weight and the third layer's weight are cut at row 128, the pieces padded
  to 128 × 128 and set in the four quarters of one 256 × 256 matrix. Narrowing to sixteen bits changes no ideal value.
-/
import proofs.«138753_g16518444220475_cont_week2b_302_25_alg».proof.Proof.Gen.KernelIdeal.Regions
import proofs.«138753_g16518444220475_cont_week2b_302_25_alg».proof.Proof.Spec
import Idealize.ShloMosaic.Lib.KernelVsHost
import Idealize.ShloMosaic.Lib.StableHlo.Run
import Idealize.ShloMosaic.Lib.Pipeline.Value

noncomputable section

namespace Cert.KernelIdeal.Prelude

open Cert.KernelIdeal Cert.KernelIdeal.Gen Cert.Spec Idealize.ShloMosaic Idealize.ShloMosaic.TcCoe Idealize.ShloMosaic.ValueIdx
open Idealize.ShloMosaic.StableHlo (after_cons after_nil)

variable (m : (ℓ : Loc nD τ sig) → Buf (Elt Ideal) ℓ) (c : Dev nD)

/-- The one row of a 1 × 128 matrix. -/
def rowOf1 (v : Vec Ideal S1x128 .f32) : Row 128 := fun j => v (ix2 (0 : Fin 1) j)

section Pure
variable {α : Type}

/-- The padding value: the integer 0 converted to a float is 0. -/
theorem padv_apply (i : S_.Idx) : (sitofp (F := Ideal) .f32 (constantI S_ 32 0#32)) i = 0 := by
  show (((0#32 : BitVec 32).toInt : ℝ) : EReal) = 0
  simp

/-- Equal coordinates give the same entry. -/
theorem ix2_congr {n0 n1 : ℕ} (x : (⟨2, ![n0, n1]⟩ : Shape).Idx → α) {a a' b b' : ℕ} (ha : a < n0) (hb : b < n1)
    (ha' : a' < n0) (hb' : b' < n1) (ea : a = a') (eb : b = b') :
    x (ix2 ⟨a, ha⟩ ⟨b, hb⟩) = x (ix2 ⟨a', ha'⟩ ⟨b', hb'⟩) := by
  subst ea eb; rfl

/-- A matrix padded at the high end of both axes: the entry inside the operand, the padding value outside. -/
theorem pad2_apply {R C R' C' : ℕ} (hi : Fin 2 → ℕ) (x : (⟨2, ![R, C]⟩ : Shape).Idx → α) {u : Shape} (v : u.Idx → α)
    (h : (⟨2, ![R, C]⟩ : Shape).Pads ![0, 0] hi ![0, 0] ⟨2, ![R', C']⟩) (hu : 0 < u.numel) (r : Fin R') (j : Fin C') :
    pad ⟨2, ![R', C']⟩ ![0, 0] hi ![0, 0] x v h hu (ix2 r j)
      = if hr : r.val < R ∧ j.val < C then x (ix2 ⟨r.val, hr.1⟩ ⟨j.val, hr.2⟩) else v (Shape.Idx.first hu) := by
  by_cases hr : r.val < R ∧ j.val < C
  · rw [dif_pos hr]
    exact pad_apply_of_inside _ _ _ x v h hu _ (ix2 ⟨r.val, hr.1⟩ ⟨j.val, hr.2⟩)
      (fun a => match a with
        | ⟨0, _⟩ => by show r.val = 0 + r.val * (0 + 1); omega
        | ⟨1, _⟩ => by show j.val = 0 + j.val * (0 + 1); omega)
  · rw [dif_neg hr]
    by_cases h0 : r.val < R
    · have h1 : ¬ j.val < C := fun h1 => hr ⟨h0, h1⟩
      exact pad_apply_of_not_inside _ _ _ x v h hu _ (1 : Fin 2) (by
        show ¬(0 ≤ j.val ∧ (j.val - 0) % (0 + 1) = 0 ∧ (j.val - 0) / (0 + 1) < C)
        rw [Nat.sub_zero, Nat.zero_add, Nat.div_one]
        exact fun h2 => h1 h2.2.2)
    · exact pad_apply_of_not_inside _ _ _ x v h hu _ (0 : Fin 2) (by
        show ¬(0 ≤ r.val ∧ (r.val - 0) % (0 + 1) = 0 ∧ (r.val - 0) / (0 + 1) < R)
        rw [Nat.sub_zero, Nat.zero_add, Nat.div_one]
        exact fun h2 => h0 h2.2.2)

/-- A unit-stride slice of a matrix: the entry at the offsets further on. -/
theorem slice2_apply {R C R' C' : ℕ} (off : Fin 2 → ℕ) (x : (⟨2, ![R, C]⟩ : Shape).Idx → α)
    (h : (⟨2, ![R, C]⟩ : Shape).Slices off ⟨2, ![R', C']⟩) (r : Fin R') (j : Fin C') (hr : off 0 + r.val < R)
    (hj : off 1 + j.val < C) :
    extractStridedSlice ⟨2, ![R', C']⟩ off x h (ix2 r j) = x (ix2 ⟨off 0 + r.val, hr⟩ ⟨off 1 + j.val, hj⟩) :=
  extractStridedSlice_apply off x h _ _ (fun a => match a with | ⟨0, _⟩ => rfl | ⟨1, _⟩ => rfl)

/-- Two 128 × 128 matrices side by side. -/
theorem cat1_apply (a b : S128x128.Idx → α) (r : Fin 128) (j : Fin 256) :
    concatenate S128x256 1 [⟨S128x128, a⟩, ⟨S128x128, b⟩] concatenates_S128x128_S128x128_S128x256_d1 (ix2 r j)
      = if hj : j.val < 128 then a (ix2 r ⟨j.val, hj⟩) else b (ix2 r ⟨j.val - 128, by have := j.isLt; omega⟩) := by
  by_cases hj : j.val < 128
  · rw [dif_pos hj]
    exact concatenate_pair_apply_left (t := S128x256) (s₁ := S128x128) (s₂ := S128x128) (1 : Fin 2) _ _ _ (ix2 r j) rfl
      (ix2 r (⟨j.val, hj⟩ : Fin 128)) (fun b => match b with | ⟨0, _⟩ => rfl | ⟨1, _⟩ => rfl)
  · rw [dif_neg hj]
    have hj' : j.val - 128 < 128 := by have := j.isLt; omega
    exact concatenate_pair_apply_right (t := S128x256) (s₁ := S128x128) (s₂ := S128x128) (1 : Fin 2) _ _ _ (ix2 r j) rfl rfl
      (ix2 r (⟨j.val - 128, hj'⟩ : Fin 128))
      (fun b => match b with | ⟨0, _⟩ => fun _ => rfl | ⟨1, _⟩ => fun h => absurd rfl h)
      (by show j.val - 128 + 128 = j.val; omega)

/-- Two 128 × 256 matrices one above the other. -/
theorem cat0_apply (a b : S128x256.Idx → α) (r : Fin 256) (j : Fin 256) :
    concatenate S256x256 0 [⟨S128x256, a⟩, ⟨S128x256, b⟩] concatenates_S128x256_S128x256_S256x256_d0 (ix2 r j)
      = if hr : r.val < 128 then a (ix2 ⟨r.val, hr⟩ j) else b (ix2 ⟨r.val - 128, by have := r.isLt; omega⟩ j) := by
  by_cases hr : r.val < 128
  · rw [dif_pos hr]
    exact concatenate_pair_apply_left (t := S256x256) (s₁ := S128x256) (s₂ := S128x256) (0 : Fin 2) _ _ _ (ix2 r j) rfl
      (ix2 (⟨r.val, hr⟩ : Fin 128) j) (fun b => match b with | ⟨0, _⟩ => rfl | ⟨1, _⟩ => rfl)
  · rw [dif_neg hr]
    have hr' : r.val - 128 < 128 := by have := r.isLt; omega
    exact concatenate_pair_apply_right (t := S256x256) (s₁ := S128x256) (s₂ := S128x256) (0 : Fin 2) _ _ _ (ix2 r j) rfl rfl
      (ix2 (⟨r.val - 128, hr'⟩ : Fin 128) j)
      (fun b => match b with | ⟨0, _⟩ => fun h => absurd rfl h | ⟨1, _⟩ => fun _ => rfl)
      (by show r.val - 128 + 128 = r.val; omega)

/-- A row turned into a one-row matrix. -/
theorem reshape_row {n : ℕ} (x : (⟨1, ![n]⟩ : Shape).Idx → α) (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Fin 1).val * n + j.val
  simp

end Pure

section Read

/-- The padded second weight at an entry: the weight on the first 64 columns, 0 on the others. -/
theorem w2p_read (W2 : Vec Ideal S128x64 .f32) (f j : Fin 128) :
    (truncf .bf16 (pad S128x128 ![0, 0] ![0, 64] ![0, 0] W2 (sitofp (F := Ideal) .f32 (constantI S_ 32 0#32)) pads_S128x64_S128x128_000_0640 h_S_) bitsLt_bf16_f32 : Vec Ideal S128x128 .bf16) (ix2 f j)
      = if h : j.val < 64 then W2 (ix2 f ⟨j.val, h⟩) else 0 := by
  rw [truncf_apply, pad2_apply]
  by_cases h : j.val < 64
  · rw [dif_pos ⟨f.isLt, h⟩, dif_pos h]
  · rw [dif_neg (fun hh => h hh.2), dif_neg h, padv_apply]

/-- The padded fourth weight at an entry: the weight on the first 64 rows, 0 on the others. -/
theorem w4p_read (W4 : Vec Ideal S64x128 .f32) (f j : Fin 128) :
    (truncf .bf16 (pad S128x128 ![0, 0] ![64, 0] ![0, 0] W4 (sitofp (F := Ideal) .f32 (constantI S_ 32 0#32)) pads_S64x128_S128x128_0640_000 h_S_) bitsLt_bf16_f32 : Vec Ideal S128x128 .bf16) (ix2 f j)
      = if h : f.val < 64 then W4 (ix2 ⟨f.val, h⟩ j) else 0 := by
  rw [truncf_apply, pad2_apply]
  by_cases h : f.val < 64
  · rw [dif_pos ⟨h, j.isLt⟩, dif_pos h]
  · rw [dif_neg (fun hh => h hh.1), dif_neg h, padv_apply]

/-- A padded 64-wide bias row at an entry: the bias on the first 64 columns, 0 on the others. -/
theorem brow_read (b : Vec Ideal S64 .f32) (j : Fin 128) :
    (pad S1x128 ![0, 0] ![0, 64] ![0, 0] (shapeCast S1x64 b shapeCasts_S64_S1x64) (sitofp (F := Ideal) .f32 (constantI S_ 32 0#32)) pads_S1x64_S1x128_000_0640 h_S_ : Vec Ideal S1x128 .f32) (ix2 (0 : Fin 1) j)
      = if h : j.val < 64 then b (ix1 ⟨j.val, h⟩) else 0 := by
  rw [pad2_apply]
  by_cases h : j.val < 64
  · rw [dif_pos ⟨Nat.one_pos, h⟩, dif_pos h]
    exact reshape_row b _ ⟨j.val, h⟩
  · rw [dif_neg (fun hh => h hh.2), dif_neg h, padv_apply]

/-- The 256 × 256 block matrix at an entry: the gate's weight on rows below 192 and columns below 128, the third layer's
    weight on rows below 192 and columns 128 … 191, 0 elsewhere. -/
theorem wc_read (Wl : Vec Ideal S192x128 .f32) (W3 : Vec Ideal S192x64 .f32) (f j : Fin 256) :
    (truncf .bf16 (concatenate S256x256 0 [⟨S128x256, (concatenate S128x256 1 [⟨S128x128, (extractStridedSlice S128x128 ![0, 0] Wl slices_S192x128_S128x128_0_0)⟩, ⟨S128x128, (pad S128x128 ![0, 0] ![0, 64] ![0, 0] (extractStridedSlice S128x64 ![0, 0] W3 slices_S192x64_S128x64_0_0) (sitofp (F := Ideal) .f32 (constantI S_ 32 0#32)) pads_S128x64_S128x128_000_0640 h_S_)⟩] concatenates_S128x128_S128x128_S128x256_d1)⟩, ⟨S128x256, (concatenate S128x256 1 [⟨S128x128, (pad S128x128 ![0, 0] ![64, 0] ![0, 0] (extractStridedSlice S64x128 ![128, 0] Wl slices_S192x128_S64x128_128_0) (sitofp (F := Ideal) .f32 (constantI S_ 32 0#32)) pads_S64x128_S128x128_0640_000 h_S_)⟩, ⟨S128x128, (pad S128x128 ![0, 0] ![64, 64] ![0, 0] (extractStridedSlice S64x64 ![128, 0] W3 slices_S192x64_S64x64_128_0) (sitofp (F := Ideal) .f32 (constantI S_ 32 0#32)) pads_S64x64_S128x128_0640_0640 h_S_)⟩] concatenates_S128x128_S128x128_S128x256_d1)⟩] concatenates_S128x256_S128x256_S256x256_d0) bitsLt_bf16_f32 : Vec Ideal S256x256 .bf16) (ix2 f j)
      = if hf : f.val < 192 then
          (if hj : j.val < 128 then Wl (ix2 ⟨f.val, hf⟩ ⟨j.val, hj⟩)
           else if hj' : j.val - 128 < 64 then W3 (ix2 ⟨f.val, hf⟩ ⟨j.val - 128, hj'⟩) else 0)
        else 0 := by
  have hfl := f.isLt
  have hjl := j.isLt
  rw [truncf_apply, cat0_apply]
  by_cases hf : f.val < 128
  · rw [dif_pos hf, cat1_apply, dif_pos (show f.val < 192 by omega)]
    by_cases hj : j.val < 128
    · rw [dif_pos hj, dif_pos hj,
        slice2_apply _ _ _ _ _ (by show 0 + f.val < 192; omega) (by show 0 + j.val < 128; omega)]
      exact ix2_congr _ _ _ _ _ (by show 0 + f.val = f.val; omega) (by show 0 + j.val = j.val; omega)
    · rw [dif_neg hj, dif_neg hj, pad2_apply]
      by_cases hj' : j.val - 128 < 64
      · rw [dif_pos ⟨hf, hj'⟩, dif_pos hj',
          slice2_apply _ _ _ _ _ (by show 0 + f.val < 192; omega) (by show 0 + (j.val - 128) < 64; omega)]
        exact ix2_congr _ _ _ _ _ (by show 0 + f.val = f.val; omega) (by show 0 + (j.val - 128) = j.val - 128; omega)
      · rw [dif_neg (fun hh => hj' hh.2), dif_neg hj', padv_apply]
  · rw [dif_neg hf, cat1_apply]
    by_cases hj : j.val < 128
    · rw [dif_pos hj, pad2_apply]
      by_cases hf' : f.val < 192
      · rw [dif_pos ⟨(by omega : f.val - 128 < 64), hj⟩, dif_pos hf', dif_pos hj,
          slice2_apply _ _ _ _ _ (by show 128 + (f.val - 128) < 192; omega) (by show 0 + j.val < 128; omega)]
        exact ix2_congr _ _ _ _ _ (by show 128 + (f.val - 128) = f.val; omega) (by show 0 + j.val = j.val; omega)
      · rw [dif_neg (fun hh => hf' (by have h1 : f.val - 128 < 64 := hh.1; omega)), dif_neg hf', padv_apply]
    · rw [dif_neg hj, pad2_apply]
      by_cases hf' : f.val < 192
      · rw [dif_pos hf', dif_neg hj]
        by_cases hj' : j.val - 128 < 64
        · rw [dif_pos ⟨(by omega : f.val - 128 < 64), hj'⟩, dif_pos hj',
            slice2_apply _ _ _ _ _ (by show 128 + (f.val - 128) < 192; omega) (by show 0 + (j.val - 128) < 64; omega)]
          exact ix2_congr _ _ _ _ _ (by show 128 + (f.val - 128) = f.val; omega)
            (by show 0 + (j.val - 128) = j.val - 128; omega)
        · rw [dif_neg (fun hh => hj' hh.2), dif_neg hj', padv_apply]
      · rw [dif_neg (fun hh => hf' (by have h1 : f.val - 128 < 64 := hh.1; omega)), dif_neg hf', padv_apply]

end Read

theorem v0_term : (V16 m c main_v0 : Vec Ideal S1x128 .f32)
    = shapeCast S1x128 (m ((c : Thread nD τ).loc main_arg3) : Vec Ideal S128 .f32) shapeCasts_S128_S1x128 := by
  rw [V16_of m c main_v0 (by decide), V15_of m c main_v0 (by decide), V14_of m c main_v0 (by decide), V13_of m c main_v0 (by decide), V12_of m c main_v0 (by decide), V11_of m c main_v0 (by decide), V10_of m c main_v0 (by decide), V9_of m c main_v0 (by decide), V8_of m c main_v0 (by decide), V7_of m c main_v0 (by decide), V6_of m c main_v0 (by decide), V5_of m c main_v0 (by decide), V4_of m c main_v0 (by decide), V3_of m c main_v0 (by decide), V2_of m c main_v0 (by decide)]
  dsimp only [V1, V0, hostOps0]
  after_results
  rfl

theorem v2_term : (V16 m c main_v2 : Vec Ideal S1x128 .f32)
    = pad S1x128 ![0, 0] ![0, 64] ![0, 0] (shapeCast S1x64 ((m ((c : Thread nD τ).loc main_arg5)) : Vec Ideal S64 .f32) shapeCasts_S64_S1x64) (sitofp (F := Ideal) .f32 (constantI S_ 32 0#32)) pads_S1x64_S1x128_000_0640 h_S_ := by
  rw [V16_of m c main_v2 (by decide), V15_of m c main_v2 (by decide), V14_of m c main_v2 (by decide), V13_of m c main_v2 (by decide), V12_of m c main_v2 (by decide), V11_of m c main_v2 (by decide), V10_of m c main_v2 (by decide), V9_of m c main_v2 (by decide), V8_of m c main_v2 (by decide), V7_of m c main_v2 (by decide), V6_of m c main_v2 (by decide), V5_of m c main_v2 (by decide), V4_of m c main_v2 (by decide), V3_of m c main_v2 (by decide)]
  dsimp only [V2, V1, V0, hostOps0_1, hostOps0]
  after_results
  rfl

theorem v4_term : (V16 m c main_v4 : Vec Ideal S1x128 .f32)
    = pad S1x128 ![0, 0] ![0, 64] ![0, 0] (shapeCast S1x64 ((m ((c : Thread nD τ).loc main_arg7)) : Vec Ideal S64 .f32) shapeCasts_S64_S1x64) (sitofp (F := Ideal) .f32 (constantI S_ 32 0#32)) pads_S1x64_S1x128_000_0640 h_S_ := by
  rw [V16_of m c main_v4 (by decide), V15_of m c main_v4 (by decide), V14_of m c main_v4 (by decide), V13_of m c main_v4 (by decide), V12_of m c main_v4 (by decide), V11_of m c main_v4 (by decide), V10_of m c main_v4 (by decide), V9_of m c main_v4 (by decide), V8_of m c main_v4 (by decide), V7_of m c main_v4 (by decide), V6_of m c main_v4 (by decide), V5_of m c main_v4 (by decide)]
  dsimp only [V4, V3, V2, V1, V0, hostOps0_3, hostOps0_2, hostOps0_1, hostOps0]
  after_results
  rfl

theorem v5_term : (V16 m c main_v5 : Vec Ideal S1x128 .f32)
    = shapeCast S1x128 ((m ((c : Thread nD τ).loc main_arg9)) : Vec Ideal S128 .f32) shapeCasts_S128_S1x128 := by
  rw [V16_of m c main_v5 (by decide), V15_of m c main_v5 (by decide), V14_of m c main_v5 (by decide), V13_of m c main_v5 (by decide), V12_of m c main_v5 (by decide), V11_of m c main_v5 (by decide), V10_of m c main_v5 (by decide), V9_of m c main_v5 (by decide), V8_of m c main_v5 (by decide), V7_of m c main_v5 (by decide), V6_of m c main_v5 (by decide)]
  dsimp only [V5, V4, V3, V2, V1, V0, hostOps0_4, hostOps0_3, hostOps0_2, hostOps0_1, hostOps0]
  after_results
  rfl

theorem v6_term : (V16 m c main_v6 : Vec Ideal S1x128 .f32)
    = shapeCast S1x128 ((m ((c : Thread nD τ).loc main_arg11)) : Vec Ideal S128 .f32) shapeCasts_S128_S1x128 := by
  rw [V16_of m c main_v6 (by decide), V15_of m c main_v6 (by decide), V14_of m c main_v6 (by decide), V13_of m c main_v6 (by decide), V12_of m c main_v6 (by decide), V11_of m c main_v6 (by decide), V10_of m c main_v6 (by decide), V9_of m c main_v6 (by decide), V8_of m c main_v6 (by decide), V7_of m c main_v6 (by decide), V6_of m c main_v6 (by decide)]
  dsimp only [V5, V4, V3, V2, V1, V0, hostOps0_4, hostOps0_3, hostOps0_2, hostOps0_1, hostOps0]
  after_results
  rfl

theorem v8_term : (V16 m c main_v8 : Vec Ideal S128x128 .bf16)
    = truncf .bf16 (pad S128x128 ![0, 0] ![0, 64] ![0, 0] ((m ((c : Thread nD τ).loc main_arg4)) : Vec Ideal S128x64 .f32) (sitofp (F := Ideal) .f32 (constantI S_ 32 0#32)) pads_S128x64_S128x128_000_0640 h_S_) bitsLt_bf16_f32 := by
  rw [V16_of m c main_v8 (by decide), V15_of m c main_v8 (by decide), V14_of m c main_v8 (by decide), V13_of m c main_v8 (by decide), V12_of m c main_v8 (by decide), V11_of m c main_v8 (by decide), V10_of m c main_v8 (by decide), V9_of m c main_v8 (by decide), V8_of m c main_v8 (by decide)]
  dsimp only [V7, V6, V5, V4, V3, V2, V1, V0, hostOps0_6, hostOps0_5, hostOps0_4, hostOps0_3, hostOps0_2, hostOps0_1, hostOps0]
  after_results
  rfl

theorem v19_term : (V16 m c main_v19 : Vec Ideal S128x128 .bf16)
    = truncf .bf16 (pad S128x128 ![0, 0] ![64, 0] ![0, 0] ((m ((c : Thread nD τ).loc main_arg8)) : Vec Ideal S64x128 .f32) (sitofp (F := Ideal) .f32 (constantI S_ 32 0#32)) pads_S64x128_S128x128_0640_000 h_S_) bitsLt_bf16_f32 := by
  dsimp only [V16, V15, V14, V13, V12, V11, V10, V9, V8, V7, V6, V5, V4, V3, V2, V1, V0, hostOps0_15, hostOps0_14, hostOps0_13, hostOps0_12, hostOps0_11, hostOps0_10, hostOps0_9, hostOps0_8, hostOps0_7, hostOps0_6, hostOps0_5, hostOps0_4, hostOps0_3, hostOps0_2, hostOps0_1, hostOps0]
  after_results
  rfl

theorem p_v9 : (V12 m c main_v9 : Vec Ideal S128x128 .f32)
    = (extractStridedSlice S128x128 ![0, 0] ((m ((c : Thread nD τ).loc main_arg10)) : Vec Ideal S192x128 .f32) slices_S192x128_S128x128_0_0) := by
  rw [V12_of m c main_v9 (by decide), V11_of m c main_v9 (by decide), V10_of m c main_v9 (by decide), V9_of m c main_v9 (by decide), V8_of m c main_v9 (by decide)]
  dsimp only [V7, hostOps0_6]
  after_results

theorem p_v11 : (V12 m c main_v11 : Vec Ideal S128x128 .f32)
    = (pad S128x128 ![0, 0] ![64, 0] ![0, 0] (extractStridedSlice S64x128 ![128, 0] ((m ((c : Thread nD τ).loc main_arg10)) : Vec Ideal S192x128 .f32) slices_S192x128_S64x128_128_0) (sitofp (F := Ideal) .f32 (constantI S_ 32 0#32)) pads_S64x128_S128x128_0640_000 h_S_) := by
  rw [V12_of m c main_v11 (by decide), V11_of m c main_v11 (by decide), V10_of m c main_v11 (by decide), V9_of m c main_v11 (by decide)]
  dsimp only [V8, V7, hostOps0_7, hostOps0_6]
  after_results
  rfl

theorem p_v13 : (V12 m c main_v13 : Vec Ideal S128x128 .f32)
    = (pad S128x128 ![0, 0] ![0, 64] ![0, 0] (extractStridedSlice S128x64 ![0, 0] ((m ((c : Thread nD τ).loc main_arg6)) : Vec Ideal S192x64 .f32) slices_S192x64_S128x64_0_0) (sitofp (F := Ideal) .f32 (constantI S_ 32 0#32)) pads_S128x64_S128x128_000_0640 h_S_) := by
  rw [V12_of m c main_v13 (by decide), V11_of m c main_v13 (by decide)]
  dsimp only [V10, V9, hostOps0_9, hostOps0_8]
  after_results
  rfl

theorem p_v15 : (V12 m c main_v15 : Vec Ideal S128x128 .f32)
    = (pad S128x128 ![0, 0] ![64, 64] ![0, 0] (extractStridedSlice S64x64 ![128, 0] ((m ((c : Thread nD τ).loc main_arg6)) : Vec Ideal S192x64 .f32) slices_S192x64_S64x64_128_0) (sitofp (F := Ideal) .f32 (constantI S_ 32 0#32)) pads_S64x64_S128x128_0640_0640 h_S_) := by
  dsimp only [V12, V11, hostOps0_11, hostOps0_10]
  after_results
  rfl

theorem p_v16 : (V13 m c main_v16 : Vec Ideal S256x256 .f32)
    = (concatenate S256x256 0 [⟨S128x256, (concatenate S128x256 1 [⟨S128x128, (extractStridedSlice S128x128 ![0, 0] ((m ((c : Thread nD τ).loc main_arg10)) : Vec Ideal S192x128 .f32) slices_S192x128_S128x128_0_0)⟩, ⟨S128x128, (pad S128x128 ![0, 0] ![0, 64] ![0, 0] (extractStridedSlice S128x64 ![0, 0] ((m ((c : Thread nD τ).loc main_arg6)) : Vec Ideal S192x64 .f32) slices_S192x64_S128x64_0_0) (sitofp (F := Ideal) .f32 (constantI S_ 32 0#32)) pads_S128x64_S128x128_000_0640 h_S_)⟩] concatenates_S128x128_S128x128_S128x256_d1)⟩, ⟨S128x256, (concatenate S128x256 1 [⟨S128x128, (pad S128x128 ![0, 0] ![64, 0] ![0, 0] (extractStridedSlice S64x128 ![128, 0] ((m ((c : Thread nD τ).loc main_arg10)) : Vec Ideal S192x128 .f32) slices_S192x128_S64x128_128_0) (sitofp (F := Ideal) .f32 (constantI S_ 32 0#32)) pads_S64x128_S128x128_0640_000 h_S_)⟩, ⟨S128x128, (pad S128x128 ![0, 0] ![64, 64] ![0, 0] (extractStridedSlice S64x64 ![128, 0] ((m ((c : Thread nD τ).loc main_arg6)) : Vec Ideal S192x64 .f32) slices_S192x64_S64x64_128_0) (sitofp (F := Ideal) .f32 (constantI S_ 32 0#32)) pads_S64x64_S128x128_0640_0640 h_S_)⟩] concatenates_S128x128_S128x128_S128x256_d1)⟩] concatenates_S128x256_S128x256_S256x256_d0) := by
  have e9 := p_v9 m c
  have e11 := p_v11 m c
  have e13 := p_v13 m c
  have e15 := p_v15 m c
  dsimp only [V13, hostOps0_12]
  generalize V12 m c = W at e9 e11 e13 e15 ⊢
  after_results
  rw [e9, e13, e11, e15]
  rfl

theorem v17_term : (V16 m c main_v17 : Vec Ideal S256x256 .bf16)
    = truncf .bf16 (concatenate S256x256 0 [⟨S128x256, (concatenate S128x256 1 [⟨S128x128, (extractStridedSlice S128x128 ![0, 0] ((m ((c : Thread nD τ).loc main_arg10)) : Vec Ideal S192x128 .f32) slices_S192x128_S128x128_0_0)⟩, ⟨S128x128, (pad S128x128 ![0, 0] ![0, 64] ![0, 0] (extractStridedSlice S128x64 ![0, 0] ((m ((c : Thread nD τ).loc main_arg6)) : Vec Ideal S192x64 .f32) slices_S192x64_S128x64_0_0) (sitofp (F := Ideal) .f32 (constantI S_ 32 0#32)) pads_S128x64_S128x128_000_0640 h_S_)⟩] concatenates_S128x128_S128x128_S128x256_d1)⟩, ⟨S128x256, (concatenate S128x256 1 [⟨S128x128, (pad S128x128 ![0, 0] ![64, 0] ![0, 0] (extractStridedSlice S64x128 ![128, 0] ((m ((c : Thread nD τ).loc main_arg10)) : Vec Ideal S192x128 .f32) slices_S192x128_S64x128_128_0) (sitofp (F := Ideal) .f32 (constantI S_ 32 0#32)) pads_S64x128_S128x128_0640_000 h_S_)⟩, ⟨S128x128, (pad S128x128 ![0, 0] ![64, 64] ![0, 0] (extractStridedSlice S64x64 ![128, 0] ((m ((c : Thread nD τ).loc main_arg6)) : Vec Ideal S192x64 .f32) slices_S192x64_S64x64_128_0) (sitofp (F := Ideal) .f32 (constantI S_ 32 0#32)) pads_S64x64_S128x128_0640_0640 h_S_)⟩] concatenates_S128x128_S128x128_S128x256_d1)⟩] concatenates_S128x256_S128x256_S256x256_d0) bitsLt_bf16_f32 := by
  rw [V16_of m c main_v17 (by decide), V15_of m c main_v17 (by decide)]
  have e16 := p_v16 m c
  dsimp only [V14, hostOps0_13]
  generalize V13 m c = W at e16 ⊢
  after_results
  rw [e16]

/-- The twelve arguments at launch, as matrices and rows. -/
def argsOf : Args :=
  ⟨ofArr (m ((c : Thread nD τ).loc main_arg0)),
   ofArr (m ((c : Thread nD τ).loc main_arg1)),
   ofArr (m ((c : Thread nD τ).loc main_arg2)),
   ofVec (m ((c : Thread nD τ).loc main_arg3)),
   ofArr (m ((c : Thread nD τ).loc main_arg4)),
   ofVec (m ((c : Thread nD τ).loc main_arg5)),
   ofArr (m ((c : Thread nD τ).loc main_arg6)),
   ofVec (m ((c : Thread nD τ).loc main_arg7)),
   ofArr (m ((c : Thread nD τ).loc main_arg8)),
   ofVec (m ((c : Thread nD τ).loc main_arg9)),
   ofArr (m ((c : Thread nD τ).loc main_arg10)),
   ofVec (m ((c : Thread nD τ).loc main_arg11))⟩

/-- The padded weights and bias rows the first kernel launch finds. -/
def paddedOf : Padded :=
  ⟨ofArr (V16 m c main_v8), rowOf1 (V16 m c main_v2), ofArr (V16 m c main_v17), rowOf1 (V16 m c main_v4),
   ofArr (V16 m c main_v19)⟩

/-- What the first launch finds is the zero padding of the arguments' weights and biases. -/
theorem isPadding : IsPadding (argsOf m c) (paddedOf m c) where
  W2p f j := by
    show (V16 m c main_v8 : Vec Ideal S128x128 .bf16) (ix2 f j) = _
    rw [v8_term]
    exact w2p_read _ f j
  b2p j := by
    show (V16 m c main_v2 : Vec Ideal S1x128 .f32) (ix2 (0 : Fin 1) j) = _
    rw [v2_term]
    exact brow_read _ j
  b3p j := by
    show (V16 m c main_v4 : Vec Ideal S1x128 .f32) (ix2 (0 : Fin 1) j) = _
    rw [v4_term]
    exact brow_read _ j
  W4p f j := by
    show (V16 m c main_v19 : Vec Ideal S128x128 .bf16) (ix2 f j) = _
    rw [v19_term]
    exact w4p_read _ f j
  Wc f j := by
    show (V16 m c main_v17 : Vec Ideal S256x256 .bf16) (ix2 f j) = _
    rw [v17_term]
    exact wc_read _ _ f j

/-- The first bias row is the first bias. -/
theorem b1_row : rowOf1 (V16 m c main_v0) = (argsOf m c).b1 := by
  funext j
  show (V16 m c main_v0 : Vec Ideal S1x128 .f32) (ix2 (0 : Fin 1) j) = _
  rw [v0_term]
  exact reshape_row _ _ j

/-- The fourth bias row is the fourth bias. -/
theorem b4_row : rowOf1 (V16 m c main_v5) = (argsOf m c).b4 := by
  funext j
  show (V16 m c main_v5 : Vec Ideal S1x128 .f32) (ix2 (0 : Fin 1) j) = _
  rw [v5_term]
  exact reshape_row _ _ j

/-- The gate's bias row is the gate's bias. -/
theorem bl_row : rowOf1 (V16 m c main_v6) = (argsOf m c).bl := by
  funext j
  show (V16 m c main_v6 : Vec Ideal S1x128 .f32) (ix2 (0 : Fin 1) j) = _
  rw [v6_term]
  exact reshape_row _ _ j

end Cert.KernelIdeal.Prelude

end
-- ==== Proof.PadAlgebra.lean ====
/-
  The 128-wide spelling of the network agrees with the joined spelling, entry by entry.

  A padded weight column (or row) is zero, so every product it meets is x * 0 = 0, and a finite sum whose terms vanish
  from some index on is the sum of its leading terms. Nothing else is used: no distributivity, and the logistic function
  only through the fact that equal arguments give equal values.
-/
import proofs.«138753_g16518444220475_cont_week2b_302_25_alg».proof.Proof.Spec

noncomputable section

namespace Cert.Spec

open Idealize.ShloMosaic
open scoped BigOperators

/-- A finite sum whose terms vanish from index `m` on is the sum of its first `m` terms. -/
theorem sum_fin_trunc {M : Type _} [AddCommMonoid M] {m n : ℕ} (hmn : m ≤ n) (g : Fin n → M)
    (hz : ∀ f : Fin n, m ≤ f.val → g f = 0) :
    ∑ f : Fin n, g f = ∑ f : Fin m, g ⟨f.val, lt_of_lt_of_le f.isLt hmn⟩ := by
  obtain ⟨d, rfl⟩ := Nat.exists_eq_add_of_le hmn
  rw [Fin.sum_univ_add]
  rw [Finset.sum_eq_zero (fun i _ => hz (Fin.natAdd m i) (by simp [Fin.natAdd])), add_zero]
  rfl

/-- The left columns of two matrices side by side. -/
theorem join_lo {n a b : ℕ} (P : Mat n a) (Q : Mat n b) (r : Fin n) (f : Fin (a + b)) (hf : f.val < a) :
    join P Q r f = P r ⟨f.val, hf⟩ := by
  unfold join; rw [dif_pos hf]

/-- The right columns of two matrices side by side. -/
theorem join_hi {n a b : ℕ} (P : Mat n a) (Q : Mat n b) (r : Fin n) (f : Fin (a + b)) (hf : ¬ f.val < a) :
    join P Q r f = Q r ⟨f.val - a, by have := f.isLt; omega⟩ := by
  unfold join; rw [dif_neg hf]

variable {p : Args} {q : Padded}

/-- The padded second support agrees with the 64-wide one on the first 64 columns. -/
theorem kS2_lo (h : IsPadding p q) (r : Fin 10000) (j : Fin 128) (hj : j.val < 64) :
    kS2 p q r j = mm p.x11 p.W2 r ⟨j.val, hj⟩ := by
  unfold kS2 mm
  refine Finset.sum_congr rfl (fun f _ => ?_)
  rw [h.W2p, dif_pos hj]

/-- The padded second layer agrees with the 64-wide one on the first 64 columns. -/
theorem kX12_lo (h : IsPadding p q) (r : Fin 10000) (j : Fin 128) (hj : j.val < 64) :
    kX12 p q r j = p.x12 r ⟨j.val, hj⟩ := by
  show Ideal.logistic ((∑ f, p.A r f * kS2 p q f j) + q.b2p j)
     = Ideal.logistic ((∑ f, p.A r f * mm p.x11 p.W2 f ⟨j.val, hj⟩) + p.b2 ⟨j.val, hj⟩)
  rw [h.b2p, dif_pos hj]
  simp only [kS2_lo h _ j hj]

/-- The first 192 columns of the 256-wide joined matrix are the 192-wide joined matrix. -/
theorem join_kX12_lo (h : IsPadding p q) (r : Fin 10000) (f : Fin 192) :
    join p.x11 (kX12 p q) r ⟨f.val, by have := f.isLt; omega⟩ = p.xcat r f := by
  unfold Args.xcat
  by_cases hf : f.val < 128
  · rw [join_lo _ _ _ _ hf, join_lo _ _ _ _ hf]
  · rw [join_hi _ _ _ _ hf, join_hi _ _ _ _ hf]
    exact kX12_lo h r _ _

/-- The left half of the block product is the gate's product. -/
theorem kR_lo (h : IsPadding p q) (r : Fin 10000) (j : Fin 256) (hj : j.val < 128) :
    kR p q r j = mm p.xcat p.Wl r ⟨j.val, hj⟩ := by
  unfold kR mm
  refine (sum_fin_trunc (m := 192) (by norm_num) _
    (fun f hf => by rw [h.Wc, dif_neg (by omega), mul_zero])).trans ?_
  refine Finset.sum_congr rfl (fun f _ => ?_)
  rw [join_kX12_lo h r f, h.Wc, dif_pos f.isLt, dif_pos hj]

/-- Columns 128 … 191 of the block product are the third layer's support. -/
theorem kS3_lo (h : IsPadding p q) (r : Fin 10000) (j : Fin 128) (hj : j.val < 64) :
    kS3 p q r j = mm p.xcat p.W3 r ⟨j.val, hj⟩ := by
  unfold kS3 kR mm
  refine (sum_fin_trunc (m := 192) (by norm_num) _
    (fun f hf => by rw [h.Wc, dif_neg (by omega), mul_zero])).trans ?_
  refine Finset.sum_congr rfl (fun f _ => ?_)
  have h1 : ¬ (128 + j.val < 128) := by omega
  have h2 : 128 + j.val - 128 < 64 := by omega
  rw [join_kX12_lo h r f, h.Wc, dif_pos f.isLt, dif_neg h1, dif_pos h2]
  congr 2
  exact Fin.ext (by simp)

/-- The gate, in either spelling. -/
theorem kL1_eq (h : IsPadding p q) : kL1 p q = p.l1 := by
  funext r j
  unfold kL1 Args.l1
  rw [kR_lo h r _ j.isLt]

/-- The padded third layer agrees with the 64-wide one on the first 64 columns. -/
theorem kX21_lo (h : IsPadding p q) (r : Fin 10000) (j : Fin 128) (hj : j.val < 64) :
    kX21 p q r j = p.x21 r ⟨j.val, hj⟩ := by
  show Ideal.logistic ((∑ f, p.A r f * kS3 p q f j) + q.b3p j)
     = Ideal.logistic ((∑ f, p.A r f * mm p.xcat p.W3 f ⟨j.val, hj⟩) + p.b3 ⟨j.val, hj⟩)
  rw [h.b3p, dif_pos hj]
  simp only [kS3_lo h _ j hj]

/-- The fourth support: the padded rows of the weight are zero. -/
theorem kS4_eq (h : IsPadding p q) (r : Fin 10000) (j : Fin 128) :
    kS4 p q r j = mm p.x21 p.W4 r j := by
  unfold kS4 mm
  refine (sum_fin_trunc (m := 64) (by norm_num) _
    (fun f hf => by rw [h.W4p, dif_neg (by omega), mul_zero])).trans ?_
  refine Finset.sum_congr rfl (fun f _ => ?_)
  rw [kX21_lo h r _ f.isLt, h.W4p, dif_pos f.isLt]

/-- The fourth layer, in either spelling. -/
theorem kX22_eq (h : IsPadding p q) : kX22 p q = p.x22 := by
  funext r j
  show Ideal.logistic ((∑ f, p.A r f * kS4 p q f j) + p.b4 j)
     = Ideal.logistic ((∑ f, p.A r f * mm p.x21 p.W4 f j) + p.b4 j)
  simp only [kS4_eq h]

/-- The two spellings of the network agree. -/
theorem kerOut_eq_refOut (p : Args) (q : Padded) (h : IsPadding p q) : kerOut p q = p.refOut := by
  funext r j
  unfold kerOut Args.refOut
  rw [kX22_eq h, kL1_eq h]

end Cert.Spec

end
-- ==== Proof.IdealResult.lean ====
/-
  The kernel's result array at the ideal values.

  Let P be the twelve arguments as matrices and Q the padded weights and bias rows the host operations make of them.
  Pass by pass the arrays are: after the first pass the adjacency copy is A, the first layer's array is x11 and the next
  support is x11 · W2'; after the second the gate is l1 and the next support is the right half of [x11 | σ(A · (x11 · W2') +
  b2')] · Wc; after the third the next support is σ(A · S3 + b3') · W4'; and the fourth pass leaves σ(x11 + σ(A · S4 + b4) ⊙
  l1). That is the 128-wide spelling of the network, which the padding facts turn into the reference's spelling.
-/
import proofs.«138753_g16518444220475_cont_week2b_302_25_alg».proof.Proof.IdealChain
import proofs.«138753_g16518444220475_cont_week2b_302_25_alg».proof.Proof.IdealValueOneFinal
import proofs.«138753_g16518444220475_cont_week2b_302_25_alg».proof.Proof.ValueTwo
import proofs.«138753_g16518444220475_cont_week2b_302_25_alg».proof.Proof.ValueThree
import proofs.«138753_g16518444220475_cont_week2b_302_25_alg».proof.Proof.ValueFour
import proofs.«138753_g16518444220475_cont_week2b_302_25_alg».proof.Proof.IdealPrelude
import proofs.«138753_g16518444220475_cont_week2b_302_25_alg».proof.Proof.PadAlgebra

set_option maxRecDepth 16384

noncomputable section

namespace Cert.KernelIdeal.Result

open Cert.KernelIdeal Cert.KernelIdeal.Gen Cert.KernelIdeal.Whole Cert.KernelIdeal.Chain Cert.Spec
open Idealize.ShloMosaic Idealize.ShloMosaic.TcCoe Idealize.ShloMosaic.ValueIdx Idealize.SL.Sem

variable (m : (ℓ : Loc nD τ sig) → Buf (Elt Ideal) ℓ) (c : Dev nD)

/-- The arguments as matrices, and the padded weights the host operations make of them. -/
abbrev P : Args := Prelude.argsOf m c
abbrev Q : Padded := Prelude.paddedOf m c

/-- The two ways a [1,128] row is read are one. -/
theorem row_eq (v : Vec Ideal S1x128 .f32) : Payloads.rowOf v = Prelude.rowOf1 v := rfl

/-! ## After the first pass -/

theorem s_adj : ofArr (X1 m c main_v20_0) = (P m c).A := by
  funext r k
  show X1 m c main_v20_0 (ix2 r k) = _
  rw [x1_main_v20_0, ValueOneFinal.value5 (E0 m) c r k]
  show V16 m c main_arg1 (ix2 r k) = _
  rw [v16_main_arg1]; rfl

theorem in_adj : ValueOne.adj (E0 m) c = (P m c).A := by
  show ofArr (V16 m c main_arg1) = _; rw [v16_main_arg1]; rfl
theorem in_feat : ValueOne.feat (E0 m) c = (P m c).X := by
  show ofArr (V16 m c main_arg0) = _; rw [v16_main_arg0]; rfl
theorem in_w1 : ValueOne.w1 (E0 m) c = (P m c).W1 := by
  show ofArr (V16 m c main_arg2) = _; rw [v16_main_arg2]; rfl
theorem in_b1 : ValueOne.b1 (E0 m) c = (P m c).b1 := Prelude.b1_row m c
theorem in_w2p : ValueOne.w2p (E0 m) c = (Q m c).W2p := rfl

theorem s_x11 : ofArr (X1 m c main_v20_1) = (P m c).x11 := by
  funext r j
  show X1 m c main_v20_1 (ix2 r j) = _
  rw [x1_main_v20_1, ValueOneFinal.value6 (E0 m) c r j, in_adj, in_feat, in_w1, in_b1]
  rfl

theorem s_s2 : ofArr (X1 m c main_v20_2) = kS2 (P m c) (Q m c) := by
  funext r j
  show X1 m c main_v20_2 (ix2 r j) = _
  rw [x1_main_v20_2, ValueOneFinal.value7 (E0 m) c r j, in_adj, in_feat, in_w1, in_b1, in_w2p]
  rfl

/-! ## After the second pass -/

theorem two_adj : ofArr (E1 m c (Pipeline.arrRef spec1 0)) = (P m c).A := s_adj m c
theorem two_sup : ofArr (E1 m c (Pipeline.arrRef spec1 1)) = kS2 (P m c) (Q m c) := s_s2 m c
theorem two_bias : Payloads.rowOf (E1 m c (Pipeline.arrRef spec1 2)) = (Q m c).b2p := by
  show Payloads.rowOf (X1 m c main_v2) = _; rw [x1_main_v2]; rfl
theorem two_x11 : ofArr (E1 m c (Pipeline.arrRef spec1 3)) = (P m c).x11 := s_x11 m c
theorem two_wc : ofArr (E1 m c (Pipeline.arrRef spec1 4)) = (Q m c).Wc := by
  show ofArr (X1 m c main_v17) = _; rw [x1_main_v17]; rfl
theorem two_bl : Payloads.rowOf (E1 m c (Pipeline.arrRef spec1 5)) = (P m c).bl := by
  show Payloads.rowOf (X1 m c main_v6) = _; rw [x1_main_v6]; exact Prelude.bl_row m c

theorem two_R : ValueTwo.R (E1 m) c = kR (P m c) (Q m c) := by
  show mm (join (ofArr (E1 m c (Pipeline.arrRef spec1 3))) (conv (ofArr (E1 m c (Pipeline.arrRef spec1 0))) (ofArr (E1 m c (Pipeline.arrRef spec1 1))) (Payloads.rowOf (E1 m c (Pipeline.arrRef spec1 2))))) (ofArr (E1 m c (Pipeline.arrRef spec1 4))) = _
  rw [two_adj, two_sup, two_bias, two_x11, two_wc]
  rfl

theorem s_l1 : ofArr (X2 m c main_v21_0) = kL1 (P m c) (Q m c) := by
  funext r j
  show X2 m c main_v21_0 (ix2 r j) = _
  rw [x2_main_v21_0, ValueTwo.value6 (E1 m) c r j, two_R, two_bl]
  rfl

theorem s_s3 : ofArr (X2 m c main_v21_1) = kS3 (P m c) (Q m c) := by
  funext r j
  show X2 m c main_v21_1 (ix2 r j) = _
  rw [x2_main_v21_1, ValueTwo.value7 (E1 m) c r j, two_R]
  rfl

/-! ## After the third pass -/

theorem three_adj : ofArr (E2 m c (Pipeline.arrRef spec2 0)) = (P m c).A := by
  show ofArr (X2 m c main_v20_0) = _; rw [x2_main_v20_0]; exact s_adj m c
theorem three_sup : ofArr (E2 m c (Pipeline.arrRef spec2 1)) = kS3 (P m c) (Q m c) := s_s3 m c
theorem three_bias : Payloads.rowOf (E2 m c (Pipeline.arrRef spec2 2)) = (Q m c).b3p := by
  show Payloads.rowOf (X2 m c main_v4) = _; rw [x2_main_v4, x1_main_v4]; rfl
theorem three_w : ofArr (E2 m c (Pipeline.arrRef spec2 3)) = (Q m c).W4p := by
  show ofArr (X2 m c main_v19) = _; rw [x2_main_v19, x1_main_v19]; rfl

theorem s_s4 : ofArr (X3 m c main_v22) = kS4 (P m c) (Q m c) := by
  funext r j
  show X3 m c main_v22 (ix2 r j) = _
  rw [x3_main_v22, ValueThree.value4 (E2 m) c r j, three_adj, three_sup, three_bias, three_w]
  rfl

/-! ## After the fourth pass -/

theorem four_adj : ofArr (E3 m c (Pipeline.arrRef spec3 0)) = (P m c).A := by
  show ofArr (X3 m c main_v20_0) = _; rw [x3_main_v20_0, x2_main_v20_0]; exact s_adj m c
theorem four_sup : ofArr (E3 m c (Pipeline.arrRef spec3 1)) = kS4 (P m c) (Q m c) := s_s4 m c
theorem four_bias : Payloads.rowOf (E3 m c (Pipeline.arrRef spec3 2)) = (P m c).b4 := by
  show Payloads.rowOf (X3 m c main_v5) = _; rw [x3_main_v5, x2_main_v5, x1_main_v5]; exact Prelude.b4_row m c
theorem four_x11 : ofArr (E3 m c (Pipeline.arrRef spec3 3)) = (P m c).x11 := by
  show ofArr (X3 m c main_v20_1) = _; rw [x3_main_v20_1, x2_main_v20_1]; exact s_x11 m c
theorem four_l1 : ofArr (E3 m c (Pipeline.arrRef spec3 4)) = kL1 (P m c) (Q m c) := by
  show ofArr (X3 m c main_v21_0) = _; rw [x3_main_v21_0]; exact s_l1 m c

/-- The result array, entry by entry, is the 128-wide spelling of the network. -/
theorem result_ker (r : Fin 10000) (j : Fin 128) : result m c (ix2 r j) = kerOut (P m c) (Q m c) r j := by
  show (PassFour.dat (E3 m) c).arrAt 5 cfg3.N (ix2 r j) = _
  rw [ValueFour.value5 (E3 m) c r j, four_adj, four_sup, four_bias, four_x11, four_l1]
  rfl

/-- The result array, entry by entry, is the reference's function of the arguments. -/
theorem result_at (i : S10000x128.Idx) : result m c i = (P m c).refOut (i 0) (i 1) :=
  (congrArg (result m c) (eq_ix2 i)).trans ((result_ker m c (i 0) (i 1)).trans
    (congrFun (congrFun (kerOut_eq_refOut (P m c) (Q m c) (Prelude.isPadding m c)) (i 0)) (i 1)))

theorem result_ref : (result m c : S10000x128.Idx → EReal) = fun i => (P m c).refOut (i 0) (i 1) :=
  funext (result_at m c)

end Cert.KernelIdeal.Result

end
-- ==== Proof.RefValue.lean ====
/-
  The reference program's result, at the ideal values, is the network of Spec.lean on its twelve arguments read as
  matrices and rows.

  The reference is σ(A · (x · W) + b) four times over, with one column join, one gate and one last σ. Each σ is spelt
  1 / (1 + exp(−y)), which is the logistic function by definition; each product is a sum over the contracted coordinate;
  each bias is a row copied to every row of the matrix; the join reads its left piece on columns below 128 and its right
  piece, 128 columns back, on the others. The proof reads each named intermediate at one entry and identifies the index
  functions of the generated reading lemmas with coordinate pairs.
-/
import proofs.«138753_g16518444220475_cont_week2b_302_25_alg».proof.Proof.Gen.ReferenceIdeal.Read
import proofs.«138753_g16518444220475_cont_week2b_302_25_alg».proof.Proof.Spec
import Idealize.ShloMosaic.Lib.IdealHost

noncomputable section

namespace Cert.ReferenceIdeal.RefValue

open Cert.ReferenceIdeal Cert.ReferenceIdeal.Gen Cert.ReferenceIdeal.Read Cert.Spec
open Idealize.ShloMosaic Idealize.ShloMosaic.ValueIdx
open scoped BigOperators

/-- A rank-2 index with coordinates `a` and `b` is the pair (a, b). -/
theorem ix2_ext {n0 n1 : ℕ} (f : (⟨2, ![n0, n1]⟩ : Shape).Idx) (a : Fin n0) (b : Fin n1) (h0 : f 0 = a) (h1 : f 1 = b) :
    f = ix2 a b := by
  subst h0 h1
  exact eq_ix2 f

/-- A rank-1 index with coordinate `a` is (a). -/
theorem ix1_ext {n : ℕ} (f : (⟨1, ![n]⟩ : Shape).Idx) (a : Fin n) (h0 : f 0 = a) : f = ix1 a := by
  subst h0
  exact eq_ix1 f

/-- 1 / (1 + exp(−y)), with 1 given by its bit pattern, is the logistic function at y. -/
theorem sig_elem (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = Ideal.logistic y := by
  show Ideal.div (Ideal.ofBits .f32 0x3F800000#32) (Ideal.ofBits .f32 0x3F800000#32 + Ideal.exp (-y)) = _
  rw [Ideal.ofBits_one_f32]
  rfl

section
variable (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S192x64, .f32⟩ : BufTy).Contents (Elt Ideal)) (x7 : (⟨S64, .f32⟩ : BufTy).Contents (Elt Ideal)) (x8 : (⟨S64x128, .f32⟩ : BufTy).Contents (Elt Ideal)) (x9 : (⟨S128, .f32⟩ : BufTy).Contents (Elt Ideal)) (x10 : (⟨S192x128, .f32⟩ : BufTy).Contents (Elt Ideal)) (x11 : (⟨S128, .f32⟩ : BufTy).Contents (Elt Ideal))

/-- The twelve arguments as matrices and rows. -/
abbrev P : Args :=
  Args.mk (ofArr x0) (ofArr x1) (ofArr x2) (ofVec x3) (ofArr x4) (ofVec x5) (ofArr x6) (ofVec x7) (ofArr x8) (ofVec x9)
    (ofArr x10) (ofVec x11)

/-- The first layer. -/
theorem x11_eq : ofArr (val_main_v10 (F := Ideal) x0 x1 x2 x3) = (P x0 x1 x2 x3 x4 x5 x6 x7 x8 x9 x10 x11).x11 := by
  funext r j
  show val_main_v10 (F := Ideal) x0 x1 x2 x3 (ix2 r j)
    = Ideal.logistic ((∑ f, x1 (ix2 r f) * ∑ g, x0 (ix2 f g) * x2 (ix2 g j)) + x3 (ix1 j))
  rw [val_main_v10_apply, val_main_v9_apply, val_main_cst_0_apply, val_main_v8_apply, val_main_v7_apply,
    val_main_cst_apply, val_main_v6_apply, val_main_v5_apply, sig_elem, val_main_v4_apply, val_main_v3_apply,
    val_main_v2_apply, val_main_v1_apply]
  simp only [val_main_v0_apply]
  have e1 : ∀ k, lidx_main_v1 (ix2 r j) k = ix2 r k := fun k => ix2_ext _ _ _ rfl rfl
  have e2 : ∀ k, ridx_main_v1 (ix2 r j) k = ix2 k j := fun k => ix2_ext _ _ _ rfl rfl
  have e3 : ∀ (k : Fin 10000) (g : Fin 128), lidx_main_v0 (ix2 k j) g = ix2 k g := fun k g => ix2_ext _ _ _ rfl rfl
  have e4 : ∀ (k : Fin 10000) (g : Fin 128), ridx_main_v0 (ix2 k j) g = ix2 g j := fun k g => ix2_ext _ _ _ rfl rfl
  have e5 : idx_main_v2 (idx_main_v3 (ix2 r j)) = ix1 j := ix1_ext _ _ rfl
  simp only [e1, e2, e3, e4, e5]
  rfl

/-- The second layer. -/
theorem x12_eq : ofArr (val_main_v21 (F := Ideal) x0 x1 x2 x3 x4 x5) = (P x0 x1 x2 x3 x4 x5 x6 x7 x8 x9 x10 x11).x12 := by
  funext r j
  show val_main_v21 (F := Ideal) x0 x1 x2 x3 x4 x5 (ix2 r j)
    = Ideal.logistic ((∑ f, x1 (ix2 r f) * ∑ g, (P x0 x1 x2 x3 x4 x5 x6 x7 x8 x9 x10 x11).x11 f g * x4 (ix2 g j)) + x5 (ix1 j))
  rw [← x11_eq]
  rw [val_main_v21_apply, val_main_v20_apply, val_main_cst_2_apply, val_main_v19_apply, val_main_v18_apply,
    val_main_cst_1_apply, val_main_v17_apply, val_main_v16_apply, sig_elem, val_main_v15_apply, val_main_v14_apply,
    val_main_v13_apply, val_main_v12_apply]
  simp only [val_main_v11_apply]
  have e1 : ∀ k, lidx_main_v12 (ix2 r j) k = ix2 r k := fun k => ix2_ext _ _ _ rfl rfl
  have e2 : ∀ k, ridx_main_v12 (ix2 r j) k = ix2 k j := fun k => ix2_ext _ _ _ rfl rfl
  have e3 : ∀ (k : Fin 10000) (g : Fin 128), lidx_main_v11 (ix2 k j) g = ix2 k g := fun k g => ix2_ext _ _ _ rfl rfl
  have e4 : ∀ (k : Fin 10000) (g : Fin 128), ridx_main_v11 (ix2 k j) g = ix2 g j := fun k g => ix2_ext _ _ _ rfl rfl
  have e5 : idx_main_v13 (idx_main_v14 (ix2 r j)) = ix1 j := ix1_ext _ _ rfl
  simp only [e1, e2, e3, e4, e5]
  rfl

/-- The two layers side by side. -/
theorem xcat_eq : ofArr (val_main_v22 (F := Ideal) x0 x1 x2 x3 x4 x5) = (P x0 x1 x2 x3 x4 x5 x6 x7 x8 x9 x10 x11).xcat := by
  funext r f
  show val_main_v22 (F := Ideal) x0 x1 x2 x3 x4 x5 (ix2 r f) = join (P x0 x1 x2 x3 x4 x5 x6 x7 x8 x9 x10 x11).x11 (P x0 x1 x2 x3 x4 x5 x6 x7 x8 x9 x10 x11).x12 r f
  unfold val_main_v22 join
  by_cases hf : f.val < 128
  · rw [dif_pos hf, ← x11_eq]
    exact concatenate_pair_apply_left (t := S10000x192) (s₁ := S10000x128) (s₂ := S10000x64) (1 : Fin 2) _ _ _ (ix2 r f) rfl (ix2 r (⟨f.val, hf⟩ : Fin 128))
      (fun b => match b with | ⟨0, _⟩ => rfl | ⟨1, _⟩ => rfl)
  · rw [dif_neg hf, ← x12_eq]
    have hf' : f.val - 128 < 64 := by have := f.isLt; omega
    exact concatenate_pair_apply_right (t := S10000x192) (s₁ := S10000x128) (s₂ := S10000x64) (1 : Fin 2) _ _ _ (ix2 r f) rfl rfl (ix2 r (⟨f.val - 128, hf'⟩ : Fin 64))
      (fun b => match b with | ⟨0, _⟩ => fun _ => rfl | ⟨1, _⟩ => fun h => absurd rfl h)
      (by show f.val - 128 + 128 = f.val; omega)

/-- The linear gate. -/
theorem l1_eq : ofArr (val_main_v26 (F := Ideal) x0 x1 x2 x3 x4 x5 x10 x11) = (P x0 x1 x2 x3 x4 x5 x6 x7 x8 x9 x10 x11).l1 := by
  funext r j
  show val_main_v26 (F := Ideal) x0 x1 x2 x3 x4 x5 x10 x11 (ix2 r j)
    = (∑ f : Fin 192, (P x0 x1 x2 x3 x4 x5 x6 x7 x8 x9 x10 x11).xcat r f * x10 (ix2 f j)) + x11 (ix1 j)
  rw [← xcat_eq]
  rw [val_main_v26_apply, val_main_v25_apply, val_main_v24_apply, val_main_v23_apply]
  have e1 : ∀ k, lidx_main_v23 (ix2 r j) k = ix2 r k := fun k => ix2_ext _ _ _ rfl rfl
  have e2 : ∀ k, ridx_main_v23 (ix2 r j) k = ix2 k j := fun k => ix2_ext _ _ _ rfl rfl
  have e5 : idx_main_v24 (idx_main_v25 (ix2 r j)) = ix1 j := ix1_ext _ _ rfl
  simp only [e1, e2, e5]
  rfl

/-- The third layer. -/
theorem x21_eq : ofArr (val_main_v37 (F := Ideal) x0 x1 x2 x3 x4 x5 x6 x7) = (P x0 x1 x2 x3 x4 x5 x6 x7 x8 x9 x10 x11).x21 := by
  funext r j
  show val_main_v37 (F := Ideal) x0 x1 x2 x3 x4 x5 x6 x7 (ix2 r j)
    = Ideal.logistic ((∑ f, x1 (ix2 r f) * ∑ g : Fin 192, (P x0 x1 x2 x3 x4 x5 x6 x7 x8 x9 x10 x11).xcat f g * x6 (ix2 g j)) + x7 (ix1 j))
  rw [← xcat_eq]
  rw [val_main_v37_apply, val_main_v36_apply, val_main_cst_4_apply, val_main_v35_apply, val_main_v34_apply, val_main_cst_3_apply, val_main_v33_apply, val_main_v32_apply, sig_elem, val_main_v31_apply, val_main_v30_apply, val_main_v29_apply, val_main_v28_apply]
  simp only [val_main_v27_apply]
  have e1 : ∀ k, lidx_main_v28 (ix2 r j) k = ix2 r k := fun k => ix2_ext _ _ _ rfl rfl
  have e2 : ∀ k, ridx_main_v28 (ix2 r j) k = ix2 k j := fun k => ix2_ext _ _ _ rfl rfl
  have e3 : ∀ (k : Fin 10000) (g : Fin 192), lidx_main_v27 (ix2 k j) g = ix2 k g := fun k g => ix2_ext _ _ _ rfl rfl
  have e4 : ∀ (k : Fin 10000) (g : Fin 192), ridx_main_v27 (ix2 k j) g = ix2 g j := fun k g => ix2_ext _ _ _ rfl rfl
  have e5 : idx_main_v29 (idx_main_v30 (ix2 r j)) = ix1 j := ix1_ext _ _ rfl
  simp only [e1, e2, e3, e4, e5]
  rfl

/-- The fourth layer. -/
theorem x22_eq : ofArr (val_main_v48 (F := Ideal) x0 x1 x2 x3 x4 x5 x6 x7 x8 x9) = (P x0 x1 x2 x3 x4 x5 x6 x7 x8 x9 x10 x11).x22 := by
  funext r j
  show val_main_v48 (F := Ideal) x0 x1 x2 x3 x4 x5 x6 x7 x8 x9 (ix2 r j)
    = Ideal.logistic ((∑ f, x1 (ix2 r f) * ∑ g : Fin 64, (P x0 x1 x2 x3 x4 x5 x6 x7 x8 x9 x10 x11).x21 f g * x8 (ix2 g j)) + x9 (ix1 j))
  rw [← x21_eq]
  rw [val_main_v48_apply, val_main_v47_apply, val_main_cst_6_apply, val_main_v46_apply, val_main_v45_apply, val_main_cst_5_apply, val_main_v44_apply, val_main_v43_apply, sig_elem, val_main_v42_apply, val_main_v41_apply, val_main_v40_apply, val_main_v39_apply]
  simp only [val_main_v38_apply]
  have e1 : ∀ k, lidx_main_v39 (ix2 r j) k = ix2 r k := fun k => ix2_ext _ _ _ rfl rfl
  have e2 : ∀ k, ridx_main_v39 (ix2 r j) k = ix2 k j := fun k => ix2_ext _ _ _ rfl rfl
  have e3 : ∀ (k : Fin 10000) (g : Fin 64), lidx_main_v38 (ix2 k j) g = ix2 k g := fun k g => ix2_ext _ _ _ rfl rfl
  have e4 : ∀ (k : Fin 10000) (g : Fin 64), ridx_main_v38 (ix2 k j) g = ix2 g j := fun k g => ix2_ext _ _ _ rfl rfl
  have e5 : idx_main_v40 (idx_main_v41 (ix2 r j)) = ix1 j := ix1_ext _ _ rfl
  simp only [e1, e2, e3, e4, e5]
  rfl

/-- The result, as a matrix. -/
theorem out_eq : ofArr (val_main_v56 (F := Ideal) x0 x1 x2 x3 x4 x5 x6 x7 x8 x9 x10 x11) = (P x0 x1 x2 x3 x4 x5 x6 x7 x8 x9 x10 x11).refOut := by
  funext r j
  show val_main_v56 (F := Ideal) x0 x1 x2 x3 x4 x5 x6 x7 x8 x9 x10 x11 (ix2 r j)
    = Ideal.logistic ((P x0 x1 x2 x3 x4 x5 x6 x7 x8 x9 x10 x11).x11 r j + (P x0 x1 x2 x3 x4 x5 x6 x7 x8 x9 x10 x11).x22 r j * (P x0 x1 x2 x3 x4 x5 x6 x7 x8 x9 x10 x11).l1 r j)
  rw [← x11_eq, ← x22_eq, ← l1_eq]
  rw [val_main_v56_apply, val_main_v55_apply, val_main_cst_8_apply, val_main_v54_apply, val_main_v53_apply, val_main_cst_7_apply, val_main_v52_apply, val_main_v51_apply, sig_elem, val_main_v50_apply, val_main_v49_apply]
  rfl

/-- The reference program's result is the network's, entry by entry. -/
theorem result_eq :
    val_main_v56 (F := Ideal) x0 x1 x2 x3 x4 x5 x6 x7 x8 x9 x10 x11
      = fun i => (Args.mk (ofArr x0) (ofArr x1) (ofArr x2) (ofVec x3) (ofArr x4) (ofVec x5) (ofArr x6) (ofVec x7) (ofArr x8)
          (ofVec x9) (ofArr x10) (ofVec x11)).refOut (i 0) (i 1) := by
  funext i
  have hi : i = ix2 (i 0) (i 1) := eq_ix2 (n0 := 10000) (n1 := 128) i
  rw [← out_eq]
  exact congrArg (val_main_v56 (F := Ideal) x0 x1 x2 x3 x4 x5 x6 x7 x8 x9 x10 x11) hi

end

end Cert.ReferenceIdeal.RefValue

end
-- ==== Proof.lean ====
/-
  The certificate of the four-pass graph network kernel against its plain reference.

  Each program runs to the end, faults nowhere and leaves its twelve argument arrays as launched: for the kernel (read
  at the machine's words and at the ideal values alike) this is the run of its twenty items — sixteen stretches of host
  operations, then four kernel launches, the first of which keeps the matrix x · W1 in a buffer from its first grid
  point on —; for the reference it is the run of its sixty-eight host operations. The idealized kernel differs from the
  kernel by no rewrite, so nothing is owed for that. Over the extended reals the two idealized programs end with the
  same result array: the kernel's 128-wide arithmetic on zero-padded weights is the reference's 192-wide arithmetic,
  because a padded column only ever contributes products with zero.
-/
import proofs.«138753_g16518444220475_cont_week2b_302_25_alg».proof.Defs
import proofs.«138753_g16518444220475_cont_week2b_302_25_alg».proof.Proof.BitsWhole
import proofs.«138753_g16518444220475_cont_week2b_302_25_alg».proof.Proof.IdealWhole
import proofs.«138753_g16518444220475_cont_week2b_302_25_alg».proof.Proof.Gen.ReferenceIdeal
import proofs.«138753_g16518444220475_cont_week2b_302_25_alg».proof.Proof.Gen.Pre_finite_inputs
import proofs.«138753_g16518444220475_cont_week2b_302_25_alg».proof.Proof.Gen.ReferenceIdeal.Run
import proofs.«138753_g16518444220475_cont_week2b_302_25_alg».proof.Proof.Gen.ReferenceIdeal.Read
import proofs.«138753_g16518444220475_cont_week2b_302_25_alg».proof.Proof.IdealResult
import proofs.«138753_g16518444220475_cont_week2b_302_25_alg».proof.Proof.RefValue
import Idealize.ShloMosaic.Adequacy
import Idealize.ShloMosaic.Init

noncomputable section

namespace Cert.Proof

open Idealize.ShloMosaic Idealize.ShloMosaic.TcCoe Idealize.SL.Sem

/-- The kernel at the machine's words: the named run with the result forgotten. -/
theorem frame_kernel : Cert.frame_Kernel := fun m ρ _ =>
  (θ_run Cert.Kernel.defs _ _).mono (fun _ h c => (h c).2) (Cert.Kernel.Whole.run (F := Bits) m ρ)

/-- The kernel at the ideal values: the same run. -/
theorem frame_kernelIdeal : Cert.frame_KernelIdeal := fun m ρ _ =>
  (θ_run Cert.KernelIdeal.defs _ _).mono (fun _ h c => (h c).2) (Cert.KernelIdeal.Whole.run (F := Ideal) m ρ)

/-- The reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Over the extended reals the two idealized programs end with equal result arrays: the kernel's is the reference's
    function of the kernel's arguments (the run's result array read pass by pass, then the padding facts), the
    reference's is the same function of its own arguments (its sixty-eight operations read one by one), and the two
    argument lists agree. -/
theorem algebraic : Cert.algebraic_KernelIdeal_ReferenceIdeal := by
  intro m ρ m' ρ' _ hagree
  refine ⟨fun c => Cert.KernelIdeal.Whole.result (F := Ideal) m c, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v56_eq, Cert.ReferenceIdeal.RefValue.result_eq, a0, a1, a2, a3, a4, a5, a6, a7, a8, a9, a10, a11]
  exact (Cert.KernelIdeal.Result.result_ref m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
